-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S200000 : Shape := ⟨1, ![200000]⟩
abbrev S300000 : Shape := ⟨1, ![300000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part4 {F : FTy → Type} [FloatOps F] (main_arg18 : FVec F S192 .f32) (main_arg19 : FVec F S192x192 .f32) (main_arg20 : FVec F S192 .f32) (main_v63 : IVec S_ 1) (main_v67 : IVec S_ 1) : IVec S_ 1 :=
  let main_v68 : IVec S_ 1 := andi main_v63 main_v67
  let main_v69 : FVec F S192 .f32 := Host.absf main_arg18
  let main_cst_26 : FVec F S_ .f32 := constant S_ .f32 0x7F800000#32
  let main_v70 : FVec F S192 .f32 := broadcastInDim S192 ![] bcast_S_S192 main_cst_26
  let main_v71 : IVec S192 1 := cmpf .olt main_v69 main_v70
  let main_c_27 : IVec S_ 1 := constantI S_ 1 1#1
  let main_v72 : IVec S_ 1 := (fun x v => Host.reduce IntOp.andi x v reducesTo_S192_S_d0 h_S_) main_v71 main_c_27
  let main_v73 : IVec S_ 1 := andi main_v68 main_v72
  let main_v74 : FVec F S192x192 .f32 := Host.absf main_arg19
  let main_cst_28 : FVec F S_ .f32 := constant S_ .f32 0x7F800000#32
  let main_v75 : FVec F S192x192 .f32 := broadcastInDim S192x192 ![] bcast_S_S192x192 main_cst_28
  let main_v76 : IVec S192x192 1 := cmpf .olt main_v74 main_v75
  let main_c_29 : IVec S_ 1 := constantI S_ 1 1#1
  let main_v77 : IVec S_ 1 := (fun x v => Host.reduce IntOp.andi x v reducesTo_S192x192_S_d0_1 h_S_) main_v76 main_c_29
  let main_v78 : IVec S_ 1 := andi main_v73 main_v77
  let main_v79 : FVec F S192 .f32 := Host.absf main_arg20
  let main_cst_30 : FVec F S_ .f32 := constant S_ .f32 0x7F800000#32
  let main_v80 : FVec F S192 .f32 := broadcastInDim S192 ![] bcast_S_S192 main_cst_30
  let main_v81 : IVec S192 1 := cmpf .olt main_v79 main_v80
  let main_c_31 : IVec S_ 1 := constantI S_ 1 1#1
  let main_v82 : IVec S_ 1 := (fun x v => Host.reduce IntOp.andi x v reducesTo_S192_S_d0 h_S_) main_v81 main_c_31
  let main_v83 : IVec S_ 1 := andi main_v78 main_v82
  main_v83

def fn_part3 {F : FTy → Type} [FloatOps F] (main_arg15 : FVec F S128x128 .f32) (main_arg16 : FVec F S128 .f32) (main_arg17 : FVec F S192x192 .f32) (main_arg18 : FVec F S192 .f32) (main_arg19 : FVec F S192x192 .f32) (main_arg20 : FVec F S192 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S192x192 .f32 := Host.absf main_arg17
  let main_cst_24 : FVec F S_ .f32 := constant S_ .f32 0x7F800000#32
  let main_v65 : FVec F S192x192 .f32 := broadcastInDim S192x192 ![] bcast_S_S192x192 main_cst_24
  let main_v66 : IVec S192x192 1 := cmpf .olt main_v64 main_v65
  let main_c_25 : IVec S_ 1 := constantI S_ 1 1#1
  let main_v67 : IVec S_ 1 := (fun x v => Host.reduce IntOp.andi x v reducesTo_S192x192_S_d0_1 h_S_) main_v66 main_c_25
  fn_part4 (F := F) main_arg18 main_arg19 main_arg20 main_v63 main_v67

def fn_part2 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S192x192 .f32) (main_arg18 : FVec F S192 .f32) (main_arg19 : FVec F S192x192 .f32) (main_arg20 : FVec F S192 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_v48 main_v49 main_v50

def fn_part1 {F : FTy → Type} [FloatOps F] (main_arg8 : FVec F S64 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S192x192 .f32) (main_arg18 : FVec F S192 .f32) (main_arg19 : FVec F S192x192 .f32) (main_arg20 : FVec F S192 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S100000x64 .f32) (main_arg1 : IVec S100000 32) (main_arg2 : IVec S200000 32) (main_arg3 : IVec S200000 32) (main_arg4 : IVec S300000 32) (main_arg5 : FVec F S64x64 .f32) (main_arg6 : FVec F S64 .f32) (main_arg7 : FVec F S64x64 .f32) (main_arg8 : FVec F S64 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S192x192 .f32) (main_arg18 : FVec F S192 .f32) (main_arg19 : FVec F S192x192 .f32) (main_arg20 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg5
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S100000x64 : Shape := ⟨2, ![100000, 64]⟩
abbrev S100000 : Shape := ⟨1, ![100000]⟩
abbrev S200000 : Shape := ⟨1, ![200000]⟩
abbrev S300000 : Shape := ⟨1, ![300000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S_ : Shape := ⟨0, ![]⟩
abbrev S100000x1 : Shape := ⟨2, ![100000, 1]⟩
abbrev S1x64 : Shape := ⟨2, ![1, 64]⟩
abbrev S10000x64 : Shape := ⟨2, ![10000, 64]⟩
abbrev S200000x1 : Shape := ⟨2, ![200000, 1]⟩
abbrev S200000x64 : Shape := ⟨2, ![200000, 64]⟩
abbrev S100000x128 : Shape := ⟨2, ![100000, 128]⟩
abbrev S1x128 : Shape := ⟨2, ![1, 128]⟩
abbrev S10000x128 : Shape := ⟨2, ![10000, 128]⟩
abbrev S300000x1 : Shape := ⟨2, ![300000, 1]⟩
abbrev S300000x64 : Shape := ⟨2, ![300000, 64]⟩
abbrev S100000x192 : Shape := ⟨2, ![100000, 192]⟩
abbrev S1x192 : Shape := ⟨2, ![1, 192]⟩
abbrev S10000x192 : Shape := ⟨2, ![10000, 192]⟩
abbrev S800000x64 : Shape := ⟨2, ![800000, 64]⟩
abbrev S800000 : Shape := ⟨1, ![800000]⟩

abbrev nBuf : Space → Nat
  | .hbm => 85
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S200000, .i32⟩
  | .hbm, ⟨3, _⟩ => ⟨S200000, .i32⟩
  | .hbm, ⟨4, _⟩ => ⟨S300000, .i32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S192x192, .f32⟩
  | .hbm, ⟨18, _⟩ => ⟨S192, .f32⟩
  | .hbm, ⟨19, _⟩ => ⟨S192x192, .f32⟩
  | .hbm, ⟨20, _⟩ => ⟨S192, .f32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x64, .f32⟩
  | .hbm, ⟨30, _⟩ => ⟨S64x64, .f32⟩
  | .hbm, ⟨31, _⟩ => ⟨S64x64, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S_, .i32⟩
  | .hbm, ⟨36, _⟩ => ⟨S200000, .i32⟩
  | .hbm, ⟨37, _⟩ => ⟨S200000, .i1⟩
  | .hbm, ⟨38, _⟩ => ⟨S_, .i32⟩
  | .hbm, ⟨39, _⟩ => ⟨S200000, .i32⟩
  | .hbm, ⟨40, _⟩ => ⟨S200000, .i32⟩
  | .hbm, ⟨41, _⟩ => ⟨S200000, .i32⟩
  | .hbm, ⟨42, _⟩ => ⟨S200000x1, .i32⟩
  | .hbm, ⟨43, _⟩ => ⟨S200000x64, .f32⟩
  | .hbm, ⟨44, _⟩ => ⟨S100000x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S1x128, .f32⟩
  | .hbm, ⟨49, _⟩ => ⟨S100000x128, .f32⟩
  | .hbm, ⟨50, _⟩ => ⟨S200000x64, .f32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x64, .f32⟩
  | .hbm, ⟨60, _⟩ => ⟨S100000x128, .f32⟩
  | .hbm, ⟨61, _⟩ => ⟨S128x128, .f32⟩
  | .hbm, ⟨62, _⟩ => ⟨S128x128, .f32⟩
  | .hbm, ⟨63, _⟩ => ⟨S1x128, .f32⟩
  | .hbm, ⟨64, _⟩ => ⟨S1x128, .f32⟩
  | .hbm, ⟨65, _⟩ => ⟨S100000x128, .f32⟩
  | .hbm, ⟨66, _⟩ => ⟨S200000x64, .f32⟩
  | .hbm, ⟨67, _⟩ => ⟨S_, .i32⟩
  | .hbm, ⟨68, _⟩ => ⟨S300000, .i32⟩
  | .hbm, ⟨69, _⟩ => ⟨S300000, .i1⟩
  | .hbm, ⟨70, _⟩ => ⟨S_, .i32⟩
  | .hbm, ⟨71, _⟩ => ⟨S300000, .i32⟩
  | .hbm, ⟨72, _⟩ => ⟨S300000, .i32⟩
  | .hbm, ⟨73, _⟩ => ⟨S300000, .i32⟩
  | .hbm, ⟨74, _⟩ => ⟨S300000x1, .i32⟩
  | .hbm, ⟨75, _⟩ => ⟨S300000x64, .f32⟩
  | .hbm, ⟨76, _⟩ => ⟨S100000x192, .f32⟩
  | .hbm, ⟨77, _⟩ => ⟨S192x192, .f32⟩
  | .hbm, ⟨78, _⟩ => ⟨S192x192, .f32⟩
  | .hbm, ⟨79, _⟩ => ⟨S1x192, .f32⟩
  | .hbm, ⟨80, _⟩ => ⟨S1x192, .f32⟩
  | .hbm, ⟨81, _⟩ => ⟨S100000x192, .f32⟩
  | .hbm, ⟨82, _⟩ => ⟨S300000x64, .f32⟩
  | .hbm, ⟨83, _⟩ => ⟨S800000x64, .f32⟩
  | .hbm, ⟨84, _⟩ => ⟨S800000, .i32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x128, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x192, .f32⟩
  | .local _ .vmem, ⟨25, _⟩ => ⟨S10000x192, .f32⟩
  | .local _ .vmem, ⟨26, _⟩ => ⟨S192x192, .f32⟩
  | .local _ .vmem, ⟨27, _⟩ => ⟨S1x192, .f32⟩
  | .local _ .vmem, ⟨28, _⟩ => ⟨S192x192, .f32⟩
  | .local _ .vmem, ⟨29, _⟩ => ⟨S1x192, .f32⟩
  | .local _ .vmem, ⟨30, _⟩ => ⟨S10000x192, .f32⟩
  | .local _ .vmem, ⟨31, _⟩ => ⟨S10000x192, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_5 : Ref sig .tc := ⟨.hbm, 67, rfl⟩
abbrev main_v40 : Ref sig .tc := ⟨.hbm, 68, rfl⟩
abbrev main_v41 : Ref sig .tc := ⟨.hbm, 69, rfl⟩
abbrev main_c_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S192x192 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x192 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S200000 : S_.BroadcastsInDim S200000 (![] : Fin 0 → Fin S200000.rank)
  bcast_S200000_S200000x1_0 : S200000.BroadcastsInDim S200000x1 (![0] : Fin 1 → Fin S200000x1.rank)
  shapeCasts_S200000x64_S100000x128 : S200000x64.ShapeCasts S100000x128
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S100000x128_S200000x64 : S100000x128.ShapeCasts S200000x64
  bcast_S_S300000 : S_.BroadcastsInDim S300000 (![] : Fin 0 → Fin S300000.rank)
  bcast_S300000_S300000x1_0 : S300000.BroadcastsInDim S300000x1 (![0] : Fin 1 → Fin S300000x1.rank)
  shapeCasts_S300000x64_S100000x192 : S300000x64.ShapeCasts S100000x192
  transposes_S192x192_S192x192_1_0 : S192x192.Transposes [1, 0] S192x192
  shapeCasts_S192_S1x192 : S192.ShapeCasts S1x192
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S10000x192 : S1x192.Broadcasts S10000x192
  shapeCasts_S100000x192_S300000x64 : S100000x192.ShapeCasts S300000x64
  concatenates_S100000x64_S200000x64_S200000x64_S300000x64_S800000x64_d0 : Shape.Concatenates [S100000x64, S200000x64, S200000x64, S300000x64] S800000x64 0
  concatenates_S100000_S200000_S200000_S300000_S800000_d0 : Shape.Concatenates [S100000, S200000, S200000, S300000] S800000 0
  gather_S100000x64_S100000x1_S100000x64_1_0_n_n_0_1_164_wf : GatherDims.WF S100000x64 S100000x1 S100000x64 [1] [0] [] [0] [] 1 ![1, 64]
  dot_S10000x64_S64x64_S10000x64_1_0_0_1_n_n_wf : DotDims.WF S10000x64 S64x64 S10000x64 [1] [0] [0] [1] [] []
  gather_S100000x64_S200000x1_S200000x64_1_0_n_n_0_1_164_wf : GatherDims.WF S100000x64 S200000x1 S200000x64 [1] [0] [] [0] [] 1 ![1, 64]
  dot_S10000x128_S128x128_S10000x128_1_0_0_1_n_n_wf : DotDims.WF S10000x128 S128x128 S10000x128 [1] [0] [0] [1] [] []
  gather_S100000x64_S300000x1_S300000x64_1_0_n_n_0_1_164_wf : GatherDims.WF S100000x64 S300000x1 S300000x64 [1] [0] [] [0] [] 1 ![1, 64]
  dot_S10000x192_S192x192_S10000x192_1_0_0_1_n_n_wf : DotDims.WF S10000x192 S192x192 S10000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x192.size a ≤ S100000x192.size a
  hwx3_0 : ∀ i : grid3.Coords, EltTy.bits .f32 = 32 ∨ (Rect.block (s := S100000x192) S10000x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x192.size a ≤ S192x192.size a
  hwx3_1 : ∀ i : grid3.Coords, EltTy.bits .f32 = 32 ∨ (Rect.block (s := S192x192) S192x192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x192.size a ≤ S1x192.size a
  hwx3_2 : ∀ i : grid3.Coords, EltTy.bits .f32 = 32 ∨ (Rect.block (s := S1x192) S1x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x192.size a ≤ S192x192.size a
  hwx3_3 : ∀ i : grid3.Coords, EltTy.bits .f32 = 32 ∨ (Rect.block (s := S192x192) S192x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x192.size a ≤ S100000x192.size a
  hwx3_5 : ∀ i : grid3.Coords, EltTy.bits .f32 = 32 ∨ (Rect.block (s := S100000x192) S10000x192.size (cc3_transform_5 i) (hinb3_5 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def dot_S10000x192_S192x192_S10000x192_1_0_0_1_n_n : DotDims S10000x192 S192x192 S10000x192 where
  lhsContracting := [1]
  rhsContracting := [0]
  lhsNonContracting := [0]
  rhsNonContracting := [1]
  lhsBatch := []
  rhsBatch := []
  wf := dot_S10000x192_S192x192_S10000x192_1_0_0_1_n_n_wf

abbrev win0_0 : Pipeline.Window sig grid0 :=
  Pipeline.Window.ofSpec (Memref.whole main_v6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v47) S10000x192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S192x192.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S192x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S10000x192.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S100000 : Shape := ⟨1, ![100000]⟩
abbrev S200000 : Shape := ⟨1, ![200000]⟩
abbrev S300000 : Shape := ⟨1, ![300000]⟩
abbrev S64x64 : Shape := ⟨2, ![64, 64]⟩
abbrev S64 : Shape := ⟨1, ![64]⟩
abbrev S128x128 : Shape := ⟨2, ![128, 128]⟩
abbrev S128 : Shape := ⟨1, ![128]⟩
abbrev S192x192 : Shape := ⟨2, ![192, 192]⟩
abbrev S192 : Shape := ⟨1, ![192]⟩
abbrev S_ : Shape := ⟨0, ![]⟩
abbrev S100000x1 : Shape := ⟨2, ![100000, 1]⟩
abbrev S1x64 : Shape := ⟨2, ![1, 64]⟩
abbrev S200000x1 : Shape := ⟨2, ![200000, 1]⟩
abbrev S200000x64 : Shape := ⟨2, ![200000, 64]⟩
abbrev S100000x128 : Shape := ⟨2, ![100000, 128]⟩
abbrev S1x128 : Shape := ⟨2, ![1, 128]⟩
abbrev S300000x1 : Shape := ⟨2, ![300000, 1]⟩
abbrev S300000x64 : Shape := ⟨2, ![300000, 64]⟩
abbrev S100000x192 : Shape := ⟨2, ![100000, 192]⟩
abbrev S1x192 : Shape := ⟨2, ![1, 192]⟩
abbrev S800000x64 : Shape := ⟨2, ![800000, 64]⟩
abbrev S800000 : Shape := ⟨1, ![800000]⟩

abbrev nBuf : Space → Nat
  | .hbm => 173
  | .vmem => 0
  | .smem => 0
  | _ => 0

abbrev hbmTy0_0 (i : Nat) : BufTy := match i % 128 with
  | 0 => ⟨S100000x64, .f32⟩
  | 1 => ⟨S100000, .i32⟩
  | 2 => ⟨S200000, .i32⟩
  | 3 => ⟨S200000, .i32⟩
  | 4 => ⟨S300000, .i32⟩
  | 5 => ⟨S64x64, .f32⟩
  | 6 => ⟨S64, .f32⟩
  | 7 => ⟨S64x64, .f32⟩
  | 8 => ⟨S64, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S192x192, .f32⟩
  | 18 => ⟨S192, .f32⟩
  | 19 => ⟨S192x192, .f32⟩
  | 20 => ⟨S192, .f32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x64, .f32⟩
  | 30 => ⟨S64x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S100000x64, .f32⟩
  | 40 => ⟨S100000x64, .i1⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S100000x64, .f32⟩
  | 47 => ⟨S100000x64, .f32⟩
  | 48 => ⟨S100000x64, .f32⟩
  | 49 => ⟨S100000x64, .f32⟩
  | 50 => ⟨S100000x64, .f32⟩
  | 51 => ⟨S64x64, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S_, .i32⟩
  | 58 => ⟨S200000, .i32⟩
  | 59 => ⟨S200000, .i1⟩
  | 60 => ⟨S_, .i32⟩
  | 61 => ⟨S200000, .i32⟩
  | 62 => ⟨S200000, .i32⟩
  | 63 => ⟨S200000, .i32⟩
  | 64 => ⟨S200000x1, .i32⟩
  | 65 => ⟨S200000x64, .f32⟩
  | 66 => ⟨S100000x128, .f32⟩
  | 67 => ⟨S128x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S100000x128, .i1⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S128x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S200000x64, .f32⟩
  | 95 => ⟨S_, .i32⟩
  | 96 => ⟨S200000, .i32⟩
  | 97 => ⟨S200000, .i1⟩
  | 98 => ⟨S_, .i32⟩
  | 99 => ⟨S200000, .i32⟩
  | 100 => ⟨S200000, .i32⟩
  | 101 => ⟨S200000, .i32⟩
  | 102 => ⟨S200000x1, .i32⟩
  | 103 => ⟨S200000x64, .f32⟩
  | 104 => ⟨S100000x128, .f32⟩
  | 105 => ⟨S128x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S100000x128, .f32⟩
  | 115 => ⟨S100000x128, .i1⟩
  | 116 => ⟨S100000x128, .f32⟩
  | 117 => ⟨S100000x128, .f32⟩
  | 118 => ⟨S100000x128, .f32⟩
  | 119 => ⟨S100000x128, .f32⟩
  | 120 => ⟨S100000x128, .f32⟩
  | 121 => ⟨S100000x128, .f32⟩
  | 122 => ⟨S100000x128, .f32⟩
  | 123 => ⟨S100000x128, .f32⟩
  | 124 => ⟨S100000x128, .f32⟩
  | 125 => ⟨S100000x128, .f32⟩
  | 126 => ⟨S128x128, .f32⟩
  | 127 => ⟨S100000x128, .f32⟩
  | _ => ⟨S100000x64, .f32⟩

abbrev hbmTy0_1 (i : Nat) : BufTy := match i % 128 with
  | 0 => ⟨S1x128, .f32⟩
  | 1 => ⟨S100000x128, .f32⟩
  | 2 => ⟨S100000x128, .f32⟩
  | 3 => ⟨S100000x128, .f32⟩
  | 4 => ⟨S200000x64, .f32⟩
  | 5 => ⟨S_, .i32⟩
  | 6 => ⟨S300000, .i32⟩
  | 7 => ⟨S300000, .i1⟩
  | 8 => ⟨S_, .i32⟩
  | 9 => ⟨S300000, .i32⟩
  | 10 => ⟨S300000, .i32⟩
  | 11 => ⟨S300000, .i32⟩
  | 12 => ⟨S300000x1, .i32⟩
  | 13 => ⟨S300000x64, .f32⟩
  | 14 => ⟨S100000x192, .f32⟩
  | 15 => ⟨S192x192, .f32⟩
  | 16 => ⟨S100000x192, .f32⟩
  | 17 => ⟨S1x192, .f32⟩
  | 18 => ⟨S100000x192, .f32⟩
  | 19 => ⟨S100000x192, .f32⟩
  | 20 => ⟨S_, .f32⟩
  | 21 => ⟨S100000x192, .f32⟩
  | 22 => ⟨S100000x192, .f32⟩
  | 23 => ⟨S100000x192, .f32⟩
  | 24 => ⟨S100000x192, .f32⟩
  | 25 => ⟨S100000x192, .i1⟩
  | 26 => ⟨S100000x192, .f32⟩
  | 27 => ⟨S100000x192, .f32⟩
  | 28 => ⟨S100000x192, .f32⟩
  | 29 => ⟨S100000x192, .f32⟩
  | 30 => ⟨S100000x192, .f32⟩
  | 31 => ⟨S100000x192, .f32⟩
  | 32 => ⟨S100000x192, .f32⟩
  | 33 => ⟨S100000x192, .f32⟩
  | 34 => ⟨S100000x192, .f32⟩
  | 35 => ⟨S100000x192, .f32⟩
  | 36 => ⟨S192x192, .f32⟩
  | 37 => ⟨S100000x192, .f32⟩
  | 38 => ⟨S1x192, .f32⟩
  | 39 => ⟨S100000x192, .f32⟩
  | 40 => ⟨S100000x192, .f32⟩
  | 41 => ⟨S100000x192, .f32⟩
  | 42 => ⟨S300000x64, .f32⟩
  | 43 => ⟨S800000x64, .f32⟩
  | 44 => ⟨S800000, .i32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_1 : Ref sig .tc := ⟨.hbm, 57, rfl⟩
abbrev main_v21 : Ref sig .tc := ⟨.hbm, 58, rfl⟩
abbrev main_v22 : Ref sig .tc := ⟨.hbm, 59, rfl⟩
abbrev main_c_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_c_3 : Ref sig .tc := ⟨.hbm, 95, rfl⟩
abbrev main_v44 : Ref sig .tc := ⟨.hbm, 96, rfl⟩
abbrev main_v45 : Ref sig .tc := ⟨.hbm, 97, rfl⟩
abbrev main_c_4 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_c_5 : Ref sig .tc := ⟨.hbm, 133, rfl⟩
abbrev main_v67 : Ref sig .tc := ⟨.hbm, 134, rfl⟩
abbrev main_v68 : Ref sig .tc := ⟨.hbm, 135, rfl⟩
abbrev main_c_6 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_call3_cst : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S200000 : S_.BroadcastsInDim S200000 (![] : Fin 0 → Fin S200000.rank)
  bcast_S200000_S200000x1_0 : S200000.BroadcastsInDim S200000x1 (![0] : Fin 1 → Fin S200000x1.rank)
  shapeCasts_S200000x64_S100000x128 : S200000x64.ShapeCasts S100000x128
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  shapeCasts_S100000x128_S200000x64 : S100000x128.ShapeCasts S200000x64
  bcast_S_S300000 : S_.BroadcastsInDim S300000 (![] : Fin 0 → Fin S300000.rank)
  bcast_S300000_S300000x1_0 : S300000.BroadcastsInDim S300000x1 (![0] : Fin 1 → Fin S300000x1.rank)
  shapeCasts_S300000x64_S100000x192 : S300000x64.ShapeCasts S100000x192
  transposes_S192x192_S192x192_1_0 : S192x192.Transposes [1, 0] S192x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  bcast_S_S100000x192 : S_.BroadcastsInDim S100000x192 (![] : Fin 0 → Fin S100000x192.rank)
  shapeCasts_S100000x192_S300000x64 : S100000x192.ShapeCasts S300000x64
  concatenates_S100000x64_S200000x64_S200000x64_S300000x64_S800000x64_d0 : Shape.Concatenates [S100000x64, S200000x64, S200000x64, S300000x64] S800000x64 0
  concatenates_S100000_S200000_S200000_S300000_S800000_d0 : Shape.Concatenates [S100000, S200000, S200000, S300000] S800000 0
  gather_S100000x64_S100000x1_S100000x64_1_0_n_n_0_1_164_wf : GatherDims.WF S100000x64 S100000x1 S100000x64 [1] [0] [] [0] [] 1 ![1, 64]
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S100000x128_S128x128_S100000x128_1_0_0_1_n_n_wf : DotDims.WF S100000x128 S128x128 S100000x128 [1] [0] [0] [1] [] []
  gather_S100000x64_S300000x1_S300000x64_1_0_n_n_0_1_164_wf : GatherDims.WF S100000x64 S300000x1 S300000x64 [1] [0] [] [0] [] 1 ![1, 64]
  dot_S100000x192_S192x192_S100000x192_1_0_0_1_n_n_wf : DotDims.WF S100000x192 S192x192 S100000x192 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x64_S300000x1_S300000x64_1_0_n_n_0_1_164 : GatherDims S100000x64 S300000x1 S300000x64 where
  offsetDims := [1]
  collapsedSliceDims := [0]
  operandBatchingDims := []
  startIndicesBatchingDims := []
  startIndexMap := [0]
  indexVectorDim := 1
  sliceSizes := ![1, 64]
  wf := gather_S100000x64_S300000x1_S300000x64_1_0_n_n_0_1_164_wf
def dot_S100000x192_S192x192_S100000x192_1_0_0_1_n_n : DotDims S100000x192 S192x192 S100000x192 where
  lhsContracting := [1]
  rhsContracting := [0]
  lhsNonContracting := [0]
  rhsNonContracting := [1]
  lhsBatch := []
  rhsBatch := []
  wf := dot_S100000x192_S192x192_S100000x192_1_0_0_1_n_n_wf

class Facts : Prop extends Facts₀ where

variable [Facts]
-- ==== Proof.KRegion0.lean ====
/-
  Call 0 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.Kernel.Launch
import proofs.«159146_j10170482557014_2_alg».proof.Proof.Gen.Kernel.Skeleton
import proofs.«159146_j10170482557014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 0: one relation's perceptron on row blocks of 10000 rows, width 64

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the block was fetched there (a
    block not fetched again is the block already staged: its index has not moved), for any proof data over these arrays
    whose body leaves the inputs in place. -/
theorem staged0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- Input window 1's current staging buffer holds its block at every point, whether or not the block was fetched there (a
    block not fetched again is the block already staged: its index has not moved), for any proof data over these arrays
    whose body leaves the inputs in place. -/
theorem staged0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- Input window 2's current staging buffer holds its block at every point, whether or not the block was fetched there (a
    block not fetched again is the block already staged: its index has not moved), for any proof data over these arrays
    whose body leaves the inputs in place. -/
theorem staged0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- Input window 3's current staging buffer holds its block at every point, whether or not the block was fetched there (a
    block not fetched again is the block already staged: its index has not moved), for any proof data over these arrays
    whose body leaves the inputs in place. -/
theorem staged0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- Input window 4's current staging buffer holds its block at every point, whether or not the block was fetched there (a
    block not fetched again is the block already staged: its index has not moved), for any proof data over these arrays
    whose body leaves the inputs in place. -/
theorem staged0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-! ## The body reads and writes whole staging buffers -/

abbrev rows0 : Rect S10000x64 := Rect.unit (s := S10000x64) ![0, 0] S10000x64.size inb_S10000x64_S10000x64_0_0
abbrev mat0 : Rect S64x64 := Rect.unit (s := S64x64) ![0, 0] S64x64.size inb_S64x64_S64x64_0_0
abbrev bias0 : Rect S1x64 := Rect.unit (s := S1x64) ![0, 0] S1x64.size inb_S1x64_S1x64_0_0

/-- The result window's staging buffer after the body: its one store, of the body's arithmetic on the five input blocks. -/
def result0 (x0 : Vec F S10000x64 .f32) (x1 : Vec F S64x64 .f32) (x2 : Vec F S1x64 .f32) (x3 : Vec F S64x64 .f32) (x4 : Vec F S1x64 .f32) : Vec F S10000x64 .f32 :=
  View.canon [⟨rows0, k0_pay1 (View.ld x0 rows0) (View.ld x1 mat0) (View.ld x2 bias0) (View.ld x3 mat0) (View.ld x4 bias0)⟩]

/-- That one store is of the whole buffer. -/
theorem result0_covers (p0 : Vec F S10000x64 .f32) (y : S10000x64.Idx) :
    ∃ pc ∈ ([⟨rows0, p0⟩] : List (View.Piece (Elt F) S10000x64 .f32)), y ∈ pc.1.set :=
  View.cover_of_tiled [⟨rows0, p0⟩] S10000x64.size (by rfl) y

set_option maxHeartbeats 1000000 in
/-- The body on whole staging memrefs — the five inputs at known contents, the result's at anything — runs to the
    continuation with the inputs as they were and the result's buffer at `result0` of them. -/
theorem body0_triple (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result0 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result0_covers _)

/-! ## The call's proof data -/

/-- On core `c`: the arrays as the call finds them; after the body at point `t` each input's buffer at its block and the
    result's at `result0` of the input blocks; the invariant carries the other calls' staging buffers and the generator
    register, untouched; nothing owed; full shares. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => result0 (blockAt0 V c 0 t) (blockAt0 V c 1 t) (blockAt0 V c 2 t) (blockAt0 V c 3 t) (blockAt0 V c 4 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = blockAt0 V c 2 t := by dsimp only [data0]
theorem data0_after_3 (c : Dev nD) (t : Fin cfg0.N) : (data0 V c).after 3 t = blockAt0 V c 3 t := by dsimp only [data0]
theorem data0_after_4 (c : Dev nD) (t : Fin cfg0.N) : (data0 V c).after 4 t = blockAt0 V c 4 t := by dsimp only [data0]
theorem data0_after_5 (c : Dev nD) (t : Fin cfg0.N) : (data0 V c).after 5 t = result0 (blockAt0 V c 0 t) (blockAt0 V c 1 t) (blockAt0 V c 2 t) (blockAt0 V c 3 t) (blockAt0 V c 4 t) := by dsimp only [data0]
theorem data0_before_0 (c : Dev nD) (t : Fin cfg0.N) (d) : (data0 V c).before 0 t d = blockAt0 V c 0 t :=
  staged0_0_of V (data0 V c) (data0_A V c 0) (data0_after_0 V c) t d
theorem data0_before_1 (c : Dev nD) (t : Fin cfg0.N) (d) : (data0 V c).before 1 t d = blockAt0 V c 1 t :=
  staged0_1_of V (data0 V c) (data0_A V c 1) (data0_after_1 V c) t d
theorem data0_before_2 (c : Dev nD) (t : Fin cfg0.N) (d) : (data0 V c).before 2 t d = blockAt0 V c 2 t :=
  staged0_2_of V (data0 V c) (data0_A V c 2) (data0_after_2 V c) t d
theorem data0_before_3 (c : Dev nD) (t : Fin cfg0.N) (d) : (data0 V c).before 3 t d = blockAt0 V c 3 t :=
  staged0_3_of V (data0 V c) (data0_A V c 3) (data0_after_3 V c) t d
theorem data0_before_4 (c : Dev nD) (t : Fin cfg0.N) (d) : (data0 V c).before 4 t d = blockAt0 V c 4 t :=
  staged0_4_of V (data0 V c) (data0_A V c 4) (data0_after_4 V c) t d

/-! ## The body obligation at a generic point -/

def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d)))

def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t))

/-- The body at any point: the inputs' memrefs hold their blocks, so the triple applies; the invariant and the core's debts
    pass through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [data0_before_0, data0_before_1, data0_before_2, data0_before_3, data0_before_4]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5]
  iintro ⟨HΦ, Ho, ⟨%d0, H0⟩, ⟨%d1, H1⟩, ⟨%d2, H2⟩, ⟨%d3, H3⟩, ⟨%d4, H4⟩, ⟨%d5, H5⟩⟩
  iapply (body0_triple c Set.univ _ _ _ _ _ _ _ _ _ _ _ _ _ (blockAt0 V c 0 t) (blockAt0 V c 1 t) (blockAt0 V c 2 t) (blockAt0 V c 3 t) (blockAt0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body0_obligation (c : Dev nD) : BodyObligation (data0 (F := F) V c) (defs₀ (F := F)) Variants.none () Set.univ := fun t => by
  rw [bigSep_W0, bigSep_W0]
  exact body0_at V c t

end Cert.Kernel.Frame

end
-- ==== Proof.KRegion1.lean ====
/-
  Call 1 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.Kernel.Launch
import proofs.«159146_j10170482557014_2_alg».proof.Proof.Gen.Kernel.Skeleton
import proofs.«159146_j10170482557014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 1: one relation's perceptron on row blocks of 10000 rows, width 128

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the block was fetched there (a
    block not fetched again is the block already staged: its index has not moved), for any proof data over these arrays
    whose body leaves the inputs in place. -/
theorem staged1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- Input window 1's current staging buffer holds its block at every point, whether or not the block was fetched there (a
    block not fetched again is the block already staged: its index has not moved), for any proof data over these arrays
    whose body leaves the inputs in place. -/
theorem staged1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- Input window 2's current staging buffer holds its block at every point, whether or not the block was fetched there (a
    block not fetched again is the block already staged: its index has not moved), for any proof data over these arrays
    whose body leaves the inputs in place. -/
theorem staged1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- Input window 3's current staging buffer holds its block at every point, whether or not the block was fetched there (a
    block not fetched again is the block already staged: its index has not moved), for any proof data over these arrays
    whose body leaves the inputs in place. -/
theorem staged1_3_of {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)

/-- Input window 4's current staging buffer holds its block at every point, whether or not the block was fetched there (a
    block not fetched again is the block already staged: its index has not moved), for any proof data over these arrays
    whose body leaves the inputs in place. -/
theorem staged1_4_of {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

/-! ## The body reads and writes whole staging buffers -/

abbrev rows1 : Rect S10000x128 := Rect.unit (s := S10000x128) ![0, 0] S10000x128.size inb_S10000x128_S10000x128_0_0
abbrev mat1 : Rect S128x128 := Rect.unit (s := S128x128) ![0, 0] S128x128.size inb_S128x128_S128x128_0_0
abbrev bias1 : Rect S1x128 := Rect.unit (s := S1x128) ![0, 0] S1x128.size inb_S1x128_S1x128_0_0

/-- The result window's staging buffer after the body: its one store, of the body's arithmetic on the five input blocks. -/
def result1 (x0 : Vec F S10000x128 .f32) (x1 : Vec F S128x128 .f32) (x2 : Vec F S1x128 .f32) (x3 : Vec F S128x128 .f32) (x4 : Vec F S1x128 .f32) : Vec F S10000x128 .f32 :=
  View.canon [⟨rows1, k1_pay1 (View.ld x0 rows1) (View.ld x1 mat1) (View.ld x2 bias1) (View.ld x3 mat1) (View.ld x4 bias1)⟩]

/-- That one store is of the whole buffer. -/
theorem result1_covers (p0 : Vec F S10000x128 .f32) (y : S10000x128.Idx) :
    ∃ pc ∈ ([⟨rows1, p0⟩] : List (View.Piece (Elt F) S10000x128 .f32)), y ∈ pc.1.set :=
  View.cover_of_tiled [⟨rows1, p0⟩] S10000x128.size (by rfl) y

set_option maxHeartbeats 1000000 in
/-- The body on whole staging memrefs — the five inputs at known contents, the result's at anything — runs to the
    continuation with the inputs as they were and the result's buffer at `result1` of them. -/
theorem body1_triple (c : Dev nD) (E : Set ℕ) (i : grid1.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result1_covers _)

/-! ## The call's proof data -/

/-- On core `c`: the arrays as the call finds them; after the body at point `t` each input's buffer at its block and the
    result's at `result1` of the input blocks; the invariant carries the other calls' staging buffers and the generator
    register, untouched; nothing owed; full shares. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => result1 (blockAt1 V c 0 t) (blockAt1 V c 1 t) (blockAt1 V c 2 t) (blockAt1 V c 3 t) (blockAt1 V c 4 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = blockAt1 V c 2 t := by dsimp only [data1]
theorem data1_after_3 (c : Dev nD) (t : Fin cfg1.N) : (data1 V c).after 3 t = blockAt1 V c 3 t := by dsimp only [data1]
theorem data1_after_4 (c : Dev nD) (t : Fin cfg1.N) : (data1 V c).after 4 t = blockAt1 V c 4 t := by dsimp only [data1]
theorem data1_after_5 (c : Dev nD) (t : Fin cfg1.N) : (data1 V c).after 5 t = result1 (blockAt1 V c 0 t) (blockAt1 V c 1 t) (blockAt1 V c 2 t) (blockAt1 V c 3 t) (blockAt1 V c 4 t) := by dsimp only [data1]
theorem data1_before_0 (c : Dev nD) (t : Fin cfg1.N) (d) : (data1 V c).before 0 t d = blockAt1 V c 0 t :=
  staged1_0_of V (data1 V c) (data1_A V c 0) (data1_after_0 V c) t d
theorem data1_before_1 (c : Dev nD) (t : Fin cfg1.N) (d) : (data1 V c).before 1 t d = blockAt1 V c 1 t :=
  staged1_1_of V (data1 V c) (data1_A V c 1) (data1_after_1 V c) t d
theorem data1_before_2 (c : Dev nD) (t : Fin cfg1.N) (d) : (data1 V c).before 2 t d = blockAt1 V c 2 t :=
  staged1_2_of V (data1 V c) (data1_A V c 2) (data1_after_2 V c) t d
theorem data1_before_3 (c : Dev nD) (t : Fin cfg1.N) (d) : (data1 V c).before 3 t d = blockAt1 V c 3 t :=
  staged1_3_of V (data1 V c) (data1_A V c 3) (data1_after_3 V c) t d
theorem data1_before_4 (c : Dev nD) (t : Fin cfg1.N) (d) : (data1 V c).before 4 t d = blockAt1 V c 4 t :=
  staged1_4_of V (data1 V c) (data1_A V c 4) (data1_after_4 V c) t d

/-! ## The body obligation at a generic point -/

def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d)))

def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t))

/-- The body at any point: the inputs' memrefs hold their blocks, so the triple applies; the invariant and the core's debts
    pass through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [data1_before_0, data1_before_1, data1_before_2, data1_before_3, data1_before_4]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5]
  iintro ⟨HΦ, Ho, ⟨%d0, H0⟩, ⟨%d1, H1⟩, ⟨%d2, H2⟩, ⟨%d3, H3⟩, ⟨%d4, H4⟩, ⟨%d5, H5⟩⟩
  iapply (body1_triple c Set.univ _ _ _ _ _ _ _ _ _ _ _ _ _ (blockAt1 V c 0 t) (blockAt1 V c 1 t) (blockAt1 V c 2 t) (blockAt1 V c 3 t) (blockAt1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body1_obligation (c : Dev nD) : BodyObligation (data1 (F := F) V c) (defs₀ (F := F)) Variants.none () Set.univ := fun t => by
  rw [bigSep_W1, bigSep_W1]
  exact body1_at V c t

end Cert.Kernel.Frame

end
-- ==== Proof.KRegion2.lean ====
/-
  Call 2 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.Kernel.Launch
import proofs.«159146_j10170482557014_2_alg».proof.Proof.Gen.Kernel.Skeleton
import proofs.«159146_j10170482557014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 2: one relation's perceptron on row blocks of 10000 rows, width 128

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the block was fetched there (a
    block not fetched again is the block already staged: its index has not moved), for any proof data over these arrays
    whose body leaves the inputs in place. -/
theorem staged2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- Input window 1's current staging buffer holds its block at every point, whether or not the block was fetched there (a
    block not fetched again is the block already staged: its index has not moved), for any proof data over these arrays
    whose body leaves the inputs in place. -/
theorem staged2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- Input window 2's current staging buffer holds its block at every point, whether or not the block was fetched there (a
    block not fetched again is the block already staged: its index has not moved), for any proof data over these arrays
    whose body leaves the inputs in place. -/
theorem staged2_2_of {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)

/-- Input window 3's current staging buffer holds its block at every point, whether or not the block was fetched there (a
    block not fetched again is the block already staged: its index has not moved), for any proof data over these arrays
    whose body leaves the inputs in place. -/
theorem staged2_3_of {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)

/-- Input window 4's current staging buffer holds its block at every point, whether or not the block was fetched there (a
    block not fetched again is the block already staged: its index has not moved), for any proof data over these arrays
    whose body leaves the inputs in place. -/
theorem staged2_4_of {c : Dev nD} (dat : Dat τ (Elt F) Unit ℕ (UR sig nD τ) ℕ cfg2 c) (hA : dat.A 4 = V c (Pipeline.arrRef spec2 4))
    (hafter : ∀ t, dat.after 4 t = blockAt2 V c 4 t) (t : Fin cfg2.N) (d) : dat.before 4 t d = blockAt2 V c 4 t :=
  (dat.before_in_eq_fetched 4 rfl (fun _ => rfl) (fun _ _ _ => rfl) (fun t => by rw [hafter]; unfold Dat.blockOf blockAt2; rw [hA]; try rfl) t d).trans
    (by unfold Dat.fetched Dat.blockOf blockAt2; rw [hA]; try rfl)

/-! ## The body reads and writes whole staging buffers -/

abbrev rows2 : Rect S10000x128 := Rect.unit (s := S10000x128) ![0, 0] S10000x128.size inb_S10000x128_S10000x128_0_0
abbrev mat2 : Rect S128x128 := Rect.unit (s := S128x128) ![0, 0] S128x128.size inb_S128x128_S128x128_0_0
abbrev bias2 : Rect S1x128 := Rect.unit (s := S1x128) ![0, 0] S1x128.size inb_S1x128_S1x128_0_0

/-- The result window's staging buffer after the body: its one store, of the body's arithmetic on the five input blocks. -/
def result2 (x0 : Vec F S10000x128 .f32) (x1 : Vec F S128x128 .f32) (x2 : Vec F S1x128 .f32) (x3 : Vec F S128x128 .f32) (x4 : Vec F S1x128 .f32) : Vec F S10000x128 .f32 :=
  View.canon [⟨rows2, k2_pay1 (View.ld x0 rows2) (View.ld x1 mat2) (View.ld x2 bias2) (View.ld x3 mat2) (View.ld x4 bias2)⟩]

/-- That one store is of the whole buffer. -/
theorem result2_covers (p0 : Vec F S10000x128 .f32) (y : S10000x128.Idx) :
    ∃ pc ∈ ([⟨rows2, p0⟩] : List (View.Piece (Elt F) S10000x128 .f32)), y ∈ pc.1.set :=
  View.cover_of_tiled [⟨rows2, p0⟩] S10000x128.size (by rfl) y

set_option maxHeartbeats 1000000 in
/-- The body on whole staging memrefs — the five inputs at known contents, the result's at anything — runs to the
    continuation with the inputs as they were and the result's buffer at `result2` of them. -/
theorem body2_triple (c : Dev nD) (E : Set ℕ) (i : grid2.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result2 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result2_covers _)

/-! ## The call's proof data -/

/-- On core `c`: the arrays as the call finds them; after the body at point `t` each input's buffer at its block and the
    result's at `result2` of the input blocks; the invariant carries the other calls' staging buffers and the generator
    register, untouched; nothing owed; full shares. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => result2 (blockAt2 V c 0 t) (blockAt2 V c 1 t) (blockAt2 V c 2 t) (blockAt2 V c 3 t) (blockAt2 V c 4 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blockAt2 V c 0 t := by dsimp only [data2]
theorem data2_after_1 (c : Dev nD) (t : Fin cfg2.N) : (data2 V c).after 1 t = blockAt2 V c 1 t := by dsimp only [data2]
theorem data2_after_2 (c : Dev nD) (t : Fin cfg2.N) : (data2 V c).after 2 t = blockAt2 V c 2 t := by dsimp only [data2]
theorem data2_after_3 (c : Dev nD) (t : Fin cfg2.N) : (data2 V c).after 3 t = blockAt2 V c 3 t := by dsimp only [data2]
theorem data2_after_4 (c : Dev nD) (t : Fin cfg2.N) : (data2 V c).after 4 t = blockAt2 V c 4 t := by dsimp only [data2]
theorem data2_after_5 (c : Dev nD) (t : Fin cfg2.N) : (data2 V c).after 5 t = result2 (blockAt2 V c 0 t) (blockAt2 V c 1 t) (blockAt2 V c 2 t) (blockAt2 V c 3 t) (blockAt2 V c 4 t) := by dsimp only [data2]
theorem data2_before_0 (c : Dev nD) (t : Fin cfg2.N) (d) : (data2 V c).before 0 t d = blockAt2 V c 0 t :=
  staged2_0_of V (data2 V c) (data2_A V c 0) (data2_after_0 V c) t d
theorem data2_before_1 (c : Dev nD) (t : Fin cfg2.N) (d) : (data2 V c).before 1 t d = blockAt2 V c 1 t :=
  staged2_1_of V (data2 V c) (data2_A V c 1) (data2_after_1 V c) t d
theorem data2_before_2 (c : Dev nD) (t : Fin cfg2.N) (d) : (data2 V c).before 2 t d = blockAt2 V c 2 t :=
  staged2_2_of V (data2 V c) (data2_A V c 2) (data2_after_2 V c) t d
theorem data2_before_3 (c : Dev nD) (t : Fin cfg2.N) (d) : (data2 V c).before 3 t d = blockAt2 V c 3 t :=
  staged2_3_of V (data2 V c) (data2_A V c 3) (data2_after_3 V c) t d
theorem data2_before_4 (c : Dev nD) (t : Fin cfg2.N) (d) : (data2 V c).before 4 t d = blockAt2 V c 4 t :=
  staged2_4_of V (data2 V c) (data2_A V c 4) (data2_after_4 V c) t d

/-! ## The body obligation at a generic point -/

def bodyPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d)))

def bodyPost2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t))

/-- The body at any point: the inputs' memrefs hold their blocks, so the triple applies; the invariant and the core's debts
    pass through unread. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [data2_before_0, data2_before_1, data2_before_2, data2_before_3, data2_before_4]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5]
  iintro ⟨HΦ, Ho, ⟨%d0, H0⟩, ⟨%d1, H1⟩, ⟨%d2, H2⟩, ⟨%d3, H3⟩, ⟨%d4, H4⟩, ⟨%d5, H5⟩⟩
  iapply (body2_triple c Set.univ _ _ _ _ _ _ _ _ _ _ _ _ _ (blockAt2 V c 0 t) (blockAt2 V c 1 t) (blockAt2 V c 2 t) (blockAt2 V c 3 t) (blockAt2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body2_obligation (c : Dev nD) : BodyObligation (data2 (F := F) V c) (defs₀ (F := F)) Variants.none () Set.univ := fun t => by
  rw [bigSep_W2, bigSep_W2]
  exact body2_at V c t

end Cert.Kernel.Frame

end
-- ==== Proof.KRegion3.lean ====
/-
  Call 3 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.Kernel.Launch
import proofs.«159146_j10170482557014_2_alg».proof.Proof.Gen.Kernel.Skeleton
import proofs.«159146_j10170482557014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 3: one relation's perceptron on row blocks of 10000 rows, width 192

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the block was fetched there (a
    block not fetched again is the block already staged: its index has not moved), for any proof data over these arrays
    whose body leaves the inputs in place. -/
theorem staged3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- Input window 1's current staging buffer holds its block at every point, whether or not the block was fetched there (a
    block not fetched again is the block already staged: its index has not moved), for any proof data over these arrays
    whose body leaves the inputs in place. -/
theorem staged3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- Input window 2's current staging buffer holds its block at every point, whether or not the block was fetched there (a
    block not fetched again is the block already staged: its index has not moved), for any proof data over these arrays
    whose body leaves the inputs in place. -/
theorem staged3_2_of {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

/-- Input window 3's current staging buffer holds its block at every point, whether or not the block was fetched there (a
    block not fetched again is the block already staged: its index has not moved), for any proof data over these arrays
    whose body leaves the inputs in place. -/
theorem staged3_3_of {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- Input window 4's current staging buffer holds its block at every point, whether or not the block was fetched there (a
    block not fetched again is the block already staged: its index has not moved), for any proof data over these arrays
    whose body leaves the inputs in place. -/
theorem staged3_4_of {c : Dev nD} (dat : Dat τ (Elt F) Unit ℕ (UR sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

/-! ## The body reads and writes whole staging buffers -/

abbrev rows3 : Rect S10000x192 := Rect.unit (s := S10000x192) ![0, 0] S10000x192.size inb_S10000x192_S10000x192_0_0
abbrev mat3 : Rect S192x192 := Rect.unit (s := S192x192) ![0, 0] S192x192.size inb_S192x192_S192x192_0_0
abbrev bias3 : Rect S1x192 := Rect.unit (s := S1x192) ![0, 0] S1x192.size inb_S1x192_S1x192_0_0

/-- The result window's staging buffer after the body: its one store, of the body's arithmetic on the five input blocks. -/
def result3 (x0 : Vec F S10000x192 .f32) (x1 : Vec F S192x192 .f32) (x2 : Vec F S1x192 .f32) (x3 : Vec F S192x192 .f32) (x4 : Vec F S1x192 .f32) : Vec F S10000x192 .f32 :=
  View.canon [⟨rows3, k3_pay1 (View.ld x0 rows3) (View.ld x1 mat3) (View.ld x2 bias3) (View.ld x3 mat3) (View.ld x4 bias3)⟩]

/-- That one store is of the whole buffer. -/
theorem result3_covers (p0 : Vec F S10000x192 .f32) (y : S10000x192.Idx) :
    ∃ pc ∈ ([⟨rows3, p0⟩] : List (View.Piece (Elt F) S10000x192 .f32)), y ∈ pc.1.set :=
  View.cover_of_tiled [⟨rows3, p0⟩] S10000x192.size (by rfl) y

set_option maxHeartbeats 1000000 in
/-- The body on whole staging memrefs — the five inputs at known contents, the result's at anything — runs to the
    continuation with the inputs as they were and the result's buffer at `result3` of them. -/
theorem body3_triple (c : Dev nD) (E : Set ℕ) (i : grid3.Coords)
    (arg1 : Memref sig .tc .vmem S10000x192 .f32) (harg1 : arg1.IsWhole) (arg2 : Memref sig .tc .vmem S192x192 .f32) (harg2 : arg2.IsWhole)
    (arg3 : Memref sig .tc .vmem S1x192 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S10000x192 .f32) (harg6 : arg6.IsWhole)
    (x0 : Vec F S10000x192 .f32) (x1 : Vec F S192x192 .f32) (x2 : Vec F S1x192 .f32) (x3 : Vec F S192x192 .f32) (x4 : Vec F S1x192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result3 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result3_covers _)

/-! ## The call's proof data -/

/-- On core `c`: the arrays as the call finds them; after the body at point `t` each input's buffer at its block and the
    result's at `result3` of the input blocks; the invariant carries the other calls' staging buffers and the generator
    register, untouched; nothing owed; full shares. -/
def data3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => result3 (blockAt3 V c 0 t) (blockAt3 V c 1 t) (blockAt3 V c 2 t) (blockAt3 V c 3 t) (blockAt3 V c 4 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blockAt3 V c 0 t := by dsimp only [data3]
theorem data3_after_1 (c : Dev nD) (t : Fin cfg3.N) : (data3 V c).after 1 t = blockAt3 V c 1 t := by dsimp only [data3]
theorem data3_after_2 (c : Dev nD) (t : Fin cfg3.N) : (data3 V c).after 2 t = blockAt3 V c 2 t := by dsimp only [data3]
theorem data3_after_3 (c : Dev nD) (t : Fin cfg3.N) : (data3 V c).after 3 t = blockAt3 V c 3 t := by dsimp only [data3]
theorem data3_after_4 (c : Dev nD) (t : Fin cfg3.N) : (data3 V c).after 4 t = blockAt3 V c 4 t := by dsimp only [data3]
theorem data3_after_5 (c : Dev nD) (t : Fin cfg3.N) : (data3 V c).after 5 t = result3 (blockAt3 V c 0 t) (blockAt3 V c 1 t) (blockAt3 V c 2 t) (blockAt3 V c 3 t) (blockAt3 V c 4 t) := by dsimp only [data3]
theorem data3_before_0 (c : Dev nD) (t : Fin cfg3.N) (d) : (data3 V c).before 0 t d = blockAt3 V c 0 t :=
  staged3_0_of V (data3 V c) (data3_A V c 0) (data3_after_0 V c) t d
theorem data3_before_1 (c : Dev nD) (t : Fin cfg3.N) (d) : (data3 V c).before 1 t d = blockAt3 V c 1 t :=
  staged3_1_of V (data3 V c) (data3_A V c 1) (data3_after_1 V c) t d
theorem data3_before_2 (c : Dev nD) (t : Fin cfg3.N) (d) : (data3 V c).before 2 t d = blockAt3 V c 2 t :=
  staged3_2_of V (data3 V c) (data3_A V c 2) (data3_after_2 V c) t d
theorem data3_before_3 (c : Dev nD) (t : Fin cfg3.N) (d) : (data3 V c).before 3 t d = blockAt3 V c 3 t :=
  staged3_3_of V (data3 V c) (data3_A V c 3) (data3_after_3 V c) t d
theorem data3_before_4 (c : Dev nD) (t : Fin cfg3.N) (d) : (data3 V c).before 4 t d = blockAt3 V c 4 t :=
  staged3_4_of V (data3 V c) (data3_A V c 4) (data3_after_4 V c) t d

/-! ## The body obligation at a generic point -/

def bodyPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d)))

def bodyPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t))

/-- The body at any point: the inputs' memrefs hold their blocks, so the triple applies; the invariant and the core's debts
    pass through unread. -/
theorem body3_at (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [data3_before_0, data3_before_1, data3_before_2, data3_before_3, data3_before_4]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5]
  iintro ⟨HΦ, Ho, ⟨%d0, H0⟩, ⟨%d1, H1⟩, ⟨%d2, H2⟩, ⟨%d3, H3⟩, ⟨%d4, H4⟩, ⟨%d5, H5⟩⟩
  iapply (body3_triple c Set.univ _ _ _ _ _ _ _ _ _ _ _ _ _ (blockAt3 V c 0 t) (blockAt3 V c 1 t) (blockAt3 V c 2 t) (blockAt3 V c 3 t) (blockAt3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body3_obligation (c : Dev nD) : BodyObligation (data3 (F := F) V c) (defs₀ (F := F)) Variants.none () Set.univ := fun t => by
  rw [bigSep_W3, bigSep_W3]
  exact body3_at V c t

end Cert.Kernel.Frame

end
-- ==== Proof.KRun.lean ====
/-
  The whole run of @main: the contents of the TensorCore's unscoped buffers at every boundary between a stretch of host
  operations and a kernel call, folded from the launch memory (a stretch applies its operations; a call leaves its arrays
  at what its write-backs make of them and everything else alone), the four calls as segments over the thread state
  "every unscoped buffer at the boundary's contents, the generator register at some state, nothing owed", and the run:
  every weakly fair execution terminates, faults nowhere, and ends with every unscoped buffer at the last fold.
  Stated for any float instance.
-/
import proofs.«159146_j10170482557014_2_alg».proof.Proof.KRegion0
import proofs.«159146_j10170482557014_2_alg».proof.Proof.KRegion1
import proofs.«159146_j10170482557014_2_alg».proof.Proof.KRegion2
import proofs.«159146_j10170482557014_2_alg».proof.Proof.KRegion3
import proofs.«159146_j10170482557014_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev mem0 : Dev nD → Valuation τ sig (Elt F) := fun c b => (s₀ m ρ).mem ((c : Dev nD), b)

/-- After host stretch 0 (call 0's entry). -/
abbrev mem1 : Dev nD → Valuation τ sig (Elt F) := fun c => StableHlo.after hostOps0 (mem0 m ρ c)
/-- The same, read at the TensorCore's references. -/
abbrev ent1 : (c : Dev nD) → (b : Ref sig .tc) → Buf (Elt F) ((c : Thread nD τ).loc b) := fun c b => mem1 m ρ c b
/-- At call 0's exit: its arrays at what the pipeline leaves (an input as entered, the result's write-backs folded), every
    other buffer as entered. -/
def mem2 (c : Dev nD) : Valuation τ sig (Elt F) :=
  Pipeline.withArrays spec0 c (mem1 m ρ c) fun w => (data0 (ent1 m ρ) c).arrAt w cfg0.N
theorem mem2_arr (c : Dev nD) (w : Fin cfg0.W) :
    mem2 m ρ c (Proc.devRef .tc (Pipeline.arrRef spec0 w)) = (data0 (ent1 m ρ) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m ρ c (Proc.devRef .tc b) = mem1 m ρ c (Proc.devRef .tc b) := by
  unfold mem2; exact Pipeline.withArrays_of_ne spec0 c _ _ b hb
abbrev ext2 : (c : Dev nD) → (b : Ref sig .tc) → Buf (Elt F) ((c : Thread nD τ).loc b) := fun c b => mem2 m ρ c b
theorem ext2_arr (c : Dev nD) (w : Fin cfg0.W) : (data0 (ent1 m ρ) c).arrAt w cfg0.N = ext2 m ρ c (Pipeline.arrRef spec0 w) :=
  (mem2_arr m ρ c w).symm
theorem ext2_rest (c : Dev nD) : ∀ b, b ∉ Finset.univ.image (Pipeline.arrRef spec0) → ext2 m ρ c b = ent1 m ρ c b :=
  fun b hb => mem2_of_ne m ρ c b fun w e => hb (Finset.mem_image.mpr ⟨w, Finset.mem_univ _, e⟩)

/-- After host stretch 1 (call 1's entry). -/
abbrev mem3 : Dev nD → Valuation τ sig (Elt F) := fun c => StableHlo.after hostOps1 (mem2 m ρ c)
/-- The same, read at the TensorCore's references. -/
abbrev ent3 : (c : Dev nD) → (b : Ref sig .tc) → Buf (Elt F) ((c : Thread nD τ).loc b) := fun c b => mem3 m ρ c b
/-- At call 1's exit: its arrays at what the pipeline leaves (an input as entered, the result's write-backs folded), every
    other buffer as entered. -/
def mem4 (c : Dev nD) : Valuation τ sig (Elt F) :=
  Pipeline.withArrays spec1 c (mem3 m ρ c) fun w => (data1 (ent3 m ρ) c).arrAt w cfg1.N
theorem mem4_arr (c : Dev nD) (w : Fin cfg1.W) :
    mem4 m ρ c (Proc.devRef .tc (Pipeline.arrRef spec1 w)) = (data1 (ent3 m ρ) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m ρ c (Proc.devRef .tc b) = mem3 m ρ c (Proc.devRef .tc b) := by
  unfold mem4; exact Pipeline.withArrays_of_ne spec1 c _ _ b hb
abbrev ext4 : (c : Dev nD) → (b : Ref sig .tc) → Buf (Elt F) ((c : Thread nD τ).loc b) := fun c b => mem4 m ρ c b
theorem ext4_arr (c : Dev nD) (w : Fin cfg1.W) : (data1 (ent3 m ρ) c).arrAt w cfg1.N = ext4 m ρ c (Pipeline.arrRef spec1 w) :=
  (mem4_arr m ρ c w).symm
theorem ext4_rest (c : Dev nD) : ∀ b, b ∉ Finset.univ.image (Pipeline.arrRef spec1) → ext4 m ρ c b = ent3 m ρ c b :=
  fun b hb => mem4_of_ne m ρ c b fun w e => hb (Finset.mem_image.mpr ⟨w, Finset.mem_univ _, e⟩)

/-- After host stretch 2 (call 2's entry). -/
abbrev mem5 : Dev nD → Valuation τ sig (Elt F) := fun c => StableHlo.after hostOps2 (mem4 m ρ c)
/-- The same, read at the TensorCore's references. -/
abbrev ent5 : (c : Dev nD) → (b : Ref sig .tc) → Buf (Elt F) ((c : Thread nD τ).loc b) := fun c b => mem5 m ρ c b
/-- At call 2's exit: its arrays at what the pipeline leaves (an input as entered, the result's write-backs folded), every
    other buffer as entered. -/
def mem6 (c : Dev nD) : Valuation τ sig (Elt F) :=
  Pipeline.withArrays spec2 c (mem5 m ρ c) fun w => (data2 (ent5 m ρ) c).arrAt w cfg2.N
theorem mem6_arr (c : Dev nD) (w : Fin cfg2.W) :
    mem6 m ρ c (Proc.devRef .tc (Pipeline.arrRef spec2 w)) = (data2 (ent5 m ρ) c).arrAt w cfg2.N := by
  unfold mem6; exact Pipeline.withArrays_arr spec2 launch2.win.arr_inj c _ _ w
theorem mem6_of_ne (c : Dev nD) (b : Ref sig .tc) (hb : ∀ w, Pipeline.arrRef spec2 w ≠ b) :
    mem6 m ρ c (Proc.devRef .tc b) = mem5 m ρ c (Proc.devRef .tc b) := by
  unfold mem6; exact Pipeline.withArrays_of_ne spec2 c _ _ b hb
abbrev ext6 : (c : Dev nD) → (b : Ref sig .tc) → Buf (Elt F) ((c : Thread nD τ).loc b) := fun c b => mem6 m ρ c b
theorem ext6_arr (c : Dev nD) (w : Fin cfg2.W) : (data2 (ent5 m ρ) c).arrAt w cfg2.N = ext6 m ρ c (Pipeline.arrRef spec2 w) :=
  (mem6_arr m ρ c w).symm
theorem ext6_rest (c : Dev nD) : ∀ b, b ∉ Finset.univ.image (Pipeline.arrRef spec2) → ext6 m ρ c b = ent5 m ρ c b :=
  fun b hb => mem6_of_ne m ρ c b fun w e => hb (Finset.mem_image.mpr ⟨w, Finset.mem_univ _, e⟩)

/-- After host stretch 3 (call 3's entry). -/
abbrev mem7 : Dev nD → Valuation τ sig (Elt F) := fun c => StableHlo.after hostOps3 (mem6 m ρ c)
/-- The same, read at the TensorCore's references. -/
abbrev ent7 : (c : Dev nD) → (b : Ref sig .tc) → Buf (Elt F) ((c : Thread nD τ).loc b) := fun c b => mem7 m ρ c b
/-- At call 3's exit: its arrays at what the pipeline leaves (an input as entered, the result's write-backs folded), every
    other buffer as entered. -/
def mem8 (c : Dev nD) : Valuation τ sig (Elt F) :=
  Pipeline.withArrays spec3 c (mem7 m ρ c) fun w => (data3 (ent7 m ρ) c).arrAt w cfg3.N
theorem mem8_arr (c : Dev nD) (w : Fin cfg3.W) :
    mem8 m ρ c (Proc.devRef .tc (Pipeline.arrRef spec3 w)) = (data3 (ent7 m ρ) c).arrAt w cfg3.N := by
  unfold mem8; exact Pipeline.withArrays_arr spec3 launch3.win.arr_inj c _ _ w
theorem mem8_of_ne (c : Dev nD) (b : Ref sig .tc) (hb : ∀ w, Pipeline.arrRef spec3 w ≠ b) :
    mem8 m ρ c (Proc.devRef .tc b) = mem7 m ρ c (Proc.devRef .tc b) := by
  unfold mem8; exact Pipeline.withArrays_of_ne spec3 c _ _ b hb
abbrev ext8 : (c : Dev nD) → (b : Ref sig .tc) → Buf (Elt F) ((c : Thread nD τ).loc b) := fun c b => mem8 m ρ c b
theorem ext8_arr (c : Dev nD) (w : Fin cfg3.W) : (data3 (ent7 m ρ) c).arrAt w cfg3.N = ext8 m ρ c (Pipeline.arrRef spec3 w) :=
  (mem8_arr m ρ c w).symm
theorem ext8_rest (c : Dev nD) : ∀ b, b ∉ Finset.univ.image (Pipeline.arrRef spec3) → ext8 m ρ c b = ent7 m ρ c b :=
  fun b hb => mem8_of_ne m ρ c b fun w e => hb (Finset.mem_image.mpr ⟨w, Finset.mem_univ _, e⟩)

/-- After the last host stretch: the end. -/
abbrev mem9 : Dev nD → Valuation τ sig (Elt F) := fun c => StableHlo.after hostOps4 (mem8 m ρ c)

/-- A reference that no host stretch writes and no call stages ends as launched. -/
theorem mem9_kept (c : Dev nD) (r : Ref sig .tc)
    (h0 : r ∉ hostOps0_W) (h1 : r ∉ hostOps1_W) (h2 : r ∉ hostOps2_W) (h3 : r ∉ hostOps3_W) (h4 : r ∉ hostOps4_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    mem9 m ρ c (Proc.devRef .tc r) = m ((c : Thread nD τ).loc r) :=
  calc mem9 m ρ c (Proc.devRef .tc r)
    _ = mem8 m ρ c (Proc.devRef .tc r) := StableHlo.after_of_writes_sub hostOps4 _ hostOps4_writes h4
    _ = mem7 m ρ c (Proc.devRef .tc r) := mem8_of_ne m ρ c r a3
    _ = mem6 m ρ c (Proc.devRef .tc r) := StableHlo.after_of_writes_sub hostOps3 _ hostOps3_writes h3
    _ = mem5 m ρ c (Proc.devRef .tc r) := mem6_of_ne m ρ c r a2
    _ = mem4 m ρ c (Proc.devRef .tc r) := StableHlo.after_of_writes_sub hostOps2 _ hostOps2_writes h2
    _ = mem3 m ρ c (Proc.devRef .tc r) := mem4_of_ne m ρ c r a1
    _ = mem2 m ρ c (Proc.devRef .tc r) := StableHlo.after_of_writes_sub hostOps1 _ hostOps1_writes h1
    _ = mem1 m ρ c (Proc.devRef .tc r) := mem2_of_ne m ρ c r a0
    _ = mem0 m ρ c (Proc.devRef .tc r) := StableHlo.after_of_writes_sub hostOps0 _ hostOps0_writes h0
    _ = m ((c : Thread nD τ).loc r) := rfl

/-! ## The proof data family and the thread state -/

/-- No call has a prefetched table. -/
abbrev noTables : (p : Fin 4) → (pcfgs (F := F) p).Adm := fun p => (cfgs p).toPCfg_adm
/-- Every call's proof data, each at its entry contents. -/
def allData : (p : Fin 4) → (c : Dev nD) → Dat τ (Elt F) Unit ℕ (UR sig nD τ) ℕ (Pipeline.pin (pcfgs (F := F)) noTables p) c
  | ⟨0, _⟩ => fun c => data0 (ent1 m ρ) c
  | ⟨1, _⟩ => fun c => data1 (ent3 m ρ) c
  | ⟨2, _⟩ => fun c => data2 (ent5 m ρ) c
  | ⟨3, _⟩ => fun c => data3 (ent7 m ρ) c
/-- No core owes another anything: no level is assigned. -/
abbrev noLevels : GSem nD τ sig → Finset Unit := fun _ => ∅
abbrev lvl0 : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts. -/
abbrev atEnd (c : Dev nD) : sProp 𝕄 := iprop(StableHlo.held (c : Thread nD τ) (Pipeline.ucRefs τ sig) (mem9 m ρ c) ∗ ∃ r, prngReg c r)

/-! ## The calls as segments -/

-- unifying a library lemma stated over the pinned configuration with the printed one unfolds plain definitions in a
-- metavariable's type
set_option backward.isDefEq.respectTransparency.types false in
/-- Call 0 over the thread state: entered with every unscoped buffer at `mem1`, left with them at `mem2`. Its arrays
    are split out of the unscoped buffers at entry and put back at exit; the generator register goes into the pipeline's
    invariant and comes out; nothing is owed; the body has no semaphore of its own. -/
def call0 : Pipeline.RegionSeg (pcfgs (F := F)) noTables (allData m ρ) () defs₀ Variants.none noLevels lvl0 0 where
  win := launch0.win.to₀
  block_pos := launch0.block_pos
  stage_whole := launch0.stage_whole
  K := PEmpty
  osem k := k.elim
  ho := Pipeline.OwnSemFacts.none _
  hbody c := (body0_obligation (ent1 m ρ) c).loose
  hwaits := Pipeline.hwaits_of_owed_zero _ _ _ _ noLevels lvl0 0 fun _ _ => rfl
  pre c := iprop(StableHlo.held (c : Thread nD τ) (Pipeline.ucRefs τ sig) (mem1 m ρ c) ∗ Rest c)
  post c := iprop(StableHlo.held (c : Thread nD τ) (Pipeline.ucRefs τ sig) (mem2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) noTables (allData m ρ) launch0.win launch0.arr_whole c
      ((allData m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (allData m ρ) ((allData m ρ 0 c).share_full fun _ => rfl)
      (ent1 m ρ c) (ext2 m ρ c) ((allData m ρ 0 c).arrAt · cfg0.N) (ext2_arr m ρ c) (ext2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Call 1 over the thread state: entered with every unscoped buffer at `mem3`, left with them at `mem4`. Its arrays
    are split out of the unscoped buffers at entry and put back at exit; the generator register goes into the pipeline's
    invariant and comes out; nothing is owed; the body has no semaphore of its own. -/
def call1 : Pipeline.RegionSeg (pcfgs (F := F)) noTables (allData m ρ) () defs₀ Variants.none noLevels lvl0 1 where
  win := launch1.win.to₀
  block_pos := launch1.block_pos
  stage_whole := launch1.stage_whole
  K := PEmpty
  osem k := k.elim
  ho := Pipeline.OwnSemFacts.none _
  hbody c := (body1_obligation (ent3 m ρ) c).loose
  hwaits := Pipeline.hwaits_of_owed_zero _ _ _ _ noLevels lvl0 1 fun _ _ => rfl
  pre c := iprop(StableHlo.held (c : Thread nD τ) (Pipeline.ucRefs τ sig) (mem3 m ρ c) ∗ Rest c)
  post c := iprop(StableHlo.held (c : Thread nD τ) (Pipeline.ucRefs τ sig) (mem4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (ent3 m ρ c)
  hentry c := by
    rw [Pipeline.ownSems0_none]
    have hsplit := Pipeline.arrays_of_unscopedBufs (p := 1) (pcfgs (F := F)) noTables (allData m ρ) launch1.win launch1.arr_whole c
      ((allData m ρ 1 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (allData m ρ) ((allData m ρ 1 c).share_full fun _ => rfl)
      (ent3 m ρ c) (ext4 m ρ c) ((allData m ρ 1 c).arrAt · cfg1.N) (ext4_arr m ρ c) (ext4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Call 2 over the thread state: entered with every unscoped buffer at `mem5`, left with them at `mem6`. Its arrays
    are split out of the unscoped buffers at entry and put back at exit; the generator register goes into the pipeline's
    invariant and comes out; nothing is owed; the body has no semaphore of its own. -/
def call2 : Pipeline.RegionSeg (pcfgs (F := F)) noTables (allData m ρ) () defs₀ Variants.none noLevels lvl0 2 where
  win := launch2.win.to₀
  block_pos := launch2.block_pos
  stage_whole := launch2.stage_whole
  K := PEmpty
  osem k := k.elim
  ho := Pipeline.OwnSemFacts.none _
  hbody c := (body2_obligation (ent5 m ρ) c).loose
  hwaits := Pipeline.hwaits_of_owed_zero _ _ _ _ noLevels lvl0 2 fun _ _ => rfl
  pre c := iprop(StableHlo.held (c : Thread nD τ) (Pipeline.ucRefs τ sig) (mem5 m ρ c) ∗ Rest c)
  post c := iprop(StableHlo.held (c : Thread nD τ) (Pipeline.ucRefs τ sig) (mem6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (ent5 m ρ c)
  hentry c := by
    rw [Pipeline.ownSems0_none]
    have hsplit := Pipeline.arrays_of_unscopedBufs (p := 2) (pcfgs (F := F)) noTables (allData m ρ) launch2.win launch2.arr_whole c
      ((allData m ρ 2 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (allData m ρ) ((allData m ρ 2 c).share_full fun _ => rfl)
      (ent5 m ρ c) (ext6 m ρ c) ((allData m ρ 2 c).arrAt · cfg2.N) (ext6_arr m ρ c) (ext6_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Call 3 over the thread state: entered with every unscoped buffer at `mem7`, left with them at `mem8`. Its arrays
    are split out of the unscoped buffers at entry and put back at exit; the generator register goes into the pipeline's
    invariant and comes out; nothing is owed; the body has no semaphore of its own. -/
def call3 : Pipeline.RegionSeg (pcfgs (F := F)) noTables (allData m ρ) () defs₀ Variants.none noLevels lvl0 3 where
  win := launch3.win.to₀
  block_pos := launch3.block_pos
  stage_whole := launch3.stage_whole
  K := PEmpty
  osem k := k.elim
  ho := Pipeline.OwnSemFacts.none _
  hbody c := (body3_obligation (ent7 m ρ) c).loose
  hwaits := Pipeline.hwaits_of_owed_zero _ _ _ _ noLevels lvl0 3 fun _ _ => rfl
  pre c := iprop(StableHlo.held (c : Thread nD τ) (Pipeline.ucRefs τ sig) (mem7 m ρ c) ∗ Rest c)
  post c := iprop(StableHlo.held (c : Thread nD τ) (Pipeline.ucRefs τ sig) (mem8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (ent7 m ρ c)
  hentry c := by
    rw [Pipeline.ownSems0_none]
    have hsplit := Pipeline.arrays_of_unscopedBufs (p := 3) (pcfgs (F := F)) noTables (allData m ρ) launch3.win launch3.arr_whole c
      ((allData m ρ 3 c).share_full fun _ => rfl) (ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (allData m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (allData m ρ) ((allData m ρ 3 c).share_full fun _ => rfl)
      (ent7 m ρ c) (ext8 m ρ c) ((allData m ρ 3 c).arrAt · cfg3.N) (ext8_arr m ρ c) (ext8_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev items : List (Pipeline.Seg (pcfgs (F := F)) noTables (allData m ρ) () defs₀ Variants.none noLevels lvl0) :=
  [ .host (hostItem hostOps0 hostOps0_sub hostOps0_fresh (mem0 m ρ)),
    .region (call0 m ρ),
    .host (hostItem hostOps1 hostOps1_sub hostOps1_fresh (mem2 m ρ)),
    .region (call1 m ρ),
    .host (hostItem hostOps2 hostOps2_sub hostOps2_fresh (mem4 m ρ)),
    .region (call2 m ρ),
    .host (hostItem hostOps3 hostOps3_sub hostOps3_fresh (mem6 m ρ)),
    .region (call3 m ρ),
    .host (hostItem hostOps4 hostOps4_sub hostOps4_fresh (mem8 m ρ)) ]

theorem main_is_items (c : Dev nD) : main (F := F) c = Pipeline.Seg.run (items m ρ) := (main_chain c).trans (by chain_rfl)

set_option backward.isDefEq.respectTransparency.types false in
/-- THE RUN. From any memory with zero counters, every weakly fair execution of @main on the TensorCores terminates,
    nothing faulting, and in every final state each core's unscoped buffers hold the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem9 m ρ c b) :=
  Pipeline.θ_run_regions_kit (pcfgs (F := F)) noTables (allData m ρ) () cellOf_inj emb₁ defs₀ Variants.none noLevels lvl0 m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ Rest c)) (Tₙ := atEnd m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (mem9 m ρ c) ∗ Rest c)
          ⊢ iprop(atEnd m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach noLevels lvl0 fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem9 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem9 m ρ c) s')
      isplitl [Hh] <;> iassumption)
    (hQ := fun s h => h)

end Cert.Kernel.Frame

end
-- ==== Proof.KFrame.lean ====
/-
  The frame: every argument array ends as launched.  No host operation writes an argument and no call stages one, so
  the last fold of the buffers' contents, read at an argument, walks back to the launch memory.
-/
import proofs.«159146_j10170482557014_2_alg».proof.Proof.KRun

noncomputable section

namespace Cert.Kernel.Frame

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
      (h c _ (mem_unscoped main_arg0 (by decide))).trans (mem9_kept m ρ c main_arg0 (by decide) (by decide) (by decide) (by decide) (by decide) (by decide) (by decide) (by decide) (by decide)),
      (h c _ (mem_unscoped main_arg1 (by decide))).trans (mem9_kept m ρ c main_arg1 (by decide) (by decide) (by decide) (by decide) (by decide) (by decide) (by decide) (by decide) (by decide)),
      (h c _ (mem_unscoped main_arg2 (by decide))).trans (mem9_kept m ρ c main_arg2 (by decide) (by decide) (by decide) (by decide) (by decide) (by decide) (by decide) (by decide) (by decide)),
      (h c _ (mem_unscoped main_arg3 (by decide))).trans (mem9_kept m ρ c main_arg3 (by decide) (by decide) (by decide) (by decide) (by decide) (by decide) (by decide) (by decide) (by decide)),
      (h c _ (mem_unscoped main_arg4 (by decide))).trans (mem9_kept m ρ c main_arg4 (by decide) (by decide) (by decide) (by decide) (by decide) (by decide) (by decide) (by decide) (by decide)),
      (h c _ (mem_unscoped main_arg5 (by decide))).trans (mem9_kept m ρ c main_arg5 (by decide) (by decide) (by decide) (by decide) (by decide) (by decide) (by decide) (by decide) (by decide)),
      (h c _ (mem_unscoped main_arg6 (by decide))).trans (mem9_kept m ρ c main_arg6 (by decide) (by decide) (by decide) (by decide) (by decide) (by decide) (by decide) (by decide) (by decide)),
      (h c _ (mem_unscoped main_arg7 (by decide))).trans (mem9_kept m ρ c main_arg7 (by decide) (by decide) (by decide) (by decide) (by decide) (by decide) (by decide) (by decide) (by decide)),
      (h c _ (mem_unscoped main_arg8 (by decide))).trans (mem9_kept m ρ c main_arg8 (by decide) (by decide) (by decide) (by decide) (by decide) (by decide) (by decide) (by decide) (by decide)),
      (h c _ (mem_unscoped main_arg9 (by decide))).trans (mem9_kept m ρ c main_arg9 (by decide) (by decide) (by decide) (by decide) (by decide) (by decide) (by decide) (by decide) (by decide)),
      (h c _ (mem_unscoped main_arg10 (by decide))).trans (mem9_kept m ρ c main_arg10 (by decide) (by decide) (by decide) (by decide) (by decide) (by decide) (by decide) (by decide) (by decide)),
      (h c _ (mem_unscoped main_arg11 (by decide))).trans (mem9_kept m ρ c main_arg11 (by decide) (by decide) (by decide) (by decide) (by decide) (by decide) (by decide) (by decide) (by decide)),
      (h c _ (mem_unscoped main_arg12 (by decide))).trans (mem9_kept m ρ c main_arg12 (by decide) (by decide) (by decide) (by decide) (by decide) (by decide) (by decide) (by decide) (by decide)),
      (h c _ (mem_unscoped main_arg13 (by decide))).trans (mem9_kept m ρ c main_arg13 (by decide) (by decide) (by decide) (by decide) (by decide) (by decide) (by decide) (by decide) (by decide)),
      (h c _ (mem_unscoped main_arg14 (by decide))).trans (mem9_kept m ρ c main_arg14 (by decide) (by decide) (by decide) (by decide) (by decide) (by decide) (by decide) (by decide) (by decide)),
      (h c _ (mem_unscoped main_arg15 (by decide))).trans (mem9_kept m ρ c main_arg15 (by decide) (by decide) (by decide) (by decide) (by decide) (by decide) (by decide) (by decide) (by decide)),
      (h c _ (mem_unscoped main_arg16 (by decide))).trans (mem9_kept m ρ c main_arg16 (by decide) (by decide) (by decide) (by decide) (by decide) (by decide) (by decide) (by decide) (by decide)),
      (h c _ (mem_unscoped main_arg17 (by decide))).trans (mem9_kept m ρ c main_arg17 (by decide) (by decide) (by decide) (by decide) (by decide) (by decide) (by decide) (by decide) (by decide)),
      (h c _ (mem_unscoped main_arg18 (by decide))).trans (mem9_kept m ρ c main_arg18 (by decide) (by decide) (by decide) (by decide) (by decide) (by decide) (by decide) (by decide) (by decide)),
      (h c _ (mem_unscoped main_arg19 (by decide))).trans (mem9_kept m ρ c main_arg19 (by decide) (by decide) (by decide) (by decide) (by decide) (by decide) (by decide) (by decide) (by decide)),
      (h c _ (mem_unscoped main_arg20 (by decide))).trans (mem9_kept m ρ c main_arg20 (by decide) (by decide) (by decide) (by decide) (by decide) (by decide) (by decide) (by decide) (by decide))⟩)
    (run_all m ρ)

end Cert.Kernel.Frame

end
-- ==== Proof.KIRegion0.lean ====
/-
  Call 0 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.KernelIdeal.Launch
import proofs.«159146_j10170482557014_2_alg».proof.Proof.Gen.KernelIdeal.Skeleton
import proofs.«159146_j10170482557014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 0: one relation's perceptron on row blocks of 10000 rows, width 64

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the block was fetched there (a
    block not fetched again is the block already staged: its index has not moved), for any proof data over these arrays
    whose body leaves the inputs in place. -/
theorem staged0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- Input window 1's current staging buffer holds its block at every point, whether or not the block was fetched there (a
    block not fetched again is the block already staged: its index has not moved), for any proof data over these arrays
    whose body leaves the inputs in place. -/
theorem staged0_1_of {c : Dev nD} (dat : Dat τ (Elt F) Unit ℕ (UR sig nD τ) ℕ cfg0 c) (hA : dat.A 1 = V c (Pipeline.arrRef spec0 1))
    (hafter : ∀ t, dat.after 1 t = blockAt0 V c 1 t) (t : Fin cfg0.N) (d) : dat.before 1 t d = blockAt0 V c 1 t :=
  (dat.before_in_eq_fetched 1 rfl (fun _ => rfl) (fun _ _ _ => rfl) (fun t => by rw [hafter]; unfold Dat.blockOf blockAt0; rw [hA]; try rfl) t d).trans
    (by unfold Dat.fetched Dat.blockOf blockAt0; rw [hA]; try rfl)

/-- Input window 2's current staging buffer holds its block at every point, whether or not the block was fetched there (a
    block not fetched again is the block already staged: its index has not moved), for any proof data over these arrays
    whose body leaves the inputs in place. -/
theorem staged0_2_of {c : Dev nD} (dat : Dat τ (Elt F) Unit ℕ (UR sig nD τ) ℕ cfg0 c) (hA : dat.A 2 = V c (Pipeline.arrRef spec0 2))
    (hafter : ∀ t, dat.after 2 t = blockAt0 V c 2 t) (t : Fin cfg0.N) (d) : dat.before 2 t d = blockAt0 V c 2 t :=
  (dat.before_in_eq_fetched 2 rfl (fun _ => rfl) (fun _ _ _ => rfl) (fun t => by rw [hafter]; unfold Dat.blockOf blockAt0; rw [hA]; try rfl) t d).trans
    (by unfold Dat.fetched Dat.blockOf blockAt0; rw [hA]; try rfl)

/-- Input window 3's current staging buffer holds its block at every point, whether or not the block was fetched there (a
    block not fetched again is the block already staged: its index has not moved), for any proof data over these arrays
    whose body leaves the inputs in place. -/
theorem staged0_3_of {c : Dev nD} (dat : Dat τ (Elt F) Unit ℕ (UR sig nD τ) ℕ cfg0 c) (hA : dat.A 3 = V c (Pipeline.arrRef spec0 3))
    (hafter : ∀ t, dat.after 3 t = blockAt0 V c 3 t) (t : Fin cfg0.N) (d) : dat.before 3 t d = blockAt0 V c 3 t :=
  (dat.before_in_eq_fetched 3 rfl (fun _ => rfl) (fun _ _ _ => rfl) (fun t => by rw [hafter]; unfold Dat.blockOf blockAt0; rw [hA]; try rfl) t d).trans
    (by unfold Dat.fetched Dat.blockOf blockAt0; rw [hA]; try rfl)

/-- Input window 4's current staging buffer holds its block at every point, whether or not the block was fetched there (a
    block not fetched again is the block already staged: its index has not moved), for any proof data over these arrays
    whose body leaves the inputs in place. -/
theorem staged0_4_of {c : Dev nD} (dat : Dat τ (Elt F) Unit ℕ (UR sig nD τ) ℕ cfg0 c) (hA : dat.A 4 = V c (Pipeline.arrRef spec0 4))
    (hafter : ∀ t, dat.after 4 t = blockAt0 V c 4 t) (t : Fin cfg0.N) (d) : dat.before 4 t d = blockAt0 V c 4 t :=
  (dat.before_in_eq_fetched 4 rfl (fun _ => rfl) (fun _ _ _ => rfl) (fun t => by rw [hafter]; unfold Dat.blockOf blockAt0; rw [hA]; try rfl) t d).trans
    (by unfold Dat.fetched Dat.blockOf blockAt0; rw [hA]; try rfl)

/-! ## The body reads and writes whole staging buffers -/

abbrev rows0 : Rect S10000x64 := Rect.unit (s := S10000x64) ![0, 0] S10000x64.size inb_S10000x64_S10000x64_0_0
abbrev mat0 : Rect S64x64 := Rect.unit (s := S64x64) ![0, 0] S64x64.size inb_S64x64_S64x64_0_0
abbrev bias0 : Rect S1x64 := Rect.unit (s := S1x64) ![0, 0] S1x64.size inb_S1x64_S1x64_0_0

/-- The result window's staging buffer after the body: its one store, of the body's arithmetic on the five input blocks. -/
def result0 (x0 : Vec F S10000x64 .f32) (x1 : Vec F S64x64 .f32) (x2 : Vec F S1x64 .f32) (x3 : Vec F S64x64 .f32) (x4 : Vec F S1x64 .f32) : Vec F S10000x64 .f32 :=
  View.canon [⟨rows0, k0_pay1 (View.ld x0 rows0) (View.ld x1 mat0) (View.ld x2 bias0) (View.ld x3 mat0) (View.ld x4 bias0)⟩]

/-- That one store is of the whole buffer. -/
theorem result0_covers (p0 : Vec F S10000x64 .f32) (y : S10000x64.Idx) :
    ∃ pc ∈ ([⟨rows0, p0⟩] : List (View.Piece (Elt F) S10000x64 .f32)), y ∈ pc.1.set :=
  View.cover_of_tiled [⟨rows0, p0⟩] S10000x64.size (by rfl) y

set_option maxHeartbeats 1000000 in
/-- The body on whole staging memrefs — the five inputs at known contents, the result's at anything — runs to the
    continuation with the inputs as they were and the result's buffer at `result0` of them. -/
theorem body0_triple (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 : Vec F S10000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result0 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result0_covers _)

/-! ## The call's proof data -/

/-- On core `c`: the arrays as the call finds them; after the body at point `t` each input's buffer at its block and the
    result's at `result0` of the input blocks; the invariant carries the other calls' staging buffers and the generator
    register, untouched; nothing owed; full shares. -/
def data0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => result0 (blockAt0 V c 0 t) (blockAt0 V c 1 t) (blockAt0 V c 2 t) (blockAt0 V c 3 t) (blockAt0 V c 4 t)
  Φ _ := Pipeline.ΦA spec0 c
  q _ := fullShare
  owed _ := 0

theorem data0_A (c : Dev nD) (w : Fin cfg0.W) : (data0 V c).A w = V c (Pipeline.arrRef spec0 w) := by
  dsimp only [data0]
theorem data0_after_0 (c : Dev nD) (t : Fin cfg0.N) : (data0 V c).after 0 t = blockAt0 V c 0 t := by dsimp only [data0]
theorem data0_after_1 (c : Dev nD) (t : Fin cfg0.N) : (data0 V c).after 1 t = blockAt0 V c 1 t := by dsimp only [data0]
theorem data0_after_2 (c : Dev nD) (t : Fin cfg0.N) : (data0 V c).after 2 t = blockAt0 V c 2 t := by dsimp only [data0]
theorem data0_after_3 (c : Dev nD) (t : Fin cfg0.N) : (data0 V c).after 3 t = blockAt0 V c 3 t := by dsimp only [data0]
theorem data0_after_4 (c : Dev nD) (t : Fin cfg0.N) : (data0 V c).after 4 t = blockAt0 V c 4 t := by dsimp only [data0]
theorem data0_after_5 (c : Dev nD) (t : Fin cfg0.N) : (data0 V c).after 5 t = result0 (blockAt0 V c 0 t) (blockAt0 V c 1 t) (blockAt0 V c 2 t) (blockAt0 V c 3 t) (blockAt0 V c 4 t) := by dsimp only [data0]
theorem data0_before_0 (c : Dev nD) (t : Fin cfg0.N) (d) : (data0 V c).before 0 t d = blockAt0 V c 0 t :=
  staged0_0_of V (data0 V c) (data0_A V c 0) (data0_after_0 V c) t d
theorem data0_before_1 (c : Dev nD) (t : Fin cfg0.N) (d) : (data0 V c).before 1 t d = blockAt0 V c 1 t :=
  staged0_1_of V (data0 V c) (data0_A V c 1) (data0_after_1 V c) t d
theorem data0_before_2 (c : Dev nD) (t : Fin cfg0.N) (d) : (data0 V c).before 2 t d = blockAt0 V c 2 t :=
  staged0_2_of V (data0 V c) (data0_A V c 2) (data0_after_2 V c) t d
theorem data0_before_3 (c : Dev nD) (t : Fin cfg0.N) (d) : (data0 V c).before 3 t d = blockAt0 V c 3 t :=
  staged0_3_of V (data0 V c) (data0_A V c 3) (data0_after_3 V c) t d
theorem data0_before_4 (c : Dev nD) (t : Fin cfg0.N) (d) : (data0 V c).before 4 t d = blockAt0 V c 4 t :=
  staged0_4_of V (data0 V c) (data0_A V c 4) (data0_after_4 V c) t d

/-! ## The body obligation at a generic point -/

def bodyPre0 (c : Dev nD) (t : Fin cfg0.N) : sProp 𝕄 :=
  iprop((data0 V c).Φ t.castSucc ∗ (data0 V c).owesAt () t.castSucc
    ∗ (∃ d, owns (c : Thread nD τ) (st0_0 t) fullShare ((data0 V c).before 0 t d))
    ∗ (∃ d, owns (c : Thread nD τ) (st0_1 t) fullShare ((data0 V c).before 1 t d))
    ∗ (∃ d, owns (c : Thread nD τ) (st0_2 t) fullShare ((data0 V c).before 2 t d))
    ∗ (∃ d, owns (c : Thread nD τ) (st0_3 t) fullShare ((data0 V c).before 3 t d))
    ∗ (∃ d, owns (c : Thread nD τ) (st0_4 t) fullShare ((data0 V c).before 4 t d))
    ∗ (∃ d, owns (c : Thread nD τ) (st0_5 t) fullShare ((data0 V c).before 5 t d)))

def bodyPost0 (c : Dev nD) (t : Fin cfg0.N) : sProp 𝕄 :=
  iprop((data0 V c).Φ t.succ ∗ (data0 V c).owesAt () t.succ
    ∗ owns (c : Thread nD τ) (st0_0 t) fullShare ((data0 V c).after 0 t)
    ∗ owns (c : Thread nD τ) (st0_1 t) fullShare ((data0 V c).after 1 t)
    ∗ owns (c : Thread nD τ) (st0_2 t) fullShare ((data0 V c).after 2 t)
    ∗ owns (c : Thread nD τ) (st0_3 t) fullShare ((data0 V c).after 3 t)
    ∗ owns (c : Thread nD τ) (st0_4 t) fullShare ((data0 V c).after 4 t)
    ∗ owns (c : Thread nD τ) (st0_5 t) fullShare ((data0 V c).after 5 t))

/-- The body at any point: the inputs' memrefs hold their blocks, so the triple applies; the invariant and the core's debts
    pass through unread. -/
theorem body0_at (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [data0_before_0, data0_before_1, data0_before_2, data0_before_3, data0_before_4]
  rw [show (data0 V c).Φ t.succ = (data0 V c).Φ t.castSucc from rfl,
    show (data0 V c).owesAt () t.succ = (data0 V c).owesAt () t.castSucc from rfl,
    data0_after_0, data0_after_1, data0_after_2, data0_after_3, data0_after_4, data0_after_5]
  iintro ⟨HΦ, Ho, ⟨%d0, H0⟩, ⟨%d1, H1⟩, ⟨%d2, H2⟩, ⟨%d3, H3⟩, ⟨%d4, H4⟩, ⟨%d5, H5⟩⟩
  iapply (body0_triple c Set.univ _ _ _ _ _ _ _ _ _ _ _ _ _ (blockAt0 V c 0 t) (blockAt0 V c 1 t) (blockAt0 V c 2 t) (blockAt0 V c 3 t) (blockAt0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body0_obligation (c : Dev nD) : BodyObligation (data0 (F := F) V c) (defs₀ (F := F)) Variants.none () Set.univ := fun t => by
  rw [bigSep_W0, bigSep_W0]
  exact body0_at V c t

end Cert.KernelIdeal.Frame

end
-- ==== Proof.KIRegion1.lean ====
/-
  Call 1 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.KernelIdeal.Launch
import proofs.«159146_j10170482557014_2_alg».proof.Proof.Gen.KernelIdeal.Skeleton
import proofs.«159146_j10170482557014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 1: one relation's perceptron on row blocks of 10000 rows, width 128

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the block was fetched there (a
    block not fetched again is the block already staged: its index has not moved), for any proof data over these arrays
    whose body leaves the inputs in place. -/
theorem staged1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)

/-- Input window 1's current staging buffer holds its block at every point, whether or not the block was fetched there (a
    block not fetched again is the block already staged: its index has not moved), for any proof data over these arrays
    whose body leaves the inputs in place. -/
theorem staged1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)

/-- Input window 2's current staging buffer holds its block at every point, whether or not the block was fetched there (a
    block not fetched again is the block already staged: its index has not moved), for any proof data over these arrays
    whose body leaves the inputs in place. -/
theorem staged1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- Input window 3's current staging buffer holds its block at every point, whether or not the block was fetched there (a
    block not fetched again is the block already staged: its index has not moved), for any proof data over these arrays
    whose body leaves the inputs in place. -/
theorem staged1_3_of {c : Dev nD} (dat : Dat τ (Elt F) Unit ℕ (UR sig nD τ) ℕ cfg1 c) (hA : dat.A 3 = V c (Pipeline.arrRef spec1 3))
    (hafter : ∀ t, dat.after 3 t = blockAt1 V c 3 t) (t : Fin cfg1.N) (d) : dat.before 3 t d = blockAt1 V c 3 t :=
  (dat.before_in_eq_fetched 3 rfl (fun _ => rfl) (fun _ _ _ => rfl) (fun t => by rw [hafter]; unfold Dat.blockOf blockAt1; rw [hA]; try rfl) t d).trans
    (by unfold Dat.fetched Dat.blockOf blockAt1; rw [hA]; try rfl)

/-- Input window 4's current staging buffer holds its block at every point, whether or not the block was fetched there (a
    block not fetched again is the block already staged: its index has not moved), for any proof data over these arrays
    whose body leaves the inputs in place. -/
theorem staged1_4_of {c : Dev nD} (dat : Dat τ (Elt F) Unit ℕ (UR sig nD τ) ℕ cfg1 c) (hA : dat.A 4 = V c (Pipeline.arrRef spec1 4))
    (hafter : ∀ t, dat.after 4 t = blockAt1 V c 4 t) (t : Fin cfg1.N) (d) : dat.before 4 t d = blockAt1 V c 4 t :=
  (dat.before_in_eq_fetched 4 rfl (fun _ => rfl) (fun _ _ _ => rfl) (fun t => by rw [hafter]; unfold Dat.blockOf blockAt1; rw [hA]; try rfl) t d).trans
    (by unfold Dat.fetched Dat.blockOf blockAt1; rw [hA]; try rfl)

/-! ## The body reads and writes whole staging buffers -/

abbrev rows1 : Rect S10000x128 := Rect.unit (s := S10000x128) ![0, 0] S10000x128.size inb_S10000x128_S10000x128_0_0
abbrev mat1 : Rect S128x128 := Rect.unit (s := S128x128) ![0, 0] S128x128.size inb_S128x128_S128x128_0_0
abbrev bias1 : Rect S1x128 := Rect.unit (s := S1x128) ![0, 0] S1x128.size inb_S1x128_S1x128_0_0

/-- The result window's staging buffer after the body: its one store, of the body's arithmetic on the five input blocks. -/
def result1 (x0 : Vec F S10000x128 .f32) (x1 : Vec F S128x128 .f32) (x2 : Vec F S1x128 .f32) (x3 : Vec F S128x128 .f32) (x4 : Vec F S1x128 .f32) : Vec F S10000x128 .f32 :=
  View.canon [⟨rows1, k1_pay1 (View.ld x0 rows1) (View.ld x1 mat1) (View.ld x2 bias1) (View.ld x3 mat1) (View.ld x4 bias1)⟩]

/-- That one store is of the whole buffer. -/
theorem result1_covers (p0 : Vec F S10000x128 .f32) (y : S10000x128.Idx) :
    ∃ pc ∈ ([⟨rows1, p0⟩] : List (View.Piece (Elt F) S10000x128 .f32)), y ∈ pc.1.set :=
  View.cover_of_tiled [⟨rows1, p0⟩] S10000x128.size (by rfl) y

set_option maxHeartbeats 1000000 in
/-- The body on whole staging memrefs — the five inputs at known contents, the result's at anything — runs to the
    continuation with the inputs as they were and the result's buffer at `result1` of them. -/
theorem body1_triple (c : Dev nD) (E : Set ℕ) (i : grid1.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result1 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result1_covers _)

/-! ## The call's proof data -/

/-- On core `c`: the arrays as the call finds them; after the body at point `t` each input's buffer at its block and the
    result's at `result1` of the input blocks; the invariant carries the other calls' staging buffers and the generator
    register, untouched; nothing owed; full shares. -/
def data1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => blockAt1 V c 3 t
    | ⟨4, _⟩ => blockAt1 V c 4 t
    | ⟨5, _⟩ => result1 (blockAt1 V c 0 t) (blockAt1 V c 1 t) (blockAt1 V c 2 t) (blockAt1 V c 3 t) (blockAt1 V c 4 t)
  Φ _ := Pipeline.ΦA spec1 c
  q _ := fullShare
  owed _ := 0

theorem data1_A (c : Dev nD) (w : Fin cfg1.W) : (data1 V c).A w = V c (Pipeline.arrRef spec1 w) := by
  dsimp only [data1]
theorem data1_after_0 (c : Dev nD) (t : Fin cfg1.N) : (data1 V c).after 0 t = blockAt1 V c 0 t := by dsimp only [data1]
theorem data1_after_1 (c : Dev nD) (t : Fin cfg1.N) : (data1 V c).after 1 t = blockAt1 V c 1 t := by dsimp only [data1]
theorem data1_after_2 (c : Dev nD) (t : Fin cfg1.N) : (data1 V c).after 2 t = blockAt1 V c 2 t := by dsimp only [data1]
theorem data1_after_3 (c : Dev nD) (t : Fin cfg1.N) : (data1 V c).after 3 t = blockAt1 V c 3 t := by dsimp only [data1]
theorem data1_after_4 (c : Dev nD) (t : Fin cfg1.N) : (data1 V c).after 4 t = blockAt1 V c 4 t := by dsimp only [data1]
theorem data1_after_5 (c : Dev nD) (t : Fin cfg1.N) : (data1 V c).after 5 t = result1 (blockAt1 V c 0 t) (blockAt1 V c 1 t) (blockAt1 V c 2 t) (blockAt1 V c 3 t) (blockAt1 V c 4 t) := by dsimp only [data1]
theorem data1_before_0 (c : Dev nD) (t : Fin cfg1.N) (d) : (data1 V c).before 0 t d = blockAt1 V c 0 t :=
  staged1_0_of V (data1 V c) (data1_A V c 0) (data1_after_0 V c) t d
theorem data1_before_1 (c : Dev nD) (t : Fin cfg1.N) (d) : (data1 V c).before 1 t d = blockAt1 V c 1 t :=
  staged1_1_of V (data1 V c) (data1_A V c 1) (data1_after_1 V c) t d
theorem data1_before_2 (c : Dev nD) (t : Fin cfg1.N) (d) : (data1 V c).before 2 t d = blockAt1 V c 2 t :=
  staged1_2_of V (data1 V c) (data1_A V c 2) (data1_after_2 V c) t d
theorem data1_before_3 (c : Dev nD) (t : Fin cfg1.N) (d) : (data1 V c).before 3 t d = blockAt1 V c 3 t :=
  staged1_3_of V (data1 V c) (data1_A V c 3) (data1_after_3 V c) t d
theorem data1_before_4 (c : Dev nD) (t : Fin cfg1.N) (d) : (data1 V c).before 4 t d = blockAt1 V c 4 t :=
  staged1_4_of V (data1 V c) (data1_A V c 4) (data1_after_4 V c) t d

/-! ## The body obligation at a generic point -/

def bodyPre1 (c : Dev nD) (t : Fin cfg1.N) : sProp 𝕄 :=
  iprop((data1 V c).Φ t.castSucc ∗ (data1 V c).owesAt () t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d))
    ∗ (∃ d, owns (c : Thread nD τ) (st1_4 t) fullShare ((data1 V c).before 4 t d))
    ∗ (∃ d, owns (c : Thread nD τ) (st1_5 t) fullShare ((data1 V c).before 5 t d)))

def bodyPost1 (c : Dev nD) (t : Fin cfg1.N) : sProp 𝕄 :=
  iprop((data1 V c).Φ t.succ ∗ (data1 V c).owesAt () t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t)
    ∗ owns (c : Thread nD τ) (st1_4 t) fullShare ((data1 V c).after 4 t)
    ∗ owns (c : Thread nD τ) (st1_5 t) fullShare ((data1 V c).after 5 t))

/-- The body at any point: the inputs' memrefs hold their blocks, so the triple applies; the invariant and the core's debts
    pass through unread. -/
theorem body1_at (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [data1_before_0, data1_before_1, data1_before_2, data1_before_3, data1_before_4]
  rw [show (data1 V c).Φ t.succ = (data1 V c).Φ t.castSucc from rfl,
    show (data1 V c).owesAt () t.succ = (data1 V c).owesAt () t.castSucc from rfl,
    data1_after_0, data1_after_1, data1_after_2, data1_after_3, data1_after_4, data1_after_5]
  iintro ⟨HΦ, Ho, ⟨%d0, H0⟩, ⟨%d1, H1⟩, ⟨%d2, H2⟩, ⟨%d3, H3⟩, ⟨%d4, H4⟩, ⟨%d5, H5⟩⟩
  iapply (body1_triple c Set.univ _ _ _ _ _ _ _ _ _ _ _ _ _ (blockAt1 V c 0 t) (blockAt1 V c 1 t) (blockAt1 V c 2 t) (blockAt1 V c 3 t) (blockAt1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body1_obligation (c : Dev nD) : BodyObligation (data1 (F := F) V c) (defs₀ (F := F)) Variants.none () Set.univ := fun t => by
  rw [bigSep_W1, bigSep_W1]
  exact body1_at V c t

end Cert.KernelIdeal.Frame

end
-- ==== Proof.KIRegion2.lean ====
/-
  Call 2 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.KernelIdeal.Launch
import proofs.«159146_j10170482557014_2_alg».proof.Proof.Gen.KernelIdeal.Skeleton
import proofs.«159146_j10170482557014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 2: one relation's perceptron on row blocks of 10000 rows, width 128

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether or not the block was fetched there (a
    block not fetched again is the block already staged: its index has not moved), for any proof data over these arrays
    whose body leaves the inputs in place. -/
theorem staged2_0_of {c : Dev nD} (dat : Dat τ (Elt F) Unit ℕ (UR sig nD τ) ℕ cfg2 c) (hA : dat.A 0 = V c (Pipeline.arrRef spec2 0))
    (hafter : ∀ t, dat.after 0 t = blockAt2 V c 0 t) (t : Fin cfg2.N) (d) : dat.before 0 t d = blockAt2 V c 0 t :=
  (dat.before_in_eq_fetched 0 rfl (fun _ => rfl) (fun _ _ _ => rfl) (fun t => by rw [hafter]; unfold Dat.blockOf blockAt2; rw [hA]; try rfl) t d).trans
    (by unfold Dat.fetched Dat.blockOf blockAt2; rw [hA]; try rfl)

/-- Input window 1's current staging buffer holds its block at every point, whether or not the block was fetched there (a
    block not fetched again is the block already staged: its index has not moved), for any proof data over these arrays
    whose body leaves the inputs in place. -/
theorem staged2_1_of {c : Dev nD} (dat : Dat τ (Elt F) Unit ℕ (UR sig nD τ) ℕ cfg2 c) (hA : dat.A 1 = V c (Pipeline.arrRef spec2 1))
    (hafter : ∀ t, dat.after 1 t = blockAt2 V c 1 t) (t : Fin cfg2.N) (d) : dat.before 1 t d = blockAt2 V c 1 t :=
  (dat.before_in_eq_fetched 1 rfl (fun _ => rfl) (fun _ _ _ => rfl) (fun t => by rw [hafter]; unfold Dat.blockOf blockAt2; rw [hA]; try rfl) t d).trans
    (by unfold Dat.fetched Dat.blockOf blockAt2; rw [hA]; try rfl)

/-- Input window 2's current staging buffer holds its block at every point, whether or not the block was fetched there (a
    block not fetched again is the block already staged: its index has not moved), for any proof data over these arrays
    whose body leaves the inputs in place. -/
theorem staged2_2_of {c : Dev nD} (dat : Dat τ (Elt F) Unit ℕ (UR sig nD τ) ℕ cfg2 c) (hA : dat.A 2 = V c (Pipeline.arrRef spec2 2))
    (hafter : ∀ t, dat.after 2 t = blockAt2 V c 2 t) (t : Fin cfg2.N) (d) : dat.before 2 t d = blockAt2 V c 2 t :=
  (dat.before_in_eq_fetched 2 rfl (fun _ => rfl) (fun _ _ _ => rfl) (fun t => by rw [hafter]; unfold Dat.blockOf blockAt2; rw [hA]; try rfl) t d).trans
    (by unfold Dat.fetched Dat.blockOf blockAt2; rw [hA]; try rfl)

/-- Input window 3's current staging buffer holds its block at every point, whether or not the block was fetched there (a
    block not fetched again is the block already staged: its index has not moved), for any proof data over these arrays
    whose body leaves the inputs in place. -/
theorem staged2_3_of {c : Dev nD} (dat : Dat τ (Elt F) Unit ℕ (UR sig nD τ) ℕ cfg2 c) (hA : dat.A 3 = V c (Pipeline.arrRef spec2 3))
    (hafter : ∀ t, dat.after 3 t = blockAt2 V c 3 t) (t : Fin cfg2.N) (d) : dat.before 3 t d = blockAt2 V c 3 t :=
  (dat.before_in_eq_fetched 3 rfl (fun _ => rfl) (fun _ _ _ => rfl) (fun t => by rw [hafter]; unfold Dat.blockOf blockAt2; rw [hA]; try rfl) t d).trans
    (by unfold Dat.fetched Dat.blockOf blockAt2; rw [hA]; try rfl)

/-- Input window 4's current staging buffer holds its block at every point, whether or not the block was fetched there (a
    block not fetched again is the block already staged: its index has not moved), for any proof data over these arrays
    whose body leaves the inputs in place. -/
theorem staged2_4_of {c : Dev nD} (dat : Dat τ (Elt F) Unit ℕ (UR sig nD τ) ℕ cfg2 c) (hA : dat.A 4 = V c (Pipeline.arrRef spec2 4))
    (hafter : ∀ t, dat.after 4 t = blockAt2 V c 4 t) (t : Fin cfg2.N) (d) : dat.before 4 t d = blockAt2 V c 4 t :=
  (dat.before_in_eq_fetched 4 rfl (fun _ => rfl) (fun _ _ _ => rfl) (fun t => by rw [hafter]; unfold Dat.blockOf blockAt2; rw [hA]; try rfl) t d).trans
    (by unfold Dat.fetched Dat.blockOf blockAt2; rw [hA]; try rfl)

/-! ## The body reads and writes whole staging buffers -/

abbrev rows2 : Rect S10000x128 := Rect.unit (s := S10000x128) ![0, 0] S10000x128.size inb_S10000x128_S10000x128_0_0
abbrev mat2 : Rect S128x128 := Rect.unit (s := S128x128) ![0, 0] S128x128.size inb_S128x128_S128x128_0_0
abbrev bias2 : Rect S1x128 := Rect.unit (s := S1x128) ![0, 0] S1x128.size inb_S1x128_S1x128_0_0

/-- The result window's staging buffer after the body: its one store, of the body's arithmetic on the five input blocks. -/
def result2 (x0 : Vec F S10000x128 .f32) (x1 : Vec F S128x128 .f32) (x2 : Vec F S1x128 .f32) (x3 : Vec F S128x128 .f32) (x4 : Vec F S1x128 .f32) : Vec F S10000x128 .f32 :=
  View.canon [⟨rows2, k2_pay1 (View.ld x0 rows2) (View.ld x1 mat2) (View.ld x2 bias2) (View.ld x3 mat2) (View.ld x4 bias2)⟩]

/-- That one store is of the whole buffer. -/
theorem result2_covers (p0 : Vec F S10000x128 .f32) (y : S10000x128.Idx) :
    ∃ pc ∈ ([⟨rows2, p0⟩] : List (View.Piece (Elt F) S10000x128 .f32)), y ∈ pc.1.set :=
  View.cover_of_tiled [⟨rows2, p0⟩] S10000x128.size (by rfl) y

set_option maxHeartbeats 1000000 in
/-- The body on whole staging memrefs — the five inputs at known contents, the result's at anything — runs to the
    continuation with the inputs as they were and the result's buffer at `result2` of them. -/
theorem body2_triple (c : Dev nD) (E : Set ℕ) (i : grid2.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S10000x128 .f32) (harg6 : arg6.IsWhole)
    (x0 : Vec F S10000x128 .f32) (x1 : Vec F S128x128 .f32) (x2 : Vec F S1x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result2 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result2_covers _)

/-! ## The call's proof data -/

/-- On core `c`: the arrays as the call finds them; after the body at point `t` each input's buffer at its block and the
    result's at `result2` of the input blocks; the invariant carries the other calls' staging buffers and the generator
    register, untouched; nothing owed; full shares. -/
def data2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => blockAt2 V c 2 t
    | ⟨3, _⟩ => blockAt2 V c 3 t
    | ⟨4, _⟩ => blockAt2 V c 4 t
    | ⟨5, _⟩ => result2 (blockAt2 V c 0 t) (blockAt2 V c 1 t) (blockAt2 V c 2 t) (blockAt2 V c 3 t) (blockAt2 V c 4 t)
  Φ _ := Pipeline.ΦA spec2 c
  q _ := fullShare
  owed _ := 0

theorem data2_A (c : Dev nD) (w : Fin cfg2.W) : (data2 V c).A w = V c (Pipeline.arrRef spec2 w) := by
  dsimp only [data2]
theorem data2_after_0 (c : Dev nD) (t : Fin cfg2.N) : (data2 V c).after 0 t = blockAt2 V c 0 t := by dsimp only [data2]
theorem data2_after_1 (c : Dev nD) (t : Fin cfg2.N) : (data2 V c).after 1 t = blockAt2 V c 1 t := by dsimp only [data2]
theorem data2_after_2 (c : Dev nD) (t : Fin cfg2.N) : (data2 V c).after 2 t = blockAt2 V c 2 t := by dsimp only [data2]
theorem data2_after_3 (c : Dev nD) (t : Fin cfg2.N) : (data2 V c).after 3 t = blockAt2 V c 3 t := by dsimp only [data2]
theorem data2_after_4 (c : Dev nD) (t : Fin cfg2.N) : (data2 V c).after 4 t = blockAt2 V c 4 t := by dsimp only [data2]
theorem data2_after_5 (c : Dev nD) (t : Fin cfg2.N) : (data2 V c).after 5 t = result2 (blockAt2 V c 0 t) (blockAt2 V c 1 t) (blockAt2 V c 2 t) (blockAt2 V c 3 t) (blockAt2 V c 4 t) := by dsimp only [data2]
theorem data2_before_0 (c : Dev nD) (t : Fin cfg2.N) (d) : (data2 V c).before 0 t d = blockAt2 V c 0 t :=
  staged2_0_of V (data2 V c) (data2_A V c 0) (data2_after_0 V c) t d
theorem data2_before_1 (c : Dev nD) (t : Fin cfg2.N) (d) : (data2 V c).before 1 t d = blockAt2 V c 1 t :=
  staged2_1_of V (data2 V c) (data2_A V c 1) (data2_after_1 V c) t d
theorem data2_before_2 (c : Dev nD) (t : Fin cfg2.N) (d) : (data2 V c).before 2 t d = blockAt2 V c 2 t :=
  staged2_2_of V (data2 V c) (data2_A V c 2) (data2_after_2 V c) t d
theorem data2_before_3 (c : Dev nD) (t : Fin cfg2.N) (d) : (data2 V c).before 3 t d = blockAt2 V c 3 t :=
  staged2_3_of V (data2 V c) (data2_A V c 3) (data2_after_3 V c) t d
theorem data2_before_4 (c : Dev nD) (t : Fin cfg2.N) (d) : (data2 V c).before 4 t d = blockAt2 V c 4 t :=
  staged2_4_of V (data2 V c) (data2_A V c 4) (data2_after_4 V c) t d

/-! ## The body obligation at a generic point -/

def bodyPre2 (c : Dev nD) (t : Fin cfg2.N) : sProp 𝕄 :=
  iprop((data2 V c).Φ t.castSucc ∗ (data2 V c).owesAt () t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d)))

def bodyPost2 (c : Dev nD) (t : Fin cfg2.N) : sProp 𝕄 :=
  iprop((data2 V c).Φ t.succ ∗ (data2 V c).owesAt () t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t))

/-- The body at any point: the inputs' memrefs hold their blocks, so the triple applies; the invariant and the core's debts
    pass through unread. -/
theorem body2_at (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [data2_before_0, data2_before_1, data2_before_2, data2_before_3, data2_before_4]
  rw [show (data2 V c).Φ t.succ = (data2 V c).Φ t.castSucc from rfl,
    show (data2 V c).owesAt () t.succ = (data2 V c).owesAt () t.castSucc from rfl,
    data2_after_0, data2_after_1, data2_after_2, data2_after_3, data2_after_4, data2_after_5]
  iintro ⟨HΦ, Ho, ⟨%d0, H0⟩, ⟨%d1, H1⟩, ⟨%d2, H2⟩, ⟨%d3, H3⟩, ⟨%d4, H4⟩, ⟨%d5, H5⟩⟩
  iapply (body2_triple c Set.univ _ _ _ _ _ _ _ _ _ _ _ _ _ (blockAt2 V c 0 t) (blockAt2 V c 1 t) (blockAt2 V c 2 t) (blockAt2 V c 3 t) (blockAt2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body2_obligation (c : Dev nD) : BodyObligation (data2 (F := F) V c) (defs₀ (F := F)) Variants.none () Set.univ := fun t => by
  rw [bigSep_W2, bigSep_W2]
  exact body2_at V c t

end Cert.KernelIdeal.Frame

end
-- ==== Proof.KIRegion3.lean ====
/-
  Call 3 of the program's four: what its body leaves in the result window's staging buffer at a grid point, as a
  function of the five input blocks, and the obligation the pipeline asks of the body at every point.  Stated for any
  float instance and any contents of the TensorCore's buffers at entry.
-/
import proofs.«159146_j10170482557014_2_alg».proof.Proof.Gen.KernelIdeal.Launch
import proofs.«159146_j10170482557014_2_alg».proof.Proof.Gen.KernelIdeal.Skeleton
import proofs.«159146_j10170482557014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! # Call 3: one relation's perceptron on row blocks of 10000 rows, width 192

Window 0 is the gathered rows (block `t` = rows 10000·t … 10000·t + 9999), windows 1 and 3 the two transposed weight
matrices and windows 2 and 4 the two bias rows (each one block, the same at every point), window 5 the result
(block `t` again rows 10000·t …). -/

/-- Window `w`'s block at grid point `t`, read off its array as the call finds it. -/
def blockAt3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether or not the block was fetched there (a
    block not fetched again is the block already staged: its index has not moved), for any proof data over these arrays
    whose body leaves the inputs in place. -/
theorem staged3_0_of {c : Dev nD} (dat : Dat τ (Elt F) Unit ℕ (UR sig nD τ) ℕ cfg3 c) (hA : dat.A 0 = V c (Pipeline.arrRef spec3 0))
    (hafter : ∀ t, dat.after 0 t = blockAt3 V c 0 t) (t : Fin cfg3.N) (d) : dat.before 0 t d = blockAt3 V c 0 t :=
  (dat.before_in_eq_fetched 0 rfl (fun _ => rfl) (fun _ _ _ => rfl) (fun t => by rw [hafter]; unfold Dat.blockOf blockAt3; rw [hA]; try rfl) t d).trans
    (by unfold Dat.fetched Dat.blockOf blockAt3; rw [hA]; try rfl)

/-- Input window 1's current staging buffer holds its block at every point, whether or not the block was fetched there (a
    block not fetched again is the block already staged: its index has not moved), for any proof data over these arrays
    whose body leaves the inputs in place. -/
theorem staged3_1_of {c : Dev nD} (dat : Dat τ (Elt F) Unit ℕ (UR sig nD τ) ℕ cfg3 c) (hA : dat.A 1 = V c (Pipeline.arrRef spec3 1))
    (hafter : ∀ t, dat.after 1 t = blockAt3 V c 1 t) (t : Fin cfg3.N) (d) : dat.before 1 t d = blockAt3 V c 1 t :=
  (dat.before_in_eq_fetched 1 rfl (fun _ => rfl) (fun _ _ _ => rfl) (fun t => by rw [hafter]; unfold Dat.blockOf blockAt3; rw [hA]; try rfl) t d).trans
    (by unfold Dat.fetched Dat.blockOf blockAt3; rw [hA]; try rfl)

/-- Input window 2's current staging buffer holds its block at every point, whether or not the block was fetched there (a
    block not fetched again is the block already staged: its index has not moved), for any proof data over these arrays
    whose body leaves the inputs in place. -/
theorem staged3_2_of {c : Dev nD} (dat : Dat τ (Elt F) Unit ℕ (UR sig nD τ) ℕ cfg3 c) (hA : dat.A 2 = V c (Pipeline.arrRef spec3 2))
    (hafter : ∀ t, dat.after 2 t = blockAt3 V c 2 t) (t : Fin cfg3.N) (d) : dat.before 2 t d = blockAt3 V c 2 t :=
  (dat.before_in_eq_fetched 2 rfl (fun _ => rfl) (fun _ _ _ => rfl) (fun t => by rw [hafter]; unfold Dat.blockOf blockAt3; rw [hA]; try rfl) t d).trans
    (by unfold Dat.fetched Dat.blockOf blockAt3; rw [hA]; try rfl)

/-- Input window 3's current staging buffer holds its block at every point, whether or not the block was fetched there (a
    block not fetched again is the block already staged: its index has not moved), for any proof data over these arrays
    whose body leaves the inputs in place. -/
theorem staged3_3_of {c : Dev nD} (dat : Dat τ (Elt F) Unit ℕ (UR sig nD τ) ℕ cfg3 c) (hA : dat.A 3 = V c (Pipeline.arrRef spec3 3))
    (hafter : ∀ t, dat.after 3 t = blockAt3 V c 3 t) (t : Fin cfg3.N) (d) : dat.before 3 t d = blockAt3 V c 3 t :=
  (dat.before_in_eq_fetched 3 rfl (fun _ => rfl) (fun _ _ _ => rfl) (fun t => by rw [hafter]; unfold Dat.blockOf blockAt3; rw [hA]; try rfl) t d).trans
    (by unfold Dat.fetched Dat.blockOf blockAt3; rw [hA]; try rfl)

/-- Input window 4's current staging buffer holds its block at every point, whether or not the block was fetched there (a
    block not fetched again is the block already staged: its index has not moved), for any proof data over these arrays
    whose body leaves the inputs in place. -/
theorem staged3_4_of {c : Dev nD} (dat : Dat τ (Elt F) Unit ℕ (UR sig nD τ) ℕ cfg3 c) (hA : dat.A 4 = V c (Pipeline.arrRef spec3 4))
    (hafter : ∀ t, dat.after 4 t = blockAt3 V c 4 t) (t : Fin cfg3.N) (d) : dat.before 4 t d = blockAt3 V c 4 t :=
  (dat.before_in_eq_fetched 4 rfl (fun _ => rfl) (fun _ _ _ => rfl) (fun t => by rw [hafter]; unfold Dat.blockOf blockAt3; rw [hA]; try rfl) t d).trans
    (by unfold Dat.fetched Dat.blockOf blockAt3; rw [hA]; try rfl)

/-! ## The body reads and writes whole staging buffers -/

abbrev rows3 : Rect S10000x192 := Rect.unit (s := S10000x192) ![0, 0] S10000x192.size inb_S10000x192_S10000x192_0_0
abbrev mat3 : Rect S192x192 := Rect.unit (s := S192x192) ![0, 0] S192x192.size inb_S192x192_S192x192_0_0
abbrev bias3 : Rect S1x192 := Rect.unit (s := S1x192) ![0, 0] S1x192.size inb_S1x192_S1x192_0_0

/-- The result window's staging buffer after the body: its one store, of the body's arithmetic on the five input blocks. -/
def result3 (x0 : Vec F S10000x192 .f32) (x1 : Vec F S192x192 .f32) (x2 : Vec F S1x192 .f32) (x3 : Vec F S192x192 .f32) (x4 : Vec F S1x192 .f32) : Vec F S10000x192 .f32 :=
  View.canon [⟨rows3, k3_pay1 (View.ld x0 rows3) (View.ld x1 mat3) (View.ld x2 bias3) (View.ld x3 mat3) (View.ld x4 bias3)⟩]

/-- That one store is of the whole buffer. -/
theorem result3_covers (p0 : Vec F S10000x192 .f32) (y : S10000x192.Idx) :
    ∃ pc ∈ ([⟨rows3, p0⟩] : List (View.Piece (Elt F) S10000x192 .f32)), y ∈ pc.1.set :=
  View.cover_of_tiled [⟨rows3, p0⟩] S10000x192.size (by rfl) y

set_option maxHeartbeats 1000000 in
/-- The body on whole staging memrefs — the five inputs at known contents, the result's at anything — runs to the
    continuation with the inputs as they were and the result's buffer at `result3` of them. -/
theorem body3_triple (c : Dev nD) (E : Set ℕ) (i : grid3.Coords)
    (arg1 : Memref sig .tc .vmem S10000x192 .f32) (harg1 : arg1.IsWhole) (arg2 : Memref sig .tc .vmem S192x192 .f32) (harg2 : arg2.IsWhole)
    (arg3 : Memref sig .tc .vmem S1x192 .f32) (harg3 : arg3.IsWhole) (arg4 : Memref sig .tc .vmem S192x192 .f32) (harg4 : arg4.IsWhole)
    (arg5 : Memref sig .tc .vmem S1x192 .f32) (harg5 : arg5.IsWhole) (arg6 : Memref sig .tc .vmem S10000x192 .f32) (harg6 : arg6.IsWhole)
    (x0 : Vec F S10000x192 .f32) (x1 : Vec F S192x192 .f32) (x2 : Vec F S1x192 .f32) (x3 : Vec F S192x192 .f32) (x4 : Vec F S1x192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (result3 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (result3_covers _)

/-! ## The call's proof data -/

/-- On core `c`: the arrays as the call finds them; after the body at point `t` each input's buffer at its block and the
    result's at `result3` of the input blocks; the invariant carries the other calls' staging buffers and the generator
    register, untouched; nothing owed; full shares. -/
def data3 (c : Dev nD) : Dat τ (Elt F) Unit ℕ (UR sig nD τ) ℕ cfg3 c where
  A w := V c (Pipeline.arrRef spec3 w)
  after w t := match w with
    | ⟨0, _⟩ => blockAt3 V c 0 t
    | ⟨1, _⟩ => blockAt3 V c 1 t
    | ⟨2, _⟩ => blockAt3 V c 2 t
    | ⟨3, _⟩ => blockAt3 V c 3 t
    | ⟨4, _⟩ => blockAt3 V c 4 t
    | ⟨5, _⟩ => result3 (blockAt3 V c 0 t) (blockAt3 V c 1 t) (blockAt3 V c 2 t) (blockAt3 V c 3 t) (blockAt3 V c 4 t)
  Φ _ := Pipeline.ΦA spec3 c
  q _ := fullShare
  owed _ := 0

theorem data3_A (c : Dev nD) (w : Fin cfg3.W) : (data3 V c).A w = V c (Pipeline.arrRef spec3 w) := by
  dsimp only [data3]
theorem data3_after_0 (c : Dev nD) (t : Fin cfg3.N) : (data3 V c).after 0 t = blockAt3 V c 0 t := by dsimp only [data3]
theorem data3_after_1 (c : Dev nD) (t : Fin cfg3.N) : (data3 V c).after 1 t = blockAt3 V c 1 t := by dsimp only [data3]
theorem data3_after_2 (c : Dev nD) (t : Fin cfg3.N) : (data3 V c).after 2 t = blockAt3 V c 2 t := by dsimp only [data3]
theorem data3_after_3 (c : Dev nD) (t : Fin cfg3.N) : (data3 V c).after 3 t = blockAt3 V c 3 t := by dsimp only [data3]
theorem data3_after_4 (c : Dev nD) (t : Fin cfg3.N) : (data3 V c).after 4 t = blockAt3 V c 4 t := by dsimp only [data3]
theorem data3_after_5 (c : Dev nD) (t : Fin cfg3.N) : (data3 V c).after 5 t = result3 (blockAt3 V c 0 t) (blockAt3 V c 1 t) (blockAt3 V c 2 t) (blockAt3 V c 3 t) (blockAt3 V c 4 t) := by dsimp only [data3]
theorem data3_before_0 (c : Dev nD) (t : Fin cfg3.N) (d) : (data3 V c).before 0 t d = blockAt3 V c 0 t :=
  staged3_0_of V (data3 V c) (data3_A V c 0) (data3_after_0 V c) t d
theorem data3_before_1 (c : Dev nD) (t : Fin cfg3.N) (d) : (data3 V c).before 1 t d = blockAt3 V c 1 t :=
  staged3_1_of V (data3 V c) (data3_A V c 1) (data3_after_1 V c) t d
theorem data3_before_2 (c : Dev nD) (t : Fin cfg3.N) (d) : (data3 V c).before 2 t d = blockAt3 V c 2 t :=
  staged3_2_of V (data3 V c) (data3_A V c 2) (data3_after_2 V c) t d
theorem data3_before_3 (c : Dev nD) (t : Fin cfg3.N) (d) : (data3 V c).before 3 t d = blockAt3 V c 3 t :=
  staged3_3_of V (data3 V c) (data3_A V c 3) (data3_after_3 V c) t d
theorem data3_before_4 (c : Dev nD) (t : Fin cfg3.N) (d) : (data3 V c).before 4 t d = blockAt3 V c 4 t :=
  staged3_4_of V (data3 V c) (data3_A V c 4) (data3_after_4 V c) t d

/-! ## The body obligation at a generic point -/

def bodyPre3 (c : Dev nD) (t : Fin cfg3.N) : sProp 𝕄 :=
  iprop((data3 V c).Φ t.castSucc ∗ (data3 V c).owesAt () t.castSucc
    ∗ (∃ d, owns (c : Thread nD τ) (st3_0 t) fullShare ((data3 V c).before 0 t d))
    ∗ (∃ d, owns (c : Thread nD τ) (st3_1 t) fullShare ((data3 V c).before 1 t d))
    ∗ (∃ d, owns (c : Thread nD τ) (st3_2 t) fullShare ((data3 V c).before 2 t d))
    ∗ (∃ d, owns (c : Thread nD τ) (st3_3 t) fullShare ((data3 V c).before 3 t d))
    ∗ (∃ d, owns (c : Thread nD τ) (st3_4 t) fullShare ((data3 V c).before 4 t d))
    ∗ (∃ d, owns (c : Thread nD τ) (st3_5 t) fullShare ((data3 V c).before 5 t d)))

def bodyPost3 (c : Dev nD) (t : Fin cfg3.N) : sProp 𝕄 :=
  iprop((data3 V c).Φ t.succ ∗ (data3 V c).owesAt () t.succ
    ∗ owns (c : Thread nD τ) (st3_0 t) fullShare ((data3 V c).after 0 t)
    ∗ owns (c : Thread nD τ) (st3_1 t) fullShare ((data3 V c).after 1 t)
    ∗ owns (c : Thread nD τ) (st3_2 t) fullShare ((data3 V c).after 2 t)
    ∗ owns (c : Thread nD τ) (st3_3 t) fullShare ((data3 V c).after 3 t)
    ∗ owns (c : Thread nD τ) (st3_4 t) fullShare ((data3 V c).after 4 t)
    ∗ owns (c : Thread nD τ) (st3_5 t) fullShare ((data3 V c).after 5 t))

/-- The body at any point: the inputs' memrefs hold their blocks, so the triple applies; the invariant and the core's debts
    pass through unread. -/
theorem body3_at (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [data3_before_0, data3_before_1, data3_before_2, data3_before_3, data3_before_4]
  rw [show (data3 V c).Φ t.succ = (data3 V c).Φ t.castSucc from rfl,
    show (data3 V c).owesAt () t.succ = (data3 V c).owesAt () t.castSucc from rfl,
    data3_after_0, data3_after_1, data3_after_2, data3_after_3, data3_after_4, data3_after_5]
  iintro ⟨HΦ, Ho, ⟨%d0, H0⟩, ⟨%d1, H1⟩, ⟨%d2, H2⟩, ⟨%d3, H3⟩, ⟨%d4, H4⟩, ⟨%d5, H5⟩⟩
  iapply (body3_triple c Set.univ _ _ _ _ _ _ _ _ _ _ _ _ _ (blockAt3 V c 0 t) (blockAt3 V c 1 t) (blockAt3 V c 2 t) (blockAt3 V c 3 t) (blockAt3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body3_obligation (c : Dev nD) : BodyObligation (data3 (F := F) V c) (defs₀ (F := F)) Variants.none () Set.univ := fun t => by
  rw [bigSep_W3, bigSep_W3]
  exact body3_at V c t

end Cert.KernelIdeal.Frame

end
-- ==== Proof.KIRun.lean ====
/-
  The whole run of @main: the contents of the TensorCore's unscoped buffers at every boundary between a stretch of host
  operations and a kernel call, folded from the launch memory (a stretch applies its operations; a call leaves its arrays
  at what its write-backs make of them and everything else alone), the four calls as segments over the thread state
  "every unscoped buffer at the boundary's contents, the generator register at some state, nothing owed", and the run:
  every weakly fair execution terminates, faults nowhere, and ends with every unscoped buffer at the last fold.
  Stated for any float instance.
-/
import proofs.«159146_j10170482557014_2_alg».proof.Proof.KIRegion0
import proofs.«159146_j10170482557014_2_alg».proof.Proof.KIRegion1
import proofs.«159146_j10170482557014_2_alg».proof.Proof.KIRegion2
import proofs.«159146_j10170482557014_2_alg».proof.Proof.KIRegion3
import proofs.«159146_j10170482557014_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev mem0 : Dev nD → Valuation τ sig (Elt F) := fun c b => (s₀ m ρ).mem ((c : Dev nD), b)

/-- After host stretch 0 (call 0's entry). -/
abbrev mem1 : Dev nD → Valuation τ sig (Elt F) := fun c => StableHlo.after hostOps0 (mem0 m ρ c)
/-- The same, read at the TensorCore's references. -/
abbrev ent1 : (c : Dev nD) → (b : Ref sig .tc) → Buf (Elt F) ((c : Thread nD τ).loc b) := fun c b => mem1 m ρ c b
/-- At call 0's exit: its arrays at what the pipeline leaves (an input as entered, the result's write-backs folded), every
    other buffer as entered. -/
def mem2 (c : Dev nD) : Valuation τ sig (Elt F) :=
  Pipeline.withArrays spec0 c (mem1 m ρ c) fun w => (data0 (ent1 m ρ) c).arrAt w cfg0.N
theorem mem2_arr (c : Dev nD) (w : Fin cfg0.W) :
    mem2 m ρ c (Proc.devRef .tc (Pipeline.arrRef spec0 w)) = (data0 (ent1 m ρ) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m ρ c (Proc.devRef .tc b) = mem1 m ρ c (Proc.devRef .tc b) := by
  unfold mem2; exact Pipeline.withArrays_of_ne spec0 c _ _ b hb
abbrev ext2 : (c : Dev nD) → (b : Ref sig .tc) → Buf (Elt F) ((c : Thread nD τ).loc b) := fun c b => mem2 m ρ c b
theorem ext2_arr (c : Dev nD) (w : Fin cfg0.W) : (data0 (ent1 m ρ) c).arrAt w cfg0.N = ext2 m ρ c (Pipeline.arrRef spec0 w) :=
  (mem2_arr m ρ c w).symm
theorem ext2_rest (c : Dev nD) : ∀ b, b ∉ Finset.univ.image (Pipeline.arrRef spec0) → ext2 m ρ c b = ent1 m ρ c b :=
  fun b hb => mem2_of_ne m ρ c b fun w e => hb (Finset.mem_image.mpr ⟨w, Finset.mem_univ _, e⟩)

/-- After host stretch 1 (call 1's entry). -/
abbrev mem3 : Dev nD → Valuation τ sig (Elt F) := fun c => StableHlo.after hostOps1 (mem2 m ρ c)
/-- The same, read at the TensorCore's references. -/
abbrev ent3 : (c : Dev nD) → (b : Ref sig .tc) → Buf (Elt F) ((c : Thread nD τ).loc b) := fun c b => mem3 m ρ c b
/-- At call 1's exit: its arrays at what the pipeline leaves (an input as entered, the result's write-backs folded), every
    other buffer as entered. -/
def mem4 (c : Dev nD) : Valuation τ sig (Elt F) :=
  Pipeline.withArrays spec1 c (mem3 m ρ c) fun w => (data1 (ent3 m ρ) c).arrAt w cfg1.N
theorem mem4_arr (c : Dev nD) (w : Fin cfg1.W) :
    mem4 m ρ c (Proc.devRef .tc (Pipeline.arrRef spec1 w)) = (data1 (ent3 m ρ) c).arrAt w cfg1.N := by
  unfold mem4; exact Pipeline.withArrays_arr spec1 launch1.win.arr_inj c _ _ w
theorem mem4_of_ne (c : Dev nD) (b : Ref sig .tc) (hb : ∀ w, Pipeline.arrRef spec1 w ≠ b) :
    mem4 m ρ c (Proc.devRef .tc b) = mem3 m ρ c (Proc.devRef .tc b) := by
  unfold mem4; exact Pipeline.withArrays_of_ne spec1 c _ _ b hb
abbrev ext4 : (c : Dev nD) → (b : Ref sig .tc) → Buf (Elt F) ((c : Thread nD τ).loc b) := fun c b => mem4 m ρ c b
theorem ext4_arr (c : Dev nD) (w : Fin cfg1.W) : (data1 (ent3 m ρ) c).arrAt w cfg1.N = ext4 m ρ c (Pipeline.arrRef spec1 w) :=
  (mem4_arr m ρ c w).symm
theorem ext4_rest (c : Dev nD) : ∀ b, b ∉ Finset.univ.image (Pipeline.arrRef spec1) → ext4 m ρ c b = ent3 m ρ c b :=
  fun b hb => mem4_of_ne m ρ c b fun w e => hb (Finset.mem_image.mpr ⟨w, Finset.mem_univ _, e⟩)

/-- After host stretch 2 (call 2's entry). -/
abbrev mem5 : Dev nD → Valuation τ sig (Elt F) := fun c => StableHlo.after hostOps2 (mem4 m ρ c)
/-- The same, read at the TensorCore's references. -/
abbrev ent5 : (c : Dev nD) → (b : Ref sig .tc) → Buf (Elt F) ((c : Thread nD τ).loc b) := fun c b => mem5 m ρ c b
/-- At call 2's exit: its arrays at what the pipeline leaves (an input as entered, the result's write-backs folded), every
    other buffer as entered. -/
def mem6 (c : Dev nD) : Valuation τ sig (Elt F) :=
  Pipeline.withArrays spec2 c (mem5 m ρ c) fun w => (data2 (ent5 m ρ) c).arrAt w cfg2.N
theorem mem6_arr (c : Dev nD) (w : Fin cfg2.W) :
    mem6 m ρ c (Proc.devRef .tc (Pipeline.arrRef spec2 w)) = (data2 (ent5 m ρ) c).arrAt w cfg2.N := by
  unfold mem6; exact Pipeline.withArrays_arr spec2 launch2.win.arr_inj c _ _ w
theorem mem6_of_ne (c : Dev nD) (b : Ref sig .tc) (hb : ∀ w, Pipeline.arrRef spec2 w ≠ b) :
    mem6 m ρ c (Proc.devRef .tc b) = mem5 m ρ c (Proc.devRef .tc b) := by
  unfold mem6; exact Pipeline.withArrays_of_ne spec2 c _ _ b hb
abbrev ext6 : (c : Dev nD) → (b : Ref sig .tc) → Buf (Elt F) ((c : Thread nD τ).loc b) := fun c b => mem6 m ρ c b
theorem ext6_arr (c : Dev nD) (w : Fin cfg2.W) : (data2 (ent5 m ρ) c).arrAt w cfg2.N = ext6 m ρ c (Pipeline.arrRef spec2 w) :=
  (mem6_arr m ρ c w).symm
theorem ext6_rest (c : Dev nD) : ∀ b, b ∉ Finset.univ.image (Pipeline.arrRef spec2) → ext6 m ρ c b = ent5 m ρ c b :=
  fun b hb => mem6_of_ne m ρ c b fun w e => hb (Finset.mem_image.mpr ⟨w, Finset.mem_univ _, e⟩)

/-- After host stretch 3 (call 3's entry). -/
abbrev mem7 : Dev nD → Valuation τ sig (Elt F) := fun c => StableHlo.after hostOps3 (mem6 m ρ c)
/-- The same, read at the TensorCore's references. -/
abbrev ent7 : (c : Dev nD) → (b : Ref sig .tc) → Buf (Elt F) ((c : Thread nD τ).loc b) := fun c b => mem7 m ρ c b
/-- At call 3's exit: its arrays at what the pipeline leaves (an input as entered, the result's write-backs folded), every
    other buffer as entered. -/
def mem8 (c : Dev nD) : Valuation τ sig (Elt F) :=
  Pipeline.withArrays spec3 c (mem7 m ρ c) fun w => (data3 (ent7 m ρ) c).arrAt w cfg3.N
theorem mem8_arr (c : Dev nD) (w : Fin cfg3.W) :
    mem8 m ρ c (Proc.devRef .tc (Pipeline.arrRef spec3 w)) = (data3 (ent7 m ρ) c).arrAt w cfg3.N := by
  unfold mem8; exact Pipeline.withArrays_arr spec3 launch3.win.arr_inj c _ _ w
theorem mem8_of_ne (c : Dev nD) (b : Ref sig .tc) (hb : ∀ w, Pipeline.arrRef spec3 w ≠ b) :
    mem8 m ρ c (Proc.devRef .tc b) = mem7 m ρ c (Proc.devRef .tc b) := by
  unfold mem8; exact Pipeline.withArrays_of_ne spec3 c _ _ b hb
abbrev ext8 : (c : Dev nD) → (b : Ref sig .tc) → Buf (Elt F) ((c : Thread nD τ).loc b) := fun c b => mem8 m ρ c b
theorem ext8_arr (c : Dev nD) (w : Fin cfg3.W) : (data3 (ent7 m ρ) c).arrAt w cfg3.N = ext8 m ρ c (Pipeline.arrRef spec3 w) :=
  (mem8_arr m ρ c w).symm
theorem ext8_rest (c : Dev nD) : ∀ b, b ∉ Finset.univ.image (Pipeline.arrRef spec3) → ext8 m ρ c b = ent7 m ρ c b :=
  fun b hb => mem8_of_ne m ρ c b fun w e => hb (Finset.mem_image.mpr ⟨w, Finset.mem_univ _, e⟩)

/-- After the last host stretch: the end. -/
abbrev mem9 : Dev nD → Valuation τ sig (Elt F) := fun c => StableHlo.after hostOps4 (mem8 m ρ c)

/-- A reference that no host stretch writes and no call stages ends as launched. -/
theorem mem9_kept (c : Dev nD) (r : Ref sig .tc)
    (h0 : r ∉ hostOps0_W) (h1 : r ∉ hostOps1_W) (h2 : r ∉ hostOps2_W) (h3 : r ∉ hostOps3_W) (h4 : r ∉ hostOps4_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    mem9 m ρ c (Proc.devRef .tc r) = m ((c : Thread nD τ).loc r) :=
  calc mem9 m ρ c (Proc.devRef .tc r)
    _ = mem8 m ρ c (Proc.devRef .tc r) := StableHlo.after_of_writes_sub hostOps4 _ hostOps4_writes h4
    _ = mem7 m ρ c (Proc.devRef .tc r) := mem8_of_ne m ρ c r a3
    _ = mem6 m ρ c (Proc.devRef .tc r) := StableHlo.after_of_writes_sub hostOps3 _ hostOps3_writes h3
    _ = mem5 m ρ c (Proc.devRef .tc r) := mem6_of_ne m ρ c r a2
    _ = mem4 m ρ c (Proc.devRef .tc r) := StableHlo.after_of_writes_sub hostOps2 _ hostOps2_writes h2
    _ = mem3 m ρ c (Proc.devRef .tc r) := mem4_of_ne m ρ c r a1
    _ = mem2 m ρ c (Proc.devRef .tc r) := StableHlo.after_of_writes_sub hostOps1 _ hostOps1_writes h1
    _ = mem1 m ρ c (Proc.devRef .tc r) := mem2_of_ne m ρ c r a0
    _ = mem0 m ρ c (Proc.devRef .tc r) := StableHlo.after_of_writes_sub hostOps0 _ hostOps0_writes h0
    _ = m ((c : Thread nD τ).loc r) := rfl

/-! ## The proof data family and the thread state -/

/-- No call has a prefetched table. -/
abbrev noTables : (p : Fin 4) → (pcfgs (F := F) p).Adm := fun p => (cfgs p).toPCfg_adm
/-- Every call's proof data, each at its entry contents. -/
def allData : (p : Fin 4) → (c : Dev nD) → Dat τ (Elt F) Unit ℕ (UR sig nD τ) ℕ (Pipeline.pin (pcfgs (F := F)) noTables p) c
  | ⟨0, _⟩ => fun c => data0 (ent1 m ρ) c
  | ⟨1, _⟩ => fun c => data1 (ent3 m ρ) c
  | ⟨2, _⟩ => fun c => data2 (ent5 m ρ) c
  | ⟨3, _⟩ => fun c => data3 (ent7 m ρ) c
/-- No core owes another anything: no level is assigned. -/
abbrev noLevels : GSem nD τ sig → Finset Unit := fun _ => ∅
abbrev lvl0 : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
/-- A host stretch as a segment over the unscoped references from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the debts. -/
abbrev atEnd (c : Dev nD) : sProp 𝕄 := iprop(StableHlo.held (c : Thread nD τ) (Pipeline.ucRefs τ sig) (mem9 m ρ c) ∗ ∃ r, prngReg c r)

/-! ## The calls as segments -/

-- unifying a library lemma stated over the pinned configuration with the printed one unfolds plain definitions in a
-- metavariable's type
set_option backward.isDefEq.respectTransparency.types false in
/-- Call 0 over the thread state: entered with every unscoped buffer at `mem1`, left with them at `mem2`. Its arrays
    are split out of the unscoped buffers at entry and put back at exit; the generator register goes into the pipeline's
    invariant and comes out; nothing is owed; the body has no semaphore of its own. -/
def call0 : Pipeline.RegionSeg (pcfgs (F := F)) noTables (allData m ρ) () defs₀ Variants.none noLevels lvl0 0 where
  win := launch0.win.to₀
  block_pos := launch0.block_pos
  stage_whole := launch0.stage_whole
  K := PEmpty
  osem k := k.elim
  ho := Pipeline.OwnSemFacts.none _
  hbody c := (body0_obligation (ent1 m ρ) c).loose
  hwaits := Pipeline.hwaits_of_owed_zero _ _ _ _ noLevels lvl0 0 fun _ _ => rfl
  pre c := iprop(StableHlo.held (c : Thread nD τ) (Pipeline.ucRefs τ sig) (mem1 m ρ c) ∗ Rest c)
  post c := iprop(StableHlo.held (c : Thread nD τ) (Pipeline.ucRefs τ sig) (mem2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) noTables (allData m ρ) launch0.win launch0.arr_whole c
      ((allData m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (allData m ρ) ((allData m ρ 0 c).share_full fun _ => rfl)
      (ent1 m ρ c) (ext2 m ρ c) ((allData m ρ 0 c).arrAt · cfg0.N) (ext2_arr m ρ c) (ext2_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Call 1 over the thread state: entered with every unscoped buffer at `mem3`, left with them at `mem4`. Its arrays
    are split out of the unscoped buffers at entry and put back at exit; the generator register goes into the pipeline's
    invariant and comes out; nothing is owed; the body has no semaphore of its own. -/
def call1 : Pipeline.RegionSeg (pcfgs (F := F)) noTables (allData m ρ) () defs₀ Variants.none noLevels lvl0 1 where
  win := launch1.win.to₀
  block_pos := launch1.block_pos
  stage_whole := launch1.stage_whole
  K := PEmpty
  osem k := k.elim
  ho := Pipeline.OwnSemFacts.none _
  hbody c := (body1_obligation (ent3 m ρ) c).loose
  hwaits := Pipeline.hwaits_of_owed_zero _ _ _ _ noLevels lvl0 1 fun _ _ => rfl
  pre c := iprop(StableHlo.held (c : Thread nD τ) (Pipeline.ucRefs τ sig) (mem3 m ρ c) ∗ Rest c)
  post c := iprop(StableHlo.held (c : Thread nD τ) (Pipeline.ucRefs τ sig) (mem4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (ent3 m ρ c)
  hentry c := by
    rw [Pipeline.ownSems0_none]
    have hsplit := Pipeline.arrays_of_unscopedBufs (p := 1) (pcfgs (F := F)) noTables (allData m ρ) launch1.win launch1.arr_whole c
      ((allData m ρ 1 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (allData m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (allData m ρ) ((allData m ρ 1 c).share_full fun _ => rfl)
      (ent3 m ρ c) (ext4 m ρ c) ((allData m ρ 1 c).arrAt · cfg1.N) (ext4_arr m ρ c) (ext4_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Call 2 over the thread state: entered with every unscoped buffer at `mem5`, left with them at `mem6`. Its arrays
    are split out of the unscoped buffers at entry and put back at exit; the generator register goes into the pipeline's
    invariant and comes out; nothing is owed; the body has no semaphore of its own. -/
def call2 : Pipeline.RegionSeg (pcfgs (F := F)) noTables (allData m ρ) () defs₀ Variants.none noLevels lvl0 2 where
  win := launch2.win.to₀
  block_pos := launch2.block_pos
  stage_whole := launch2.stage_whole
  K := PEmpty
  osem k := k.elim
  ho := Pipeline.OwnSemFacts.none _
  hbody c := (body2_obligation (ent5 m ρ) c).loose
  hwaits := Pipeline.hwaits_of_owed_zero _ _ _ _ noLevels lvl0 2 fun _ _ => rfl
  pre c := iprop(StableHlo.held (c : Thread nD τ) (Pipeline.ucRefs τ sig) (mem5 m ρ c) ∗ Rest c)
  post c := iprop(StableHlo.held (c : Thread nD τ) (Pipeline.ucRefs τ sig) (mem6 m ρ c) ∗ Rest c)
  X c := iprop(∃ r, prngReg c r)
  Y c := iprop(∃ r, prngReg c r)
  Z c := Pipeline.unscopedRest (Ix := Unit) (Name := ℕ) (U := UR sig nD τ) (Lvl := ℕ) spec2 c (ent5 m ρ c)
  hentry c := by
    rw [Pipeline.ownSems0_none]
    have hsplit := Pipeline.arrays_of_unscopedBufs (p := 2) (pcfgs (F := F)) noTables (allData m ρ) launch2.win launch2.arr_whole c
      ((allData m ρ 2 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (allData m ρ) ((allData m ρ 2 c).share_full fun _ => rfl)
      (ent5 m ρ c) (ext6 m ρ c) ((allData m ρ 2 c).arrAt · cfg2.N) (ext6_arr m ρ c) (ext6_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Call 3 over the thread state: entered with every unscoped buffer at `mem7`, left with them at `mem8`. Its arrays
    are split out of the unscoped buffers at entry and put back at exit; the generator register goes into the pipeline's
    invariant and comes out; nothing is owed; the body has no semaphore of its own. -/
def call3 : Pipeline.RegionSeg (pcfgs (F := F)) noTables (allData m ρ) () defs₀ Variants.none noLevels lvl0 3 where
  win := launch3.win.to₀
  block_pos := launch3.block_pos
  stage_whole := launch3.stage_whole
  K := PEmpty
  osem k := k.elim
  ho := Pipeline.OwnSemFacts.none _
  hbody c := (body3_obligation (ent7 m ρ) c).loose
  hwaits := Pipeline.hwaits_of_owed_zero _ _ _ _ noLevels lvl0 3 fun _ _ => rfl
  pre c := iprop(StableHlo.held (c : Thread nD τ) (Pipeline.ucRefs τ sig) (mem7 m ρ c) ∗ Rest c)
  post c := iprop(StableHlo.held (c : Thread nD τ) (Pipeline.ucRefs τ sig) (mem8 m ρ c) ∗ Rest c)
  X c := iprop(∃ r, prngReg c r)
  Y c := iprop(∃ r, prngReg c r)
  Z c := Pipeline.unscopedRest (Ix := Unit) (Name := ℕ) (U := UR sig nD τ) (Lvl := ℕ) spec3 c (ent7 m ρ c)
  hentry c := by
    rw [Pipeline.ownSems0_none]
    have hsplit := Pipeline.arrays_of_unscopedBufs (p := 3) (pcfgs (F := F)) noTables (allData m ρ) launch3.win launch3.arr_whole c
      ((allData m ρ 3 c).share_full fun _ => rfl) (ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (allData m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (allData m ρ) ((allData m ρ 3 c).share_full fun _ => rfl)
      (ent7 m ρ c) (ext8 m ρ c) ((allData m ρ 3 c).arrAt · cfg3.N) (ext8_arr m ρ c) (ext8_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev items : List (Pipeline.Seg (pcfgs (F := F)) noTables (allData m ρ) () defs₀ Variants.none noLevels lvl0) :=
  [ .host (hostItem hostOps0 hostOps0_sub hostOps0_fresh (mem0 m ρ)),
    .region (call0 m ρ),
    .host (hostItem hostOps1 hostOps1_sub hostOps1_fresh (mem2 m ρ)),
    .region (call1 m ρ),
    .host (hostItem hostOps2 hostOps2_sub hostOps2_fresh (mem4 m ρ)),
    .region (call2 m ρ),
    .host (hostItem hostOps3 hostOps3_sub hostOps3_fresh (mem6 m ρ)),
    .region (call3 m ρ),
    .host (hostItem hostOps4 hostOps4_sub hostOps4_fresh (mem8 m ρ)) ]

theorem main_is_items (c : Dev nD) : main (F := F) c = Pipeline.Seg.run (items m ρ) := (main_chain c).trans (by chain_rfl)

set_option backward.isDefEq.respectTransparency.types false in
/-- THE RUN. From any memory with zero counters, every weakly fair execution of @main on the TensorCores terminates,
    nothing faulting, and in every final state each core's unscoped buffers hold the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = mem9 m ρ c b) :=
  Pipeline.θ_run_regions_kit (pcfgs (F := F)) noTables (allData m ρ) () cellOf_inj emb₁ defs₀ Variants.none noLevels lvl0 m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m ρ c) ∗ Rest c)) (Tₙ := atEnd m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (mem9 m ρ c) ∗ Rest c)
          ⊢ iprop(atEnd m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach noLevels lvl0 fun c => ?_
      rw [show unscopedBufs c (fun b => m ((c : Thread nD τ).loc b)) = StableHlo.held (c : Thread nD τ) (Pipeline.ucRefs τ sig) (mem0 m ρ c)
        from Pipeline.unscopedBufs_held c (mem0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem9 m ρ c b)
    (hfin := fun c s' => by
      iintro ⟨⟨Hh, -⟩, HSI⟩
      unfold StableHlo.held
      imodintro
      iapply (pointsTo_read_all (Pipeline.ucRefs τ sig) (fun b => (((c : Thread nD τ)).1, b)) (mem9 m ρ c) s')
      isplitl [Hh] <;> iassumption)
    (hQ := fun s h => h)

end Cert.KernelIdeal.Frame

end
-- ==== Proof.KIFrame.lean ====
/-
  The frame: every argument array ends as launched.  No host operation writes an argument and no call stages one, so
  the last fold of the buffers' contents, read at an argument, walks back to the launch memory.
-/
import proofs.«159146_j10170482557014_2_alg».proof.Proof.KIRun

noncomputable section

namespace Cert.KernelIdeal.Frame

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨
      (h c _ (mem_unscoped main_arg0 (by decide))).trans (mem9_kept m ρ c main_arg0 (by decide) (by decide) (by decide) (by decide) (by decide) (by decide) (by decide) (by decide) (by decide)),
      (h c _ (mem_unscoped main_arg1 (by decide))).trans (mem9_kept m ρ c main_arg1 (by decide) (by decide) (by decide) (by decide) (by decide) (by decide) (by decide) (by decide) (by decide)),
      (h c _ (mem_unscoped main_arg2 (by decide))).trans (mem9_kept m ρ c main_arg2 (by decide) (by decide) (by decide) (by decide) (by decide) (by decide) (by decide) (by decide) (by decide)),
      (h c _ (mem_unscoped main_arg3 (by decide))).trans (mem9_kept m ρ c main_arg3 (by decide) (by decide) (by decide) (by decide) (by decide) (by decide) (by decide) (by decide) (by decide)),
      (h c _ (mem_unscoped main_arg4 (by decide))).trans (mem9_kept m ρ c main_arg4 (by decide) (by decide) (by decide) (by decide) (by decide) (by decide) (by decide) (by decide) (by decide)),
      (h c _ (mem_unscoped main_arg5 (by decide))).trans (mem9_kept m ρ c main_arg5 (by decide) (by decide) (by decide) (by decide) (by decide) (by decide) (by decide) (by decide) (by decide)),
      (h c _ (mem_unscoped main_arg6 (by decide))).trans (mem9_kept m ρ c main_arg6 (by decide) (by decide) (by decide) (by decide) (by decide) (by decide) (by decide) (by decide) (by decide)),
      (h c _ (mem_unscoped main_arg7 (by decide))).trans (mem9_kept m ρ c main_arg7 (by decide) (by decide) (by decide) (by decide) (by decide) (by decide) (by decide) (by decide) (by decide)),
      (h c _ (mem_unscoped main_arg8 (by decide))).trans (mem9_kept m ρ c main_arg8 (by decide) (by decide) (by decide) (by decide) (by decide) (by decide) (by decide) (by decide) (by decide)),
      (h c _ (mem_unscoped main_arg9 (by decide))).trans (mem9_kept m ρ c main_arg9 (by decide) (by decide) (by decide) (by decide) (by decide) (by decide) (by decide) (by decide) (by decide)),
      (h c _ (mem_unscoped main_arg10 (by decide))).trans (mem9_kept m ρ c main_arg10 (by decide) (by decide) (by decide) (by decide) (by decide) (by decide) (by decide) (by decide) (by decide)),
      (h c _ (mem_unscoped main_arg11 (by decide))).trans (mem9_kept m ρ c main_arg11 (by decide) (by decide) (by decide) (by decide) (by decide) (by decide) (by decide) (by decide) (by decide)),
      (h c _ (mem_unscoped main_arg12 (by decide))).trans (mem9_kept m ρ c main_arg12 (by decide) (by decide) (by decide) (by decide) (by decide) (by decide) (by decide) (by decide) (by decide)),
      (h c _ (mem_unscoped main_arg13 (by decide))).trans (mem9_kept m ρ c main_arg13 (by decide) (by decide) (by decide) (by decide) (by decide) (by decide) (by decide) (by decide) (by decide)),
      (h c _ (mem_unscoped main_arg14 (by decide))).trans (mem9_kept m ρ c main_arg14 (by decide) (by decide) (by decide) (by decide) (by decide) (by decide) (by decide) (by decide) (by decide)),
      (h c _ (mem_unscoped main_arg15 (by decide))).trans (mem9_kept m ρ c main_arg15 (by decide) (by decide) (by decide) (by decide) (by decide) (by decide) (by decide) (by decide) (by decide)),
      (h c _ (mem_unscoped main_arg16 (by decide))).trans (mem9_kept m ρ c main_arg16 (by decide) (by decide) (by decide) (by decide) (by decide) (by decide) (by decide) (by decide) (by decide)),
      (h c _ (mem_unscoped main_arg17 (by decide))).trans (mem9_kept m ρ c main_arg17 (by decide) (by decide) (by decide) (by decide) (by decide) (by decide) (by decide) (by decide) (by decide)),
      (h c _ (mem_unscoped main_arg18 (by decide))).trans (mem9_kept m ρ c main_arg18 (by decide) (by decide) (by decide) (by decide) (by decide) (by decide) (by decide) (by decide) (by decide)),
      (h c _ (mem_unscoped main_arg19 (by decide))).trans (mem9_kept m ρ c main_arg19 (by decide) (by decide) (by decide) (by decide) (by decide) (by decide) (by decide) (by decide) (by decide)),
      (h c _ (mem_unscoped main_arg20 (by decide))).trans (mem9_kept m ρ c main_arg20 (by decide) (by decide) (by decide) (by decide) (by decide) (by decide) (by decide) (by decide) (by decide))⟩)
    (run_all m ρ)

end Cert.KernelIdeal.Frame

end
-- ==== Proof.KIValue0.lean ====
/-
  Call 0: from blocks to the array.  Block `t` of the gathered rows is rows 10000·t … 10000·t + 9999, the weight and bias
  windows are their whole arrays at every point, and block `t` of the result is again rows 10000·t …; the ten blocks cover
  the result array.  So the result array ends holding, at row r and column q, the body's arithmetic on the row block
  containing r (block r / 10000), read at local row r mod 10000 and column q.  Stated for any float instance.
-/
import proofs.«159146_j10170482557014_2_alg».proof.Proof.KIRegion0
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

theorem origin0 : (![0, 0] : Fin 2 → Nat) = fun _ => 0 := funext fun a => by fin_cases a <;> rfl

/-- The printed index maps over the ten grid points: the row windows move one block per point, the others stay. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Rows 10000·t … 10000·t + 9999 of an array of 100000 rows, as a block. -/
def rowsOf0 (X : S100000x64.Idx → Elt F .f32) (t : Nat) : Vec F S10000x64 .f32 :=
  fun y => X (ix2 (n0 := 100000) (n1 := 64) ⟨(10000 * t + (y 0).val) % 100000, Nat.mod_lt _ (by norm_num)⟩ (y 1))

/-- The result array: at (r, q) the body's arithmetic on the row block containing r, at local row r mod 10000. -/
def wholeResult0 (X : S100000x64.Idx → Elt F .f32) (A : S64x64.Idx → Elt F .f32) (b₁ : S1x64.Idx → Elt F .f32) (B : S64x64.Idx → Elt F .f32) (b₂ : S1x64.Idx → Elt F .f32) :
    S100000x64.Idx → Elt F .f32 :=
  fun i => k0_pay1 (rowsOf0 X ((i 0).val / 10000)) A b₁ B b₂ (ix2 (n0 := 10000) (n1 := 64) ⟨(i 0).val % 10000, Nat.mod_lt _ (by norm_num)⟩ (i 1))

/-- The row window's block at point `t` is rows 10000·t … of its array. -/
theorem rowBlock0 (c : Dev nD) (t : Fin cfg0.N) :
    (blockAt0 V c 0 t : Vec F S10000x64 .f32) = rowsOf0 (V c main_v6 : S100000x64.Idx → Elt F .f32) t.val := by
  obtain ⟨e0, e1, -⟩ := index0 t
  have hN : cfg0.N = 10 := N_0
  have ht : t.val < 10 := by have := t.isLt; omega
  funext y
  have hy0 : (y 0).val < 10000 := (y 0).isLt
  unfold blockAt0 rowsOf0
  rw [View.read_apply]
  show V c main_v6 _ = V c main_v6 _
  congr 1
  funext a
  apply Fin.ext
  match a with
  | ⟨0, _⟩ => show win0_0.index t (0 : Fin 2) * 10000 + 1 * (y 0).val = (10000 * t.val + (y 0).val) % 100000; rw [e0, Nat.mod_eq_of_lt (by omega)]; omega
  | ⟨1, _⟩ => show win0_0.index t (1 : Fin 2) * 64 + 1 * (y 1).val = (y 1).val; rw [e1]; omega

/-- Window 1's block at every point is its whole array. -/
theorem wholeBlock0_1 (c : Dev nD) (t : Fin cfg0.N) :
    (blockAt0 V c 1 t : Vec F S64x64 .f32) = (V c main_v7 : S64x64.Idx → Elt F .f32) := by
  have e := index0 t
  funext y
  unfold blockAt0
  rw [View.read_apply]
  show V c main_v7 _ = V c main_v7 _
  congr 1
  funext a
  apply Fin.ext
  match a with
  | ⟨0, _⟩ => show win0_1.index t (0 : Fin 2) * 64 + 1 * (y 0).val = (y 0).val; rw [e.2.2.1]; omega
  | ⟨1, _⟩ => show win0_1.index t (1 : Fin 2) * 64 + 1 * (y 1).val = (y 1).val; rw [e.2.2.2.1]; omega

/-- Window 2's block at every point is its whole array. -/
theorem wholeBlock0_2 (c : Dev nD) (t : Fin cfg0.N) :
    (blockAt0 V c 2 t : Vec F S1x64 .f32) = (V c main_v9 : S1x64.Idx → Elt F .f32) := by
  have e := index0 t
  funext y
  unfold blockAt0
  rw [View.read_apply]
  show V c main_v9 _ = V c main_v9 _
  congr 1
  funext a
  apply Fin.ext
  match a with
  | ⟨0, _⟩ => show win0_2.index t (0 : Fin 2) * 1 + 1 * (y 0).val = (y 0).val; rw [e.2.2.2.2.1]; omega
  | ⟨1, _⟩ => show win0_2.index t (1 : Fin 2) * 64 + 1 * (y 1).val = (y 1).val; rw [e.2.2.2.2.2.1]; omega

/-- Window 3's block at every point is its whole array. -/
theorem wholeBlock0_3 (c : Dev nD) (t : Fin cfg0.N) :
    (blockAt0 V c 3 t : Vec F S64x64 .f32) = (V c main_v8 : S64x64.Idx → Elt F .f32) := by
  have e := index0 t
  funext y
  unfold blockAt0
  rw [View.read_apply]
  show V c main_v8 _ = V c main_v8 _
  congr 1
  funext a
  apply Fin.ext
  match a with
  | ⟨0, _⟩ => show win0_3.index t (0 : Fin 2) * 64 + 1 * (y 0).val = (y 0).val; rw [e.2.2.2.2.2.2.1]; omega
  | ⟨1, _⟩ => show win0_3.index t (1 : Fin 2) * 64 + 1 * (y 1).val = (y 1).val; rw [e.2.2.2.2.2.2.2.1]; omega

/-- Window 4's block at every point is its whole array. -/
theorem wholeBlock0_4 (c : Dev nD) (t : Fin cfg0.N) :
    (blockAt0 V c 4 t : Vec F S1x64 .f32) = (V c main_v10 : S1x64.Idx → Elt F .f32) := by
  have e := index0 t
  funext y
  unfold blockAt0
  rw [View.read_apply]
  show V c main_v10 _ = V c main_v10 _
  congr 1
  funext a
  apply Fin.ext
  match a with
  | ⟨0, _⟩ => show win0_4.index t (0 : Fin 2) * 1 + 1 * (y 0).val = (y 0).val; rw [e.2.2.2.2.2.2.2.2.1]; omega
  | ⟨1, _⟩ => show win0_4.index t (1 : Fin 2) * 64 + 1 * (y 1).val = (y 1).val; rw [e.2.2.2.2.2.2.2.2.2.1]; omega

/-- What point `t` writes back is block `t` of `wholeResult0` of the arrays as the call finds them. -/
theorem flushed0_eq (c : Dev nD) (t : Fin cfg0.N) :
    (data0 V c).flushed 5 t = ((cfg0.win 5).blk t).view.read (Elt F)
      (wholeResult0 (V c main_v6) (V c main_v7) (V c main_v9) (V c main_v8) (V c main_v10)) := by
  show (cfg0.win 5).cut (grid0.coords t) ((data0 V c).after 5 t) = _
  rw [data0_after_5]
  unfold result0
  rw [View.canon_unit_zero origin0]
  simp only [View.ld_unit_zero (S := S10000x64) origin0, View.ld_unit_zero (S := S64x64) origin0, View.ld_unit_zero (S := S1x64) origin0]
  rw [rowBlock0, wholeBlock0_1, wholeBlock0_2, wholeBlock0_3, wholeBlock0_4]
  have e := index0 t
  have e50 : win0_5.index t (0 : Fin 2) = t.val := e.2.2.2.2.2.2.2.2.2.2.1
  have e51 : win0_5.index t (1 : Fin 2) = 0 := e.2.2.2.2.2.2.2.2.2.2.2
  have hN : cfg0.N = 10 := N_0
  have ht : t.val < 10 := by have := t.isLt; omega
  funext j
  have hj0 : (j 0).val < 10000 := (j 0).isLt
  rw [View.read_apply]
  unfold wholeResult0
  have h0 : ((((cfg0.win 5).blk t).view.emb j) 0).val = t.val * 10000 + (j 0).val := by
    show win0_5.index t (0 : Fin 2) * 10000 + 1 * (j 0).val = _; rw [e50]; omega
  have h1 : (((cfg0.win 5).blk t).view.emb j) 1 = j 1 := by
    apply Fin.ext; show win0_5.index t (1 : Fin 2) * 64 + 1 * (j 1).val = _; rw [e51]; omega
  have hd : ((((cfg0.win 5).blk t).view.emb j) 0).val / 10000 = t.val := by rw [h0]; omega
  have hm : ((((cfg0.win 5).blk t).view.emb j) 0).val % 10000 = (j 0).val := by rw [h0]; omega
  rw [hd, h1]
  refine congrArg _ ?_
  funext a
  apply Fin.ext
  match a with
  | ⟨0, _⟩ => exact hm.symm
  | ⟨1, _⟩ => rfl

/-- An index of the result array is in point `t`'s block iff each coordinate is in the block's range on its axis. -/
theorem mem_block0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v11).slice (win0_5.rect t)).set ↔ _
  rw [View.set_slice_whole, Rect.mem_set_unit]
  exact Iff.rfl

/-- Every index of the result array is in the block of the point its row falls in. -/
theorem covered0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 10 := N_0
  have hlt : (i 0).val / 10000 < cfg0.N := by show _ < grid0.N; omega
  refine ⟨⟨(i 0).val / 10000, hlt⟩, flush0_5 _, ?_⟩
  have e := index0 ⟨(i 0).val / 10000, hlt⟩
  have e50 : win0_5.index ⟨(i 0).val / 10000, hlt⟩ (0 : Fin 2) = (i 0).val / 10000 := e.2.2.2.2.2.2.2.2.2.2.1
  have e51 : win0_5.index ⟨(i 0).val / 10000, hlt⟩ (1 : Fin 2) = 0 := e.2.2.2.2.2.2.2.2.2.2.2
  rw [mem_block0]
  intro a
  match a with
  | ⟨0, _⟩ => show win0_5.index ⟨(i 0).val / 10000, hlt⟩ (0 : Fin 2) * 10000 ≤ (i 0).val ∧ (i 0).val < win0_5.index ⟨(i 0).val / 10000, hlt⟩ (0 : Fin 2) * 10000 + 10000; rw [e50]; omega
  | ⟨1, _⟩ => show win0_5.index ⟨(i 0).val / 10000, hlt⟩ (1 : Fin 2) * 64 ≤ (i 1).val ∧ (i 1).val < win0_5.index ⟨(i 0).val / 10000, hlt⟩ (1 : Fin 2) * 64 + 64; rw [e51]; omega

/-- The result array after the call. -/
theorem finalResult0 (c : Dev nD) :
    (data0 V c).arrAt 5 cfg0.N = wholeResult0 (V c main_v6) (V c main_v7) (V c main_v9) (V c main_v8) (V c main_v10) :=
  (data0 V c).arrAt_eq_of_cover 5 _ (fun t _ => flushed0_eq V c t) (covered0)

end Cert.KernelIdeal.Frame

end
-- ==== Proof.LibMlp.lean ====
/-
  One output element of a residual two-layer perceptron with a mish activation, on the extended reals.

  For a row `x` of width `d`, weight matrices `A`, `B` (entry (l, k) multiplies input coordinate l into hidden or output
  coordinate k) and biases `b₁`, `b₂`:
    hidden k   = (∑ l, x l * A l k) + b₁ k
    softplus h = max h 0 + log (1 + exp (-|h|))            (the stable form log (e^h + e^0))
    mish h     = h * tanh (softplus h)
    out j      = x j + ((∑ k, mish (hidden k) * B k j) + b₂ j)
  Addition on the extended reals is associative and commutative, so the grouping of the three summands of `out` is free
  (`out_assoc`); no finiteness is needed anywhere.
-/
import Idealize.ShloMosaic.PureOps.Ideal

noncomputable section

open scoped BigOperators

namespace Cert.Layer.Mlp

open Idealize.ShloMosaic

/-- `log (e^h + 1)` in its stable form: the larger of `h` and `0` plus `log (1 + exp (-|h|))`, with `|h| = max h (-h)`. -/
def softplus (h : EReal) : EReal := max h 0 + Ideal.log1p (Ideal.exp (-(max h (-h))))

/-- `h · tanh (softplus h)`. -/
def mish (h : EReal) : EReal := h * Ideal.tanh (softplus h)

/-- Hidden coordinate `k`: the row times column `k` of the first matrix, plus the first bias. -/
def hidden {d : Nat} (x : Fin d → EReal) (A : Fin d → Fin d → EReal) (b₁ : Fin d → EReal) (k : Fin d) : EReal :=
  (∑ l : Fin d, x l * A l k) + b₁ k

/-- Output coordinate `j`: the input coordinate plus (the activated hidden row times column `j` of the second matrix,
    plus the second bias). -/
def out {d : Nat} (x : Fin d → EReal) (A : Fin d → Fin d → EReal) (b₁ : Fin d → EReal)
    (B : Fin d → Fin d → EReal) (b₂ : Fin d → EReal) (j : Fin d) : EReal :=
  x j + ((∑ k : Fin d, mish (hidden x A b₁ k) * B k j) + b₂ j)

/-- The other grouping of the three summands: (input + product) + bias. -/
theorem out_assoc {d : Nat} (x : Fin d → EReal) (A : Fin d → Fin d → EReal) (b₁ : Fin d → EReal)
    (B : Fin d → Fin d → EReal) (b₂ : Fin d → EReal) (j : Fin d) :
    (x j + ∑ k : Fin d, mish (hidden x A b₁ k) * B k j) + b₂ j = out x A b₁ B b₂ j := by
  unfold out; exact add_assoc _ _ _

end Cert.Layer.Mlp

end
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.PayK0.lean ====
/-
  The kernel's stored value at one element, as mathematics: for the row block of width 64, element (p, q) of
  x + (h · tanh (softplus h)) · B + b₂ with h = x · A + b₁ is output coordinate q of the residual perceptron on row p.
  Each matrix product into a zero accumulator is the sum over the shared axis; each one-row bias is read at its column;
  the guard of the stable softplus (an element unequal to itself) never fires on the extended reals, h - 0 = h,
  0 - a = -a and |a| = max a (-a); the grouping (x + product) + bias is the perceptron's by associativity of addition.
-/
import proofs.«159146_j10170482557014_2_alg».proof.Proof.Gen.KernelIdeal.Skeleton
import proofs.«159146_j10170482557014_2_alg».proof.Proof.LibMlp
import proofs.«159146_j10170482557014_2_alg».proof.Proof.LibMatmul
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.Layer

/-- The guard `a ≠ a` is false on the extended reals: a linear order has no unordered element. -/
theorem cmp_one_self0 (a : EReal) : Ideal.cmp .one a a = 0#1 := by
  simp [Ideal.cmp]

/-- One element of the guarded stable softplus: the guard is dead, `h - 0 = h`, `0 - a = -a`, `|a| = max a (-a)`. -/
theorem softplus_guarded0 (h : EReal) :
    Scalar.select (Ideal.cmp .one (h - 0) (h - 0)) (h + 0)
        (max h 0 + Ideal.log1p (Ideal.exp (0 - max (h - 0) (-(h - 0))))) = Mlp.softplus h := by
  rw [sub_zero, cmp_one_self0, select_zero, zero_sub]; rfl

/-- A layer's pre-activation at `(p, k)`: the row of `X` times column `k` of `W` (a product into a zero accumulator),
    plus the one-row bias spread over the rows. -/
theorem layer0_apply (X : FVec Ideal S10000x64 .f32) (W : FVec Ideal S64x64 .f32) (c : FVec Ideal S1x64 .f32)
    (hb : S1x64.Broadcasts S10000x64) (p : Fin 10000) (k : Fin 64) :
    addf (matmul dot_S10000x64_S64x64_S10000x64_1_0_0_1_n_n (some .fp32) X W (constant S10000x64 .f32 0x00000000#32)) (broadcastTo S10000x64 c hb) (ix2 p k)
      = Mlp.hidden (fun l => X (ix2 p l)) (fun l k => W (ix2 l k)) (fun k => c (ix2 0 k)) k := by
  rw [addf_apply, broadcastTo_1b_ab_apply]
  refine congrArg (· + c (ix2 (0 : Fin 1) k)) ?_
  refine (Ideal.matmul_constant_zero_apply dot_S10000x64_S64x64_S10000x64_1_0_0_1_n_n (some .fp32) X W (ix2 p k)).trans ?_
  exact Matmul.plain_contr_sum dot_S10000x64_S64x64_S10000x64_1_0_0_1_n_n rfl rfl rfl rfl rfl rfl X W (ix2 p k)

/-- The activation at an index: `H · tanh (softplus H)` with the softplus in its guarded stable form over the zero splat. -/
theorem act0_apply (H : FVec Ideal S10000x64 .f32) (i : S10000x64.Idx) :
    mulf H (tanh (select
        (cmpf .one (subf H (broadcast S10000x64 (FloatOps.ofBits .f32 0x00000000#32))) (subf H (broadcast S10000x64 (FloatOps.ofBits .f32 0x00000000#32))))
        (addf H (broadcast S10000x64 (FloatOps.ofBits .f32 0x00000000#32)))
        (addf (maximumf H (broadcast S10000x64 (FloatOps.ofBits .f32 0x00000000#32)))
          (log1p (exp (subf (broadcast S10000x64 (FloatOps.ofBits .f32 0x00000000#32))
            (absf (subf H (broadcast S10000x64 (FloatOps.ofBits .f32 0x00000000#32)))))))))) i
      = Mlp.mish (H i) := by
  show H i * Ideal.tanh (Scalar.select (Ideal.cmp .one (H i - Ideal.ofBits .f32 0x00000000#32) (H i - Ideal.ofBits .f32 0x00000000#32))
        (H i + Ideal.ofBits .f32 0x00000000#32)
        (max (H i) (Ideal.ofBits .f32 0x00000000#32) + Ideal.log1p (Ideal.exp (Ideal.ofBits .f32 0x00000000#32
          - max (H i - Ideal.ofBits .f32 0x00000000#32) (-(H i - Ideal.ofBits .f32 0x00000000#32)))))) = _
  rw [Ideal.ofBits_zero_f32, softplus_guarded0]; rfl

/-- The payload of the kernel's one store at `(p, q)`: the residual perceptron's output coordinate `q` on row `p`. -/
theorem pay0_apply (x0 : Vec Ideal S10000x64 .f32) (w1 : Vec Ideal S64x64 .f32) (c1 : Vec Ideal S1x64 .f32)
    (w2 : Vec Ideal S64x64 .f32) (c2 : Vec Ideal S1x64 .f32) (p : Fin 10000) (q : Fin 64) :
    Cert.KernelIdeal.Gen.k0_pay1 (F := Ideal) x0 w1 c1 w2 c2 (ix2 p q)
      = Mlp.out (fun l => x0 (ix2 p l)) (fun l k => w1 (ix2 l k)) (fun k => c1 (ix2 0 k))
          (fun l k => w2 (ix2 l k)) (fun k => c2 (ix2 0 k)) q := by
  unfold Gen.k0_pay1
  simp only [shapeCast_self]
  rw [← Mlp.out_assoc]
  simp only [addf_apply, Ideal.matmul_constant_zero_apply, broadcastTo_1b_ab_apply]
  refine congrArg₂ (· + ·) (congrArg (x0 (ix2 p q) + ·) ?_) rfl
  refine (Matmul.plain_contr_sum dot_S10000x64_S64x64_S10000x64_1_0_0_1_n_n rfl rfl rfl rfl rfl rfl _ _ (ix2 p q)).trans ?_
  refine Finset.sum_congr rfl fun k _ => congrArg (· * w2 (ix2 k q)) ?_
  refine (act0_apply _ (ix2 p k)).trans (congrArg Mlp.mish ?_)
  exact layer0_apply x0 w1 c1 _ p k

end Cert.KernelIdeal.Pay

end
-- ==== Proof.KIMath0.lean ====
/-
  Call 0's result array as mathematics: at row r and column q it is output coordinate q of the residual perceptron on
  row r of the gathered rows.  The row block containing r, read at local row r mod 10000, is row r itself
  (10000·(r / 10000) + r mod 10000 = r).
-/
import proofs.«159146_j10170482557014_2_alg».proof.Proof.KIValue0
import proofs.«159146_j10170482557014_2_alg».proof.Proof.PayK0

noncomputable section

namespace Cert.KernelIdeal.Frame

open Cert.KernelIdeal Cert.KernelIdeal.Gen
open Idealize.ShloMosaic Idealize.ShloMosaic.ValueIdx Cert.Layer

theorem wholeResult0_apply (X : S100000x64.Idx → Elt Ideal .f32) (A : S64x64.Idx → Elt Ideal .f32) (b₁ : S1x64.Idx → Elt Ideal .f32)
    (B' : S64x64.Idx → Elt Ideal .f32) (b₂ : S1x64.Idx → Elt Ideal .f32) (r : Fin 100000) (q : Fin 64) :
    wholeResult0 (F := Ideal) X A b₁ B' b₂ (ix2 r q)
      = Mlp.out (fun l => X (ix2 r l)) (fun l k => A (ix2 l k)) (fun k => b₁ (ix2 0 k)) (fun l k => B' (ix2 l k)) (fun k => b₂ (ix2 0 k)) q := by
  have hr : r.val < 100000 := r.isLt
  unfold wholeResult0
  show Gen.k0_pay1 (F := Ideal) (rowsOf0 X (r.val / 10000)) A b₁ B' b₂ (ix2 ⟨r.val % 10000, Nat.mod_lt _ (by norm_num)⟩ q) = _
  refine (Pay.pay0_apply _ A b₁ B' b₂ ⟨r.val % 10000, Nat.mod_lt _ (by norm_num)⟩ q).trans ?_
  refine congrArg (fun x => Mlp.out x _ _ _ _ q) (funext fun l => ?_)
  unfold rowsOf0
  refine congrArg (fun a => X (ix2 a l)) (Fin.ext ?_)
  show (10000 * (r.val / 10000) + r.val % 10000) % 100000 = r.val
  omega

end Cert.KernelIdeal.Frame

end
-- ==== Proof.KIValue1.lean ====
/-
  Call 1: from blocks to the array.  Block `t` of the gathered rows is rows 10000·t … 10000·t + 9999, the weight and bias
  windows are their whole arrays at every point, and block `t` of the result is again rows 10000·t …; the ten blocks cover
  the result array.  So the result array ends holding, at row r and column q, the body's arithmetic on the row block
  containing r (block r / 10000), read at local row r mod 10000 and column q.  Stated for any float instance.
-/
import proofs.«159146_j10170482557014_2_alg».proof.Proof.KIRegion1
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

theorem origin1 : (![0, 0] : Fin 2 → Nat) = fun _ => 0 := funext fun a => by fin_cases a <;> rfl

/-- The printed index maps over the ten grid points: the row windows move one block per point, the others stay. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Rows 10000·t … 10000·t + 9999 of an array of 100000 rows, as a block. -/
def rowsOf1 (X : S100000x128.Idx → Elt F .f32) (t : Nat) : Vec F S10000x128 .f32 :=
  fun y => X (ix2 (n0 := 100000) (n1 := 128) ⟨(10000 * t + (y 0).val) % 100000, Nat.mod_lt _ (by norm_num)⟩ (y 1))

/-- The result array: at (r, q) the body's arithmetic on the row block containing r, at local row r mod 10000. -/
def wholeResult1 (X : S100000x128.Idx → Elt F .f32) (A : S128x128.Idx → Elt F .f32) (b₁ : S1x128.Idx → Elt F .f32) (B : S128x128.Idx → Elt F .f32) (b₂ : S1x128.Idx → Elt F .f32) :
    S100000x128.Idx → Elt F .f32 :=
  fun i => k1_pay1 (rowsOf1 X ((i 0).val / 10000)) A b₁ B b₂ (ix2 (n0 := 10000) (n1 := 128) ⟨(i 0).val % 10000, Nat.mod_lt _ (by norm_num)⟩ (i 1))

/-- The row window's block at point `t` is rows 10000·t … of its array. -/
theorem rowBlock1 (c : Dev nD) (t : Fin cfg1.N) :
    (blockAt1 V c 0 t : Vec F S10000x128 .f32) = rowsOf1 (V c main_v19 : S100000x128.Idx → Elt F .f32) t.val := by
  obtain ⟨e0, e1, -⟩ := index1 t
  have hN : cfg1.N = 10 := N_1
  have ht : t.val < 10 := by have := t.isLt; omega
  funext y
  have hy0 : (y 0).val < 10000 := (y 0).isLt
  unfold blockAt1 rowsOf1
  rw [View.read_apply]
  show V c main_v19 _ = V c main_v19 _
  congr 1
  funext a
  apply Fin.ext
  match a with
  | ⟨0, _⟩ => show win1_0.index t (0 : Fin 2) * 10000 + 1 * (y 0).val = (10000 * t.val + (y 0).val) % 100000; rw [e0, Nat.mod_eq_of_lt (by omega)]; omega
  | ⟨1, _⟩ => show win1_0.index t (1 : Fin 2) * 128 + 1 * (y 1).val = (y 1).val; rw [e1]; omega

/-- Window 1's block at every point is its whole array. -/
theorem wholeBlock1_1 (c : Dev nD) (t : Fin cfg1.N) :
    (blockAt1 V c 1 t : Vec F S128x128 .f32) = (V c main_v20 : S128x128.Idx → Elt F .f32) := by
  have e := index1 t
  funext y
  unfold blockAt1
  rw [View.read_apply]
  show V c main_v20 _ = V c main_v20 _
  congr 1
  funext a
  apply Fin.ext
  match a with
  | ⟨0, _⟩ => show win1_1.index t (0 : Fin 2) * 128 + 1 * (y 0).val = (y 0).val; rw [e.2.2.1]; omega
  | ⟨1, _⟩ => show win1_1.index t (1 : Fin 2) * 128 + 1 * (y 1).val = (y 1).val; rw [e.2.2.2.1]; omega

/-- Window 2's block at every point is its whole array. -/
theorem wholeBlock1_2 (c : Dev nD) (t : Fin cfg1.N) :
    (blockAt1 V c 2 t : Vec F S1x128 .f32) = (V c main_v22 : S1x128.Idx → Elt F .f32) := by
  have e := index1 t
  funext y
  unfold blockAt1
  rw [View.read_apply]
  show V c main_v22 _ = V c main_v22 _
  congr 1
  funext a
  apply Fin.ext
  match a with
  | ⟨0, _⟩ => show win1_2.index t (0 : Fin 2) * 1 + 1 * (y 0).val = (y 0).val; rw [e.2.2.2.2.1]; omega
  | ⟨1, _⟩ => show win1_2.index t (1 : Fin 2) * 128 + 1 * (y 1).val = (y 1).val; rw [e.2.2.2.2.2.1]; omega

/-- Window 3's block at every point is its whole array. -/
theorem wholeBlock1_3 (c : Dev nD) (t : Fin cfg1.N) :
    (blockAt1 V c 3 t : Vec F S128x128 .f32) = (V c main_v21 : S128x128.Idx → Elt F .f32) := by
  have e := index1 t
  funext y
  unfold blockAt1
  rw [View.read_apply]
  show V c main_v21 _ = V c main_v21 _
  congr 1
  funext a
  apply Fin.ext
  match a with
  | ⟨0, _⟩ => show win1_3.index t (0 : Fin 2) * 128 + 1 * (y 0).val = (y 0).val; rw [e.2.2.2.2.2.2.1]; omega
  | ⟨1, _⟩ => show win1_3.index t (1 : Fin 2) * 128 + 1 * (y 1).val = (y 1).val; rw [e.2.2.2.2.2.2.2.1]; omega

/-- Window 4's block at every point is its whole array. -/
theorem wholeBlock1_4 (c : Dev nD) (t : Fin cfg1.N) :
    (blockAt1 V c 4 t : Vec F S1x128 .f32) = (V c main_v23 : S1x128.Idx → Elt F .f32) := by
  have e := index1 t
  funext y
  unfold blockAt1
  rw [View.read_apply]
  show V c main_v23 _ = V c main_v23 _
  congr 1
  funext a
  apply Fin.ext
  match a with
  | ⟨0, _⟩ => show win1_4.index t (0 : Fin 2) * 1 + 1 * (y 0).val = (y 0).val; rw [e.2.2.2.2.2.2.2.2.1]; omega
  | ⟨1, _⟩ => show win1_4.index t (1 : Fin 2) * 128 + 1 * (y 1).val = (y 1).val; rw [e.2.2.2.2.2.2.2.2.2.1]; omega

/-- What point `t` writes back is block `t` of `wholeResult1` of the arrays as the call finds them. -/
theorem flushed1_eq (c : Dev nD) (t : Fin cfg1.N) :
    (data1 V c).flushed 5 t = ((cfg1.win 5).blk t).view.read (Elt F)
      (wholeResult1 (V c main_v19) (V c main_v20) (V c main_v22) (V c main_v21) (V c main_v23)) := by
  show (cfg1.win 5).cut (grid1.coords t) ((data1 V c).after 5 t) = _
  rw [data1_after_5]
  unfold result1
  rw [View.canon_unit_zero origin1]
  simp only [View.ld_unit_zero (S := S10000x128) origin1, View.ld_unit_zero (S := S128x128) origin1, View.ld_unit_zero (S := S1x128) origin1]
  rw [rowBlock1, wholeBlock1_1, wholeBlock1_2, wholeBlock1_3, wholeBlock1_4]
  have e := index1 t
  have e50 : win1_5.index t (0 : Fin 2) = t.val := e.2.2.2.2.2.2.2.2.2.2.1
  have e51 : win1_5.index t (1 : Fin 2) = 0 := e.2.2.2.2.2.2.2.2.2.2.2
  have hN : cfg1.N = 10 := N_1
  have ht : t.val < 10 := by have := t.isLt; omega
  funext j
  have hj0 : (j 0).val < 10000 := (j 0).isLt
  rw [View.read_apply]
  unfold wholeResult1
  have h0 : ((((cfg1.win 5).blk t).view.emb j) 0).val = t.val * 10000 + (j 0).val := by
    show win1_5.index t (0 : Fin 2) * 10000 + 1 * (j 0).val = _; rw [e50]; omega
  have h1 : (((cfg1.win 5).blk t).view.emb j) 1 = j 1 := by
    apply Fin.ext; show win1_5.index t (1 : Fin 2) * 128 + 1 * (j 1).val = _; rw [e51]; omega
  have hd : ((((cfg1.win 5).blk t).view.emb j) 0).val / 10000 = t.val := by rw [h0]; omega
  have hm : ((((cfg1.win 5).blk t).view.emb j) 0).val % 10000 = (j 0).val := by rw [h0]; omega
  rw [hd, h1]
  refine congrArg _ ?_
  funext a
  apply Fin.ext
  match a with
  | ⟨0, _⟩ => exact hm.symm
  | ⟨1, _⟩ => rfl

/-- An index of the result array is in point `t`'s block iff each coordinate is in the block's range on its axis. -/
theorem mem_block1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v24).slice (win1_5.rect t)).set ↔ _
  rw [View.set_slice_whole, Rect.mem_set_unit]
  exact Iff.rfl

/-- Every index of the result array is in the block of the point its row falls in. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 10 := N_1
  have hlt : (i 0).val / 10000 < cfg1.N := by show _ < grid1.N; omega
  refine ⟨⟨(i 0).val / 10000, hlt⟩, flush1_5 _, ?_⟩
  have e := index1 ⟨(i 0).val / 10000, hlt⟩
  have e50 : win1_5.index ⟨(i 0).val / 10000, hlt⟩ (0 : Fin 2) = (i 0).val / 10000 := e.2.2.2.2.2.2.2.2.2.2.1
  have e51 : win1_5.index ⟨(i 0).val / 10000, hlt⟩ (1 : Fin 2) = 0 := e.2.2.2.2.2.2.2.2.2.2.2
  rw [mem_block1]
  intro a
  match a with
  | ⟨0, _⟩ => show win1_5.index ⟨(i 0).val / 10000, hlt⟩ (0 : Fin 2) * 10000 ≤ (i 0).val ∧ (i 0).val < win1_5.index ⟨(i 0).val / 10000, hlt⟩ (0 : Fin 2) * 10000 + 10000; rw [e50]; omega
  | ⟨1, _⟩ => show win1_5.index ⟨(i 0).val / 10000, hlt⟩ (1 : Fin 2) * 128 ≤ (i 1).val ∧ (i 1).val < win1_5.index ⟨(i 0).val / 10000, hlt⟩ (1 : Fin 2) * 128 + 128; rw [e51]; omega

/-- The result array after the call. -/
theorem finalResult1 (c : Dev nD) :
    (data1 V c).arrAt 5 cfg1.N = wholeResult1 (V c main_v19) (V c main_v20) (V c main_v22) (V c main_v21) (V c main_v23) :=
  (data1 V c).arrAt_eq_of_cover 5 _ (fun t _ => flushed1_eq V c t) (covered1)

end Cert.KernelIdeal.Frame

end
-- ==== Proof.PayK1.lean ====
/-
  The kernel's stored value at one element, as mathematics: for the row block of width 128, element (p, q) of
  x + (h · tanh (softplus h)) · B + b₂ with h = x · A + b₁ is output coordinate q of the residual perceptron on row p.
  Each matrix product into a zero accumulator is the sum over the shared axis; each one-row bias is read at its column;
  the guard of the stable softplus (an element unequal to itself) never fires on the extended reals, h - 0 = h,
  0 - a = -a and |a| = max a (-a); the grouping (x + product) + bias is the perceptron's by associativity of addition.
-/
import proofs.«159146_j10170482557014_2_alg».proof.Proof.Gen.KernelIdeal.Skeleton
import proofs.«159146_j10170482557014_2_alg».proof.Proof.LibMlp
import proofs.«159146_j10170482557014_2_alg».proof.Proof.LibMatmul
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.Layer

/-- The guard `a ≠ a` is false on the extended reals: a linear order has no unordered element. -/
theorem cmp_one_self1 (a : EReal) : Ideal.cmp .one a a = 0#1 := by
  simp [Ideal.cmp]

/-- One element of the guarded stable softplus: the guard is dead, `h - 0 = h`, `0 - a = -a`, `|a| = max a (-a)`. -/
theorem softplus_guarded1 (h : EReal) :
    Scalar.select (Ideal.cmp .one (h - 0) (h - 0)) (h + 0)
        (max h 0 + Ideal.log1p (Ideal.exp (0 - max (h - 0) (-(h - 0))))) = Mlp.softplus h := by
  rw [sub_zero, cmp_one_self1, select_zero, zero_sub]; rfl

/-- A layer's pre-activation at `(p, k)`: the row of `X` times column `k` of `W` (a product into a zero accumulator),
    plus the one-row bias spread over the rows. -/
theorem layer1_apply (X : FVec Ideal S10000x128 .f32) (W : FVec Ideal S128x128 .f32) (c : FVec Ideal S1x128 .f32)
    (hb : S1x128.Broadcasts S10000x128) (p : Fin 10000) (k : Fin 128) :
    addf (matmul dot_S10000x128_S128x128_S10000x128_1_0_0_1_n_n (some .fp32) X W (constant S10000x128 .f32 0x00000000#32)) (broadcastTo S10000x128 c hb) (ix2 p k)
      = Mlp.hidden (fun l => X (ix2 p l)) (fun l k => W (ix2 l k)) (fun k => c (ix2 0 k)) k := by
  rw [addf_apply, broadcastTo_1b_ab_apply]
  refine congrArg (· + c (ix2 (0 : Fin 1) k)) ?_
  refine (Ideal.matmul_constant_zero_apply dot_S10000x128_S128x128_S10000x128_1_0_0_1_n_n (some .fp32) X W (ix2 p k)).trans ?_
  exact Matmul.plain_contr_sum dot_S10000x128_S128x128_S10000x128_1_0_0_1_n_n rfl rfl rfl rfl rfl rfl X W (ix2 p k)

/-- The activation at an index: `H · tanh (softplus H)` with the softplus in its guarded stable form over the zero splat. -/
theorem act1_apply (H : FVec Ideal S10000x128 .f32) (i : S10000x128.Idx) :
    mulf H (tanh (select
        (cmpf .one (subf H (broadcast S10000x128 (FloatOps.ofBits .f32 0x00000000#32))) (subf H (broadcast S10000x128 (FloatOps.ofBits .f32 0x00000000#32))))
        (addf H (broadcast S10000x128 (FloatOps.ofBits .f32 0x00000000#32)))
        (addf (maximumf H (broadcast S10000x128 (FloatOps.ofBits .f32 0x00000000#32)))
          (log1p (exp (subf (broadcast S10000x128 (FloatOps.ofBits .f32 0x00000000#32))
            (absf (subf H (broadcast S10000x128 (FloatOps.ofBits .f32 0x00000000#32)))))))))) i
      = Mlp.mish (H i) := by
  show H i * Ideal.tanh (Scalar.select (Ideal.cmp .one (H i - Ideal.ofBits .f32 0x00000000#32) (H i - Ideal.ofBits .f32 0x00000000#32))
        (H i + Ideal.ofBits .f32 0x00000000#32)
        (max (H i) (Ideal.ofBits .f32 0x00000000#32) + Ideal.log1p (Ideal.exp (Ideal.ofBits .f32 0x00000000#32
          - max (H i - Ideal.ofBits .f32 0x00000000#32) (-(H i - Ideal.ofBits .f32 0x00000000#32)))))) = _
  rw [Ideal.ofBits_zero_f32, softplus_guarded1]; rfl

/-- The payload of the kernel's one store at `(p, q)`: the residual perceptron's output coordinate `q` on row `p`. -/
theorem pay1_apply (x0 : Vec Ideal S10000x128 .f32) (w1 : Vec Ideal S128x128 .f32) (c1 : Vec Ideal S1x128 .f32)
    (w2 : Vec Ideal S128x128 .f32) (c2 : Vec Ideal S1x128 .f32) (p : Fin 10000) (q : Fin 128) :
    Cert.KernelIdeal.Gen.k1_pay1 (F := Ideal) x0 w1 c1 w2 c2 (ix2 p q)
      = Mlp.out (fun l => x0 (ix2 p l)) (fun l k => w1 (ix2 l k)) (fun k => c1 (ix2 0 k))
          (fun l k => w2 (ix2 l k)) (fun k => c2 (ix2 0 k)) q := by
  unfold Gen.k1_pay1
  simp only [shapeCast_self]
  rw [← Mlp.out_assoc]
  simp only [addf_apply, Ideal.matmul_constant_zero_apply, broadcastTo_1b_ab_apply]
  refine congrArg₂ (· + ·) (congrArg (x0 (ix2 p q) + ·) ?_) rfl
  refine (Matmul.plain_contr_sum dot_S10000x128_S128x128_S10000x128_1_0_0_1_n_n rfl rfl rfl rfl rfl rfl _ _ (ix2 p q)).trans ?_
  refine Finset.sum_congr rfl fun k _ => congrArg (· * w2 (ix2 k q)) ?_
  refine (act1_apply _ (ix2 p k)).trans (congrArg Mlp.mish ?_)
  exact layer1_apply x0 w1 c1 _ p k

end Cert.KernelIdeal.Pay

end
-- ==== Proof.KIMath1.lean ====
/-
  Call 1's result array as mathematics: at row r and column q it is output coordinate q of the residual perceptron on
  row r of the gathered rows.  The row block containing r, read at local row r mod 10000, is row r itself
  (10000·(r / 10000) + r mod 10000 = r).
-/
import proofs.«159146_j10170482557014_2_alg».proof.Proof.KIValue1
import proofs.«159146_j10170482557014_2_alg».proof.Proof.PayK1

noncomputable section

namespace Cert.KernelIdeal.Frame

open Cert.KernelIdeal Cert.KernelIdeal.Gen
open Idealize.ShloMosaic Idealize.ShloMosaic.ValueIdx Cert.Layer

theorem wholeResult1_apply (X : S100000x128.Idx → Elt Ideal .f32) (A : S128x128.Idx → Elt Ideal .f32) (b₁ : S1x128.Idx → Elt Ideal .f32)
    (B' : S128x128.Idx → Elt Ideal .f32) (b₂ : S1x128.Idx → Elt Ideal .f32) (r : Fin 100000) (q : Fin 128) :
    wholeResult1 (F := Ideal) X A b₁ B' b₂ (ix2 r q)
      = Mlp.out (fun l => X (ix2 r l)) (fun l k => A (ix2 l k)) (fun k => b₁ (ix2 0 k)) (fun l k => B' (ix2 l k)) (fun k => b₂ (ix2 0 k)) q := by
  have hr : r.val < 100000 := r.isLt
  unfold wholeResult1
  show Gen.k1_pay1 (F := Ideal) (rowsOf1 X (r.val / 10000)) A b₁ B' b₂ (ix2 ⟨r.val % 10000, Nat.mod_lt _ (by norm_num)⟩ q) = _
  refine (Pay.pay1_apply _ A b₁ B' b₂ ⟨r.val % 10000, Nat.mod_lt _ (by norm_num)⟩ q).trans ?_
  refine congrArg (fun x => Mlp.out x _ _ _ _ q) (funext fun l => ?_)
  unfold rowsOf1
  refine congrArg (fun a => X (ix2 a l)) (Fin.ext ?_)
  show (10000 * (r.val / 10000) + r.val % 10000) % 100000 = r.val
  omega

end Cert.KernelIdeal.Frame

end
-- ==== Proof.KIValue2.lean ====
/-
  Call 2: from blocks to the array.  Block `t` of the gathered rows is rows 10000·t … 10000·t + 9999, the weight and bias
  windows are their whole arrays at every point, and block `t` of the result is again rows 10000·t …; the ten blocks cover
  the result array.  So the result array ends holding, at row r and column q, the body's arithmetic on the row block
  containing r (block r / 10000), read at local row r mod 10000 and column q.  Stated for any float instance.
-/
import proofs.«159146_j10170482557014_2_alg».proof.Proof.KIRegion2
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

theorem origin2 : (![0, 0] : Fin 2 → Nat) = fun _ => 0 := funext fun a => by fin_cases a <;> rfl

/-- The printed index maps over the ten grid points: the row windows move one block per point, the others stay. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Rows 10000·t … 10000·t + 9999 of an array of 100000 rows, as a block. -/
def rowsOf2 (X : S100000x128.Idx → Elt F .f32) (t : Nat) : Vec F S10000x128 .f32 :=
  fun y => X (ix2 (n0 := 100000) (n1 := 128) ⟨(10000 * t + (y 0).val) % 100000, Nat.mod_lt _ (by norm_num)⟩ (y 1))

/-- The result array: at (r, q) the body's arithmetic on the row block containing r, at local row r mod 10000. -/
def wholeResult2 (X : S100000x128.Idx → Elt F .f32) (A : S128x128.Idx → Elt F .f32) (b₁ : S1x128.Idx → Elt F .f32) (B : S128x128.Idx → Elt F .f32) (b₂ : S1x128.Idx → Elt F .f32) :
    S100000x128.Idx → Elt F .f32 :=
  fun i => k2_pay1 (rowsOf2 X ((i 0).val / 10000)) A b₁ B b₂ (ix2 (n0 := 10000) (n1 := 128) ⟨(i 0).val % 10000, Nat.mod_lt _ (by norm_num)⟩ (i 1))

/-- The row window's block at point `t` is rows 10000·t … of its array. -/
theorem rowBlock2 (c : Dev nD) (t : Fin cfg2.N) :
    (blockAt2 V c 0 t : Vec F S10000x128 .f32) = rowsOf2 (V c main_v33 : S100000x128.Idx → Elt F .f32) t.val := by
  obtain ⟨e0, e1, -⟩ := index2 t
  have hN : cfg2.N = 10 := N_2
  have ht : t.val < 10 := by have := t.isLt; omega
  funext y
  have hy0 : (y 0).val < 10000 := (y 0).isLt
  unfold blockAt2 rowsOf2
  rw [View.read_apply]
  show V c main_v33 _ = V c main_v33 _
  congr 1
  funext a
  apply Fin.ext
  match a with
  | ⟨0, _⟩ => show win2_0.index t (0 : Fin 2) * 10000 + 1 * (y 0).val = (10000 * t.val + (y 0).val) % 100000; rw [e0, Nat.mod_eq_of_lt (by omega)]; omega
  | ⟨1, _⟩ => show win2_0.index t (1 : Fin 2) * 128 + 1 * (y 1).val = (y 1).val; rw [e1]; omega

/-- Window 1's block at every point is its whole array. -/
theorem wholeBlock2_1 (c : Dev nD) (t : Fin cfg2.N) :
    (blockAt2 V c 1 t : Vec F S128x128 .f32) = (V c main_v34 : S128x128.Idx → Elt F .f32) := by
  have e := index2 t
  funext y
  unfold blockAt2
  rw [View.read_apply]
  show V c main_v34 _ = V c main_v34 _
  congr 1
  funext a
  apply Fin.ext
  match a with
  | ⟨0, _⟩ => show win2_1.index t (0 : Fin 2) * 128 + 1 * (y 0).val = (y 0).val; rw [e.2.2.1]; omega
  | ⟨1, _⟩ => show win2_1.index t (1 : Fin 2) * 128 + 1 * (y 1).val = (y 1).val; rw [e.2.2.2.1]; omega

/-- Window 2's block at every point is its whole array. -/
theorem wholeBlock2_2 (c : Dev nD) (t : Fin cfg2.N) :
    (blockAt2 V c 2 t : Vec F S1x128 .f32) = (V c main_v36 : S1x128.Idx → Elt F .f32) := by
  have e := index2 t
  funext y
  unfold blockAt2
  rw [View.read_apply]
  show V c main_v36 _ = V c main_v36 _
  congr 1
  funext a
  apply Fin.ext
  match a with
  | ⟨0, _⟩ => show win2_2.index t (0 : Fin 2) * 1 + 1 * (y 0).val = (y 0).val; rw [e.2.2.2.2.1]; omega
  | ⟨1, _⟩ => show win2_2.index t (1 : Fin 2) * 128 + 1 * (y 1).val = (y 1).val; rw [e.2.2.2.2.2.1]; omega

/-- Window 3's block at every point is its whole array. -/
theorem wholeBlock2_3 (c : Dev nD) (t : Fin cfg2.N) :
    (blockAt2 V c 3 t : Vec F S128x128 .f32) = (V c main_v35 : S128x128.Idx → Elt F .f32) := by
  have e := index2 t
  funext y
  unfold blockAt2
  rw [View.read_apply]
  show V c main_v35 _ = V c main_v35 _
  congr 1
  funext a
  apply Fin.ext
  match a with
  | ⟨0, _⟩ => show win2_3.index t (0 : Fin 2) * 128 + 1 * (y 0).val = (y 0).val; rw [e.2.2.2.2.2.2.1]; omega
  | ⟨1, _⟩ => show win2_3.index t (1 : Fin 2) * 128 + 1 * (y 1).val = (y 1).val; rw [e.2.2.2.2.2.2.2.1]; omega

/-- Window 4's block at every point is its whole array. -/
theorem wholeBlock2_4 (c : Dev nD) (t : Fin cfg2.N) :
    (blockAt2 V c 4 t : Vec F S1x128 .f32) = (V c main_v37 : S1x128.Idx → Elt F .f32) := by
  have e := index2 t
  funext y
  unfold blockAt2
  rw [View.read_apply]
  show V c main_v37 _ = V c main_v37 _
  congr 1
  funext a
  apply Fin.ext
  match a with
  | ⟨0, _⟩ => show win2_4.index t (0 : Fin 2) * 1 + 1 * (y 0).val = (y 0).val; rw [e.2.2.2.2.2.2.2.2.1]; omega
  | ⟨1, _⟩ => show win2_4.index t (1 : Fin 2) * 128 + 1 * (y 1).val = (y 1).val; rw [e.2.2.2.2.2.2.2.2.2.1]; omega

/-- What point `t` writes back is block `t` of `wholeResult2` of the arrays as the call finds them. -/
theorem flushed2_eq (c : Dev nD) (t : Fin cfg2.N) :
    (data2 V c).flushed 5 t = ((cfg2.win 5).blk t).view.read (Elt F)
      (wholeResult2 (V c main_v33) (V c main_v34) (V c main_v36) (V c main_v35) (V c main_v37)) := by
  show (cfg2.win 5).cut (grid2.coords t) ((data2 V c).after 5 t) = _
  rw [data2_after_5]
  unfold result2
  rw [View.canon_unit_zero origin2]
  simp only [View.ld_unit_zero (S := S10000x128) origin2, View.ld_unit_zero (S := S128x128) origin2, View.ld_unit_zero (S := S1x128) origin2]
  rw [rowBlock2, wholeBlock2_1, wholeBlock2_2, wholeBlock2_3, wholeBlock2_4]
  have e := index2 t
  have e50 : win2_5.index t (0 : Fin 2) = t.val := e.2.2.2.2.2.2.2.2.2.2.1
  have e51 : win2_5.index t (1 : Fin 2) = 0 := e.2.2.2.2.2.2.2.2.2.2.2
  have hN : cfg2.N = 10 := N_2
  have ht : t.val < 10 := by have := t.isLt; omega
  funext j
  have hj0 : (j 0).val < 10000 := (j 0).isLt
  rw [View.read_apply]
  unfold wholeResult2
  have h0 : ((((cfg2.win 5).blk t).view.emb j) 0).val = t.val * 10000 + (j 0).val := by
    show win2_5.index t (0 : Fin 2) * 10000 + 1 * (j 0).val = _; rw [e50]; omega
  have h1 : (((cfg2.win 5).blk t).view.emb j) 1 = j 1 := by
    apply Fin.ext; show win2_5.index t (1 : Fin 2) * 128 + 1 * (j 1).val = _; rw [e51]; omega
  have hd : ((((cfg2.win 5).blk t).view.emb j) 0).val / 10000 = t.val := by rw [h0]; omega
  have hm : ((((cfg2.win 5).blk t).view.emb j) 0).val % 10000 = (j 0).val := by rw [h0]; omega
  rw [hd, h1]
  refine congrArg _ ?_
  funext a
  apply Fin.ext
  match a with
  | ⟨0, _⟩ => exact hm.symm
  | ⟨1, _⟩ => rfl

/-- An index of the result array is in point `t`'s block iff each coordinate is in the block's range on its axis. -/
theorem mem_block2 (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v38).slice (win2_5.rect t)).set ↔ _
  rw [View.set_slice_whole, Rect.mem_set_unit]
  exact Iff.rfl

/-- Every index of the result array is in the block of the point its row falls in. -/
theorem covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 10 := N_2
  have hlt : (i 0).val / 10000 < cfg2.N := by show _ < grid2.N; omega
  refine ⟨⟨(i 0).val / 10000, hlt⟩, flush2_5 _, ?_⟩
  have e := index2 ⟨(i 0).val / 10000, hlt⟩
  have e50 : win2_5.index ⟨(i 0).val / 10000, hlt⟩ (0 : Fin 2) = (i 0).val / 10000 := e.2.2.2.2.2.2.2.2.2.2.1
  have e51 : win2_5.index ⟨(i 0).val / 10000, hlt⟩ (1 : Fin 2) = 0 := e.2.2.2.2.2.2.2.2.2.2.2
  rw [mem_block2]
  intro a
  match a with
  | ⟨0, _⟩ => show win2_5.index ⟨(i 0).val / 10000, hlt⟩ (0 : Fin 2) * 10000 ≤ (i 0).val ∧ (i 0).val < win2_5.index ⟨(i 0).val / 10000, hlt⟩ (0 : Fin 2) * 10000 + 10000; rw [e50]; omega
  | ⟨1, _⟩ => show win2_5.index ⟨(i 0).val / 10000, hlt⟩ (1 : Fin 2) * 128 ≤ (i 1).val ∧ (i 1).val < win2_5.index ⟨(i 0).val / 10000, hlt⟩ (1 : Fin 2) * 128 + 128; rw [e51]; omega

/-- The result array after the call. -/
theorem finalResult2 (c : Dev nD) :
    (data2 V c).arrAt 5 cfg2.N = wholeResult2 (V c main_v33) (V c main_v34) (V c main_v36) (V c main_v35) (V c main_v37) :=
  (data2 V c).arrAt_eq_of_cover 5 _ (fun t _ => flushed2_eq V c t) (covered2)

end Cert.KernelIdeal.Frame

end
-- ==== Proof.PayK2.lean ====
/-
  The kernel's stored value at one element, as mathematics: for the row block of width 128, element (p, q) of
  x + (h · tanh (softplus h)) · B + b₂ with h = x · A + b₁ is output coordinate q of the residual perceptron on row p.
  Each matrix product into a zero accumulator is the sum over the shared axis; each one-row bias is read at its column;
  the guard of the stable softplus (an element unequal to itself) never fires on the extended reals, h - 0 = h,
  0 - a = -a and |a| = max a (-a); the grouping (x + product) + bias is the perceptron's by associativity of addition.
-/
import proofs.«159146_j10170482557014_2_alg».proof.Proof.Gen.KernelIdeal.Skeleton
import proofs.«159146_j10170482557014_2_alg».proof.Proof.LibMlp
import proofs.«159146_j10170482557014_2_alg».proof.Proof.LibMatmul
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.Layer

/-- The guard `a ≠ a` is false on the extended reals: a linear order has no unordered element. -/
theorem cmp_one_self2 (a : EReal) : Ideal.cmp .one a a = 0#1 := by
  simp [Ideal.cmp]

/-- One element of the guarded stable softplus: the guard is dead, `h - 0 = h`, `0 - a = -a`, `|a| = max a (-a)`. -/
theorem softplus_guarded2 (h : EReal) :
    Scalar.select (Ideal.cmp .one (h - 0) (h - 0)) (h + 0)
        (max h 0 + Ideal.log1p (Ideal.exp (0 - max (h - 0) (-(h - 0))))) = Mlp.softplus h := by
  rw [sub_zero, cmp_one_self2, select_zero, zero_sub]; rfl

/-- A layer's pre-activation at `(p, k)`: the row of `X` times column `k` of `W` (a product into a zero accumulator),
    plus the one-row bias spread over the rows. -/
theorem layer2_apply (X : FVec Ideal S10000x128 .f32) (W : FVec Ideal S128x128 .f32) (c : FVec Ideal S1x128 .f32)
    (hb : S1x128.Broadcasts S10000x128) (p : Fin 10000) (k : Fin 128) :
    addf (matmul dot_S10000x128_S128x128_S10000x128_1_0_0_1_n_n (some .fp32) X W (constant S10000x128 .f32 0x00000000#32)) (broadcastTo S10000x128 c hb) (ix2 p k)
      = Mlp.hidden (fun l => X (ix2 p l)) (fun l k => W (ix2 l k)) (fun k => c (ix2 0 k)) k := by
  rw [addf_apply, broadcastTo_1b_ab_apply]
  refine congrArg (· + c (ix2 (0 : Fin 1) k)) ?_
  refine (Ideal.matmul_constant_zero_apply dot_S10000x128_S128x128_S10000x128_1_0_0_1_n_n (some .fp32) X W (ix2 p k)).trans ?_
  exact Matmul.plain_contr_sum dot_S10000x128_S128x128_S10000x128_1_0_0_1_n_n rfl rfl rfl rfl rfl rfl X W (ix2 p k)

/-- The activation at an index: `H · tanh (softplus H)` with the softplus in its guarded stable form over the zero splat. -/
theorem act2_apply (H : FVec Ideal S10000x128 .f32) (i : S10000x128.Idx) :
    mulf H (tanh (select
        (cmpf .one (subf H (broadcast S10000x128 (FloatOps.ofBits .f32 0x00000000#32))) (subf H (broadcast S10000x128 (FloatOps.ofBits .f32 0x00000000#32))))
        (addf H (broadcast S10000x128 (FloatOps.ofBits .f32 0x00000000#32)))
        (addf (maximumf H (broadcast S10000x128 (FloatOps.ofBits .f32 0x00000000#32)))
          (log1p (exp (subf (broadcast S10000x128 (FloatOps.ofBits .f32 0x00000000#32))
            (absf (subf H (broadcast S10000x128 (FloatOps.ofBits .f32 0x00000000#32)))))))))) i
      = Mlp.mish (H i) := by
  show H i * Ideal.tanh (Scalar.select (Ideal.cmp .one (H i - Ideal.ofBits .f32 0x00000000#32) (H i - Ideal.ofBits .f32 0x00000000#32))
        (H i + Ideal.ofBits .f32 0x00000000#32)
        (max (H i) (Ideal.ofBits .f32 0x00000000#32) + Ideal.log1p (Ideal.exp (Ideal.ofBits .f32 0x00000000#32
          - max (H i - Ideal.ofBits .f32 0x00000000#32) (-(H i - Ideal.ofBits .f32 0x00000000#32)))))) = _
  rw [Ideal.ofBits_zero_f32, softplus_guarded2]; rfl

/-- The payload of the kernel's one store at `(p, q)`: the residual perceptron's output coordinate `q` on row `p`. -/
theorem pay2_apply (x0 : Vec Ideal S10000x128 .f32) (w1 : Vec Ideal S128x128 .f32) (c1 : Vec Ideal S1x128 .f32)
    (w2 : Vec Ideal S128x128 .f32) (c2 : Vec Ideal S1x128 .f32) (p : Fin 10000) (q : Fin 128) :
    Cert.KernelIdeal.Gen.k2_pay1 (F := Ideal) x0 w1 c1 w2 c2 (ix2 p q)
      = Mlp.out (fun l => x0 (ix2 p l)) (fun l k => w1 (ix2 l k)) (fun k => c1 (ix2 0 k))
          (fun l k => w2 (ix2 l k)) (fun k => c2 (ix2 0 k)) q := by
  unfold Gen.k2_pay1
  simp only [shapeCast_self]
  rw [← Mlp.out_assoc]
  simp only [addf_apply, Ideal.matmul_constant_zero_apply, broadcastTo_1b_ab_apply]
  refine congrArg₂ (· + ·) (congrArg (x0 (ix2 p q) + ·) ?_) rfl
  refine (Matmul.plain_contr_sum dot_S10000x128_S128x128_S10000x128_1_0_0_1_n_n rfl rfl rfl rfl rfl rfl _ _ (ix2 p q)).trans ?_
  refine Finset.sum_congr rfl fun k _ => congrArg (· * w2 (ix2 k q)) ?_
  refine (act2_apply _ (ix2 p k)).trans (congrArg Mlp.mish ?_)
  exact layer2_apply x0 w1 c1 _ p k

end Cert.KernelIdeal.Pay

end
-- ==== Proof.KIMath2.lean ====
/-
  Call 2's result array as mathematics: at row r and column q it is output coordinate q of the residual perceptron on
  row r of the gathered rows.  The row block containing r, read at local row r mod 10000, is row r itself
  (10000·(r / 10000) + r mod 10000 = r).
-/
import proofs.«159146_j10170482557014_2_alg».proof.Proof.KIValue2
import proofs.«159146_j10170482557014_2_alg».proof.Proof.PayK2

noncomputable section

namespace Cert.KernelIdeal.Frame

open Cert.KernelIdeal Cert.KernelIdeal.Gen
open Idealize.ShloMosaic Idealize.ShloMosaic.ValueIdx Cert.Layer

theorem wholeResult2_apply (X : S100000x128.Idx → Elt Ideal .f32) (A : S128x128.Idx → Elt Ideal .f32) (b₁ : S1x128.Idx → Elt Ideal .f32)
    (B' : S128x128.Idx → Elt Ideal .f32) (b₂ : S1x128.Idx → Elt Ideal .f32) (r : Fin 100000) (q : Fin 128) :
    wholeResult2 (F := Ideal) X A b₁ B' b₂ (ix2 r q)
      = Mlp.out (fun l => X (ix2 r l)) (fun l k => A (ix2 l k)) (fun k => b₁ (ix2 0 k)) (fun l k => B' (ix2 l k)) (fun k => b₂ (ix2 0 k)) q := by
  have hr : r.val < 100000 := r.isLt
  unfold wholeResult2
  show Gen.k2_pay1 (F := Ideal) (rowsOf2 X (r.val / 10000)) A b₁ B' b₂ (ix2 ⟨r.val % 10000, Nat.mod_lt _ (by norm_num)⟩ q) = _
  refine (Pay.pay2_apply _ A b₁ B' b₂ ⟨r.val % 10000, Nat.mod_lt _ (by norm_num)⟩ q).trans ?_
  refine congrArg (fun x => Mlp.out x _ _ _ _ q) (funext fun l => ?_)
  unfold rowsOf2
  refine congrArg (fun a => X (ix2 a l)) (Fin.ext ?_)
  show (10000 * (r.val / 10000) + r.val % 10000) % 100000 = r.val
  omega

end Cert.KernelIdeal.Frame

end
-- ==== Proof.KIValue3.lean ====
/-
  Call 3: from blocks to the array.  Block `t` of the gathered rows is rows 10000·t … 10000·t + 9999, the weight and bias
  windows are their whole arrays at every point, and block `t` of the result is again rows 10000·t …; the ten blocks cover
  the result array.  So the result array ends holding, at row r and column q, the body's arithmetic on the row block
  containing r (block r / 10000), read at local row r mod 10000 and column q.  Stated for any float instance.
-/
import proofs.«159146_j10170482557014_2_alg».proof.Proof.KIRegion3
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (V : (c : Dev nD) → (b : Ref sig .tc) → Buf (Elt F) ((c : Thread nD τ).loc b))

theorem origin3 : (![0, 0] : Fin 2 → Nat) = fun _ => 0 := funext fun a => by fin_cases a <;> rfl

/-- The printed index maps over the ten grid points: the row windows move one block per point, the others stay. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Rows 10000·t … 10000·t + 9999 of an array of 100000 rows, as a block. -/
def rowsOf3 (X : S100000x192.Idx → Elt F .f32) (t : Nat) : Vec F S10000x192 .f32 :=
  fun y => X (ix2 (n0 := 100000) (n1 := 192) ⟨(10000 * t + (y 0).val) % 100000, Nat.mod_lt _ (by norm_num)⟩ (y 1))

/-- The result array: at (r, q) the body's arithmetic on the row block containing r, at local row r mod 10000. -/
def wholeResult3 (X : S100000x192.Idx → Elt F .f32) (A : S192x192.Idx → Elt F .f32) (b₁ : S1x192.Idx → Elt F .f32) (B : S192x192.Idx → Elt F .f32) (b₂ : S1x192.Idx → Elt F .f32) :
    S100000x192.Idx → Elt F .f32 :=
  fun i => k3_pay1 (rowsOf3 X ((i 0).val / 10000)) A b₁ B b₂ (ix2 (n0 := 10000) (n1 := 192) ⟨(i 0).val % 10000, Nat.mod_lt _ (by norm_num)⟩ (i 1))

/-- The row window's block at point `t` is rows 10000·t … of its array. -/
theorem rowBlock3 (c : Dev nD) (t : Fin cfg3.N) :
    (blockAt3 V c 0 t : Vec F S10000x192 .f32) = rowsOf3 (V c main_v47 : S100000x192.Idx → Elt F .f32) t.val := by
  obtain ⟨e0, e1, -⟩ := index3 t
  have hN : cfg3.N = 10 := N_3
  have ht : t.val < 10 := by have := t.isLt; omega
  funext y
  have hy0 : (y 0).val < 10000 := (y 0).isLt
  unfold blockAt3 rowsOf3
  rw [View.read_apply]
  show V c main_v47 _ = V c main_v47 _
  congr 1
  funext a
  apply Fin.ext
  match a with
  | ⟨0, _⟩ => show win3_0.index t (0 : Fin 2) * 10000 + 1 * (y 0).val = (10000 * t.val + (y 0).val) % 100000; rw [e0, Nat.mod_eq_of_lt (by omega)]; omega
  | ⟨1, _⟩ => show win3_0.index t (1 : Fin 2) * 192 + 1 * (y 1).val = (y 1).val; rw [e1]; omega

/-- Window 1's block at every point is its whole array. -/
theorem wholeBlock3_1 (c : Dev nD) (t : Fin cfg3.N) :
    (blockAt3 V c 1 t : Vec F S192x192 .f32) = (V c main_v48 : S192x192.Idx → Elt F .f32) := by
  have e := index3 t
  funext y
  unfold blockAt3
  rw [View.read_apply]
  show V c main_v48 _ = V c main_v48 _
  congr 1
  funext a
  apply Fin.ext
  match a with
  | ⟨0, _⟩ => show win3_1.index t (0 : Fin 2) * 192 + 1 * (y 0).val = (y 0).val; rw [e.2.2.1]; omega
  | ⟨1, _⟩ => show win3_1.index t (1 : Fin 2) * 192 + 1 * (y 1).val = (y 1).val; rw [e.2.2.2.1]; omega

/-- Window 2's block at every point is its whole array. -/
theorem wholeBlock3_2 (c : Dev nD) (t : Fin cfg3.N) :
    (blockAt3 V c 2 t : Vec F S1x192 .f32) = (V c main_v50 : S1x192.Idx → Elt F .f32) := by
  have e := index3 t
  funext y
  unfold blockAt3
  rw [View.read_apply]
  show V c main_v50 _ = V c main_v50 _
  congr 1
  funext a
  apply Fin.ext
  match a with
  | ⟨0, _⟩ => show win3_2.index t (0 : Fin 2) * 1 + 1 * (y 0).val = (y 0).val; rw [e.2.2.2.2.1]; omega
  | ⟨1, _⟩ => show win3_2.index t (1 : Fin 2) * 192 + 1 * (y 1).val = (y 1).val; rw [e.2.2.2.2.2.1]; omega

/-- Window 3's block at every point is its whole array. -/
theorem wholeBlock3_3 (c : Dev nD) (t : Fin cfg3.N) :
    (blockAt3 V c 3 t : Vec F S192x192 .f32) = (V c main_v49 : S192x192.Idx → Elt F .f32) := by
  have e := index3 t
  funext y
  unfold blockAt3
  rw [View.read_apply]
  show V c main_v49 _ = V c main_v49 _
  congr 1
  funext a
  apply Fin.ext
  match a with
  | ⟨0, _⟩ => show win3_3.index t (0 : Fin 2) * 192 + 1 * (y 0).val = (y 0).val; rw [e.2.2.2.2.2.2.1]; omega
  | ⟨1, _⟩ => show win3_3.index t (1 : Fin 2) * 192 + 1 * (y 1).val = (y 1).val; rw [e.2.2.2.2.2.2.2.1]; omega

/-- Window 4's block at every point is its whole array. -/
theorem wholeBlock3_4 (c : Dev nD) (t : Fin cfg3.N) :
    (blockAt3 V c 4 t : Vec F S1x192 .f32) = (V c main_v51 : S1x192.Idx → Elt F .f32) := by
  have e := index3 t
  funext y
  unfold blockAt3
  rw [View.read_apply]
  show V c main_v51 _ = V c main_v51 _
  congr 1
  funext a
  apply Fin.ext
  match a with
  | ⟨0, _⟩ => show win3_4.index t (0 : Fin 2) * 1 + 1 * (y 0).val = (y 0).val; rw [e.2.2.2.2.2.2.2.2.1]; omega
  | ⟨1, _⟩ => show win3_4.index t (1 : Fin 2) * 192 + 1 * (y 1).val = (y 1).val; rw [e.2.2.2.2.2.2.2.2.2.1]; omega

/-- What point `t` writes back is block `t` of `wholeResult3` of the arrays as the call finds them. -/
theorem flushed3_eq (c : Dev nD) (t : Fin cfg3.N) :
    (data3 V c).flushed 5 t = ((cfg3.win 5).blk t).view.read (Elt F)
      (wholeResult3 (V c main_v47) (V c main_v48) (V c main_v50) (V c main_v49) (V c main_v51)) := by
  show (cfg3.win 5).cut (grid3.coords t) ((data3 V c).after 5 t) = _
  rw [data3_after_5]
  unfold result3
  rw [View.canon_unit_zero origin3]
  simp only [View.ld_unit_zero (S := S10000x192) origin3, View.ld_unit_zero (S := S192x192) origin3, View.ld_unit_zero (S := S1x192) origin3]
  rw [rowBlock3, wholeBlock3_1, wholeBlock3_2, wholeBlock3_3, wholeBlock3_4]
  have e := index3 t
  have e50 : win3_5.index t (0 : Fin 2) = t.val := e.2.2.2.2.2.2.2.2.2.2.1
  have e51 : win3_5.index t (1 : Fin 2) = 0 := e.2.2.2.2.2.2.2.2.2.2.2
  have hN : cfg3.N = 10 := N_3
  have ht : t.val < 10 := by have := t.isLt; omega
  funext j
  have hj0 : (j 0).val < 10000 := (j 0).isLt
  rw [View.read_apply]
  unfold wholeResult3
  have h0 : ((((cfg3.win 5).blk t).view.emb j) 0).val = t.val * 10000 + (j 0).val := by
    show win3_5.index t (0 : Fin 2) * 10000 + 1 * (j 0).val = _; rw [e50]; omega
  have h1 : (((cfg3.win 5).blk t).view.emb j) 1 = j 1 := by
    apply Fin.ext; show win3_5.index t (1 : Fin 2) * 192 + 1 * (j 1).val = _; rw [e51]; omega
  have hd : ((((cfg3.win 5).blk t).view.emb j) 0).val / 10000 = t.val := by rw [h0]; omega
  have hm : ((((cfg3.win 5).blk t).view.emb j) 0).val % 10000 = (j 0).val := by rw [h0]; omega
  rw [hd, h1]
  refine congrArg _ ?_
  funext a
  apply Fin.ext
  match a with
  | ⟨0, _⟩ => exact hm.symm
  | ⟨1, _⟩ => rfl

/-- An index of the result array is in point `t`'s block iff each coordinate is in the block's range on its axis. -/
theorem mem_block3 (t : Fin cfg3.N) (i : S100000x192.Idx) :
    i ∈ ((cfg3.win 5).blk t).view.set ↔ ∀ a : Fin 2, win3_5.index t a * S10000x192.size a ≤ (i a).val ∧ (i a).val < win3_5.index t a * S10000x192.size a + S10000x192.size a := by
  show i ∈ ((View.whole main_v52).slice (win3_5.rect t)).set ↔ _
  rw [View.set_slice_whole, Rect.mem_set_unit]
  exact Iff.rfl

/-- Every index of the result array is in the block of the point its row falls in. -/
theorem covered3 (i : S100000x192.Idx) :
    ∃ t : Fin cfg3.N, (cfg3.win 5).flush t = true ∧ i ∈ ((cfg3.win 5).blk t).view.set := by
  have hi0 : (i 0).val < 100000 := (i 0).isLt
  have hi1 : (i 1).val < 192 := (i 1).isLt
  have hN : grid3.N = 10 := N_3
  have hlt : (i 0).val / 10000 < cfg3.N := by show _ < grid3.N; omega
  refine ⟨⟨(i 0).val / 10000, hlt⟩, flush3_5 _, ?_⟩
  have e := index3 ⟨(i 0).val / 10000, hlt⟩
  have e50 : win3_5.index ⟨(i 0).val / 10000, hlt⟩ (0 : Fin 2) = (i 0).val / 10000 := e.2.2.2.2.2.2.2.2.2.2.1
  have e51 : win3_5.index ⟨(i 0).val / 10000, hlt⟩ (1 : Fin 2) = 0 := e.2.2.2.2.2.2.2.2.2.2.2
  rw [mem_block3]
  intro a
  match a with
  | ⟨0, _⟩ => show win3_5.index ⟨(i 0).val / 10000, hlt⟩ (0 : Fin 2) * 10000 ≤ (i 0).val ∧ (i 0).val < win3_5.index ⟨(i 0).val / 10000, hlt⟩ (0 : Fin 2) * 10000 + 10000; rw [e50]; omega
  | ⟨1, _⟩ => show win3_5.index ⟨(i 0).val / 10000, hlt⟩ (1 : Fin 2) * 192 ≤ (i 1).val ∧ (i 1).val < win3_5.index ⟨(i 0).val / 10000, hlt⟩ (1 : Fin 2) * 192 + 192; rw [e51]; omega

/-- The result array after the call. -/
theorem finalResult3 (c : Dev nD) :
    (data3 V c).arrAt 5 cfg3.N = wholeResult3 (V c main_v47) (V c main_v48) (V c main_v50) (V c main_v49) (V c main_v51) :=
  (data3 V c).arrAt_eq_of_cover 5 _ (fun t _ => flushed3_eq V c t) (covered3)

end Cert.KernelIdeal.Frame

end
-- ==== Proof.PayK3.lean ====
/-
  The kernel's stored value at one element, as mathematics: for the row block of width 192, element (p, q) of
  x + (h · tanh (softplus h)) · B + b₂ with h = x · A + b₁ is output coordinate q of the residual perceptron on row p.
  Each matrix product into a zero accumulator is the sum over the shared axis; each one-row bias is read at its column;
  the guard of the stable softplus (an element unequal to itself) never fires on the extended reals, h - 0 = h,
  0 - a = -a and |a| = max a (-a); the grouping (x + product) + bias is the perceptron's by associativity of addition.
-/
import proofs.«159146_j10170482557014_2_alg».proof.Proof.Gen.KernelIdeal.Skeleton
import proofs.«159146_j10170482557014_2_alg».proof.Proof.LibMlp
import proofs.«159146_j10170482557014_2_alg».proof.Proof.LibMatmul
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.Layer

/-- The guard `a ≠ a` is false on the extended reals: a linear order has no unordered element. -/
theorem cmp_one_self3 (a : EReal) : Ideal.cmp .one a a = 0#1 := by
  simp [Ideal.cmp]

/-- One element of the guarded stable softplus: the guard is dead, `h - 0 = h`, `0 - a = -a`, `|a| = max a (-a)`. -/
theorem softplus_guarded3 (h : EReal) :
    Scalar.select (Ideal.cmp .one (h - 0) (h - 0)) (h + 0)
        (max h 0 + Ideal.log1p (Ideal.exp (0 - max (h - 0) (-(h - 0))))) = Mlp.softplus h := by
  rw [sub_zero, cmp_one_self3, select_zero, zero_sub]; rfl

/-- A layer's pre-activation at `(p, k)`: the row of `X` times column `k` of `W` (a product into a zero accumulator),
    plus the one-row bias spread over the rows. -/
theorem layer3_apply (X : FVec Ideal S10000x192 .f32) (W : FVec Ideal S192x192 .f32) (c : FVec Ideal S1x192 .f32)
    (hb : S1x192.Broadcasts S10000x192) (p : Fin 10000) (k : Fin 192) :
    addf (matmul dot_S10000x192_S192x192_S10000x192_1_0_0_1_n_n (some .fp32) X W (constant S10000x192 .f32 0x00000000#32)) (broadcastTo S10000x192 c hb) (ix2 p k)
      = Mlp.hidden (fun l => X (ix2 p l)) (fun l k => W (ix2 l k)) (fun k => c (ix2 0 k)) k := by
  rw [addf_apply, broadcastTo_1b_ab_apply]
  refine congrArg (· + c (ix2 (0 : Fin 1) k)) ?_
  refine (Ideal.matmul_constant_zero_apply dot_S10000x192_S192x192_S10000x192_1_0_0_1_n_n (some .fp32) X W (ix2 p k)).trans ?_
  exact Matmul.plain_contr_sum dot_S10000x192_S192x192_S10000x192_1_0_0_1_n_n rfl rfl rfl rfl rfl rfl X W (ix2 p k)

/-- The activation at an index: `H · tanh (softplus H)` with the softplus in its guarded stable form over the zero splat. -/
theorem act3_apply (H : FVec Ideal S10000x192 .f32) (i : S10000x192.Idx) :
    mulf H (tanh (select
        (cmpf .one (subf H (broadcast S10000x192 (FloatOps.ofBits .f32 0x00000000#32))) (subf H (broadcast S10000x192 (FloatOps.ofBits .f32 0x00000000#32))))
        (addf H (broadcast S10000x192 (FloatOps.ofBits .f32 0x00000000#32)))
        (addf (maximumf H (broadcast S10000x192 (FloatOps.ofBits .f32 0x00000000#32)))
          (log1p (exp (subf (broadcast S10000x192 (FloatOps.ofBits .f32 0x00000000#32))
            (absf (subf H (broadcast S10000x192 (FloatOps.ofBits .f32 0x00000000#32)))))))))) i
      = Mlp.mish (H i) := by
  show H i * Ideal.tanh (Scalar.select (Ideal.cmp .one (H i - Ideal.ofBits .f32 0x00000000#32) (H i - Ideal.ofBits .f32 0x00000000#32))
        (H i + Ideal.ofBits .f32 0x00000000#32)
        (max (H i) (Ideal.ofBits .f32 0x00000000#32) + Ideal.log1p (Ideal.exp (Ideal.ofBits .f32 0x00000000#32
          - max (H i - Ideal.ofBits .f32 0x00000000#32) (-(H i - Ideal.ofBits .f32 0x00000000#32)))))) = _
  rw [Ideal.ofBits_zero_f32, softplus_guarded3]; rfl

/-- The payload of the kernel's one store at `(p, q)`: the residual perceptron's output coordinate `q` on row `p`. -/
theorem pay3_apply (x0 : Vec Ideal S10000x192 .f32) (w1 : Vec Ideal S192x192 .f32) (c1 : Vec Ideal S1x192 .f32)
    (w2 : Vec Ideal S192x192 .f32) (c2 : Vec Ideal S1x192 .f32) (p : Fin 10000) (q : Fin 192) :
    Cert.KernelIdeal.Gen.k3_pay1 (F := Ideal) x0 w1 c1 w2 c2 (ix2 p q)
      = Mlp.out (fun l => x0 (ix2 p l)) (fun l k => w1 (ix2 l k)) (fun k => c1 (ix2 0 k))
          (fun l k => w2 (ix2 l k)) (fun k => c2 (ix2 0 k)) q := by
  unfold Gen.k3_pay1
  simp only [shapeCast_self]
  rw [← Mlp.out_assoc]
  simp only [addf_apply, Ideal.matmul_constant_zero_apply, broadcastTo_1b_ab_apply]
  refine congrArg₂ (· + ·) (congrArg (x0 (ix2 p q) + ·) ?_) rfl
  refine (Matmul.plain_contr_sum dot_S10000x192_S192x192_S10000x192_1_0_0_1_n_n rfl rfl rfl rfl rfl rfl _ _ (ix2 p q)).trans ?_
  refine Finset.sum_congr rfl fun k _ => congrArg (· * w2 (ix2 k q)) ?_
  refine (act3_apply _ (ix2 p k)).trans (congrArg Mlp.mish ?_)
  exact layer3_apply x0 w1 c1 _ p k

end Cert.KernelIdeal.Pay

end
-- ==== Proof.KIMath3.lean ====
/-
  Call 3's result array as mathematics: at row r and column q it is output coordinate q of the residual perceptron on
  row r of the gathered rows.  The row block containing r, read at local row r mod 10000, is row r itself
  (10000·(r / 10000) + r mod 10000 = r).
-/
import proofs.«159146_j10170482557014_2_alg».proof.Proof.KIValue3
import proofs.«159146_j10170482557014_2_alg».proof.Proof.PayK3

noncomputable section

namespace Cert.KernelIdeal.Frame

open Cert.KernelIdeal Cert.KernelIdeal.Gen
open Idealize.ShloMosaic Idealize.ShloMosaic.ValueIdx Cert.Layer

theorem wholeResult3_apply (X : S100000x192.Idx → Elt Ideal .f32) (A : S192x192.Idx → Elt Ideal .f32) (b₁ : S1x192.Idx → Elt Ideal .f32)
    (B' : S192x192.Idx → Elt Ideal .f32) (b₂ : S1x192.Idx → Elt Ideal .f32) (r : Fin 100000) (q : Fin 192) :
    wholeResult3 (F := Ideal) X A b₁ B' b₂ (ix2 r q)
      = Mlp.out (fun l => X (ix2 r l)) (fun l k => A (ix2 l k)) (fun k => b₁ (ix2 0 k)) (fun l k => B' (ix2 l k)) (fun k => b₂ (ix2 0 k)) q := by
  have hr : r.val < 100000 := r.isLt
  unfold wholeResult3
  show Gen.k3_pay1 (F := Ideal) (rowsOf3 X (r.val / 10000)) A b₁ B' b₂ (ix2 ⟨r.val % 10000, Nat.mod_lt _ (by norm_num)⟩ q) = _
  refine (Pay.pay3_apply _ A b₁ B' b₂ ⟨r.val % 10000, Nat.mod_lt _ (by norm_num)⟩ q).trans ?_
  refine congrArg (fun x => Mlp.out x _ _ _ _ q) (funext fun l => ?_)
  unfold rowsOf3
  refine congrArg (fun a => X (ix2 a l)) (Fin.ext ?_)
  show (10000 * (r.val / 10000) + r.val % 10000) % 100000 = r.val
  omega

end Cert.KernelIdeal.Frame

end
-- ==== Proof.RefMlp0.lean ====
/-
  One relation of the reference at one element, as mathematics: element (r, q) of x + ((h · tanh (softplus h)) · B + b₂)
  with h = x · A + b₁ on the whole [100000, 64] array is output coordinate q of the residual perceptron on row r.
  Each `dot_general` element is the sum over the shared axis; each bias vector, made a one-row matrix and spread over the
  rows, is read at its column; the guard of the stable softplus (an element unequal to itself) never fires on the
  extended reals, h - 0 = h and |a| = max a (-a). The input array and the two transposed weight arrays stay whole.
-/
import proofs.«159146_j10170482557014_2_alg».proof.Proof.Gen.ReferenceIdeal.Read
import proofs.«159146_j10170482557014_2_alg».proof.Proof.LibMlp
import Idealize.ShloMosaic.Lib.ValueIdx
import Idealize.ShloMosaic.PureOps.Ideal.Laws

noncomputable section

open scoped BigOperators

namespace Cert.ReferenceIdeal.RefMlp

open Idealize.ShloMosaic Idealize.ShloMosaic.ValueIdx Cert.ReferenceIdeal Cert.Layer

/-- The guard `a ≠ a` is false on the extended reals: a linear order has no unordered element. -/
theorem cmp_une_self0 (a : EReal) : Ideal.cmp .une a a = 0#1 := by
  simp [Ideal.cmp]

/-- One element of `h · tanh (softplus h)` with the softplus in its guarded stable form over the zero constant: the
    guard is dead, `h - 0 = h` and `|a| = max a (-a)`. -/
theorem mish_guarded0 (h : EReal) :
    h * Ideal.tanh (Scalar.select (Ideal.cmp .une (h - Ideal.ofBits .f32 0x00000000#32) (h - Ideal.ofBits .f32 0x00000000#32))
        (h + Ideal.ofBits .f32 0x00000000#32)
        (max h (Ideal.ofBits .f32 0x00000000#32) + Ideal.log1p (Ideal.exp
          (-(max (h - Ideal.ofBits .f32 0x00000000#32) (-(h - Ideal.ofBits .f32 0x00000000#32)))))))
      = Mlp.mish h := by
  rw [Ideal.ofBits_zero_f32, sub_zero, cmp_une_self0, select_zero]; rfl

/-- The pre-activation at `(r, k)`: row `r` of the input array times column `k` of the first (transposed) weight array,
    plus the first bias at `k`. -/
theorem hidden0_apply (x0 : (⟨S100000x64, .f32⟩ : BufTy).Contents (Elt Ideal)) (x1 : (⟨S100000, .i32⟩ : BufTy).Contents (Elt Ideal)) (x5 : (⟨S64x64, .f32⟩ : BufTy).Contents (Elt Ideal)) (x6 : (⟨S64, .f32⟩ : BufTy).Contents (Elt Ideal)) (r : Fin 100000) (k : Fin 64) :
    Read.val_main_v11 (F := Ideal) x0 x1 x5 x6 (ix2 r k)
      = Mlp.hidden (fun l => Read.val_main_v6 (F := Ideal) x0 x1 (ix2 r l)) (fun l k => Read.val_main_v7 (F := Ideal) x5 (ix2 l k)) (fun k => x6 (ix1 k)) k := by
  have hl : ∀ l : Fin 64, Read.lidx_main_v8 (ix2 r k) l = ix2 r l := fun l => funext fun a => Fin.ext (by match a with | ⟨0, _⟩ => rfl | ⟨1, _⟩ => rfl)
  have hr : ∀ l : Fin 64, Read.ridx_main_v8 (ix2 r k) l = ix2 l k := fun l => funext fun a => Fin.ext (by match a with | ⟨0, _⟩ => rfl | ⟨1, _⟩ => rfl)
  have hb : Read.idx_main_v9 (Read.idx_main_v10 (ix2 r k)) = ix1 k := funext fun a => Fin.ext (by match a with | ⟨0, _⟩ => rfl)
  rw [Read.val_main_v11_apply, Read.val_main_v8_apply, Read.val_main_v10_apply, Read.val_main_v9_apply]
  unfold Mlp.hidden
  exact congrArg₂ (· + ·)
    (Finset.sum_congr rfl fun l _ => congrArg₂ (· * ·) (congrArg (Read.val_main_v6 (F := Ideal) x0 x1) (hl l)) (congrArg (Read.val_main_v7 (F := Ideal) x5) (hr l)))
    (congrArg x6 hb)

/-- The activated hidden array at an index is `mish` of the pre-activation there. -/
theorem act0_apply (x0 : (⟨S100000x64, .f32⟩ : BufTy).Contents (Elt Ideal)) (x1 : (⟨S100000, .i32⟩ : BufTy).Contents (Elt Ideal)) (x5 : (⟨S64x64, .f32⟩ : BufTy).Contents (Elt Ideal)) (x6 : (⟨S64, .f32⟩ : BufTy).Contents (Elt Ideal)) (j : S100000x64.Idx) :
    Read.val_main_v14 (F := Ideal) x0 x1 x5 x6 j = Mlp.mish (Read.val_main_v11 (F := Ideal) x0 x1 x5 x6 j) := by
  simp only [Read.val_main_v14_apply, Read.val_main_v13_apply, Read.val_main_v12_apply, Read.val_main_call0_v4_apply, Read.val_main_call0_v6_apply,
    Read.val_main_call0_v11_apply, Read.val_main_call0_v1_apply, Read.val_main_call0_v10_apply, Read.val_main_call0_v9_apply, Read.val_main_call0_v8_apply, Read.val_main_call0_v7_apply, Read.val_main_call0_v3_apply,
    Read.val_main_call0_v0_apply, Read.val_main_call0_v2_apply, Read.val_main_call0_v5_apply, Read.val_main_call0_cst_apply]
  exact mish_guarded0 (Read.val_main_v11 (F := Ideal) x0 x1 x5 x6 j)

/-- The relation's output at `(r, q)` is output coordinate `q` of the residual perceptron on row `r` of the input
    array, with the transposed weight arrays as the two matrices. -/
theorem ref0_apply (x0 : (⟨S100000x64, .f32⟩ : BufTy).Contents (Elt Ideal)) (x1 : (⟨S100000, .i32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (r : Fin 100000) (q : Fin 64) :
    Read.val_main_v20 (F := Ideal) x0 x1 x5 x6 x7 x8 (ix2 r q)
      = Mlp.out (fun l => Read.val_main_v6 (F := Ideal) x0 x1 (ix2 r l)) (fun l k => Read.val_main_v7 (F := Ideal) x5 (ix2 l k)) (fun k => x6 (ix1 k))
          (fun l k => Read.val_main_v15 (F := Ideal) x7 (ix2 l k)) (fun k => x8 (ix1 k)) q := by
  have hl : ∀ k : Fin 64, Read.lidx_main_v16 (ix2 r q) k = ix2 r k := fun k => funext fun a => Fin.ext (by match a with | ⟨0, _⟩ => rfl | ⟨1, _⟩ => rfl)
  have hr : ∀ k : Fin 64, Read.ridx_main_v16 (ix2 r q) k = ix2 k q := fun k => funext fun a => Fin.ext (by match a with | ⟨0, _⟩ => rfl | ⟨1, _⟩ => rfl)
  have hb : Read.idx_main_v17 (Read.idx_main_v18 (ix2 r q)) = ix1 q := funext fun a => Fin.ext (by match a with | ⟨0, _⟩ => rfl)
  rw [Read.val_main_v20_apply, Read.val_main_v19_apply, Read.val_main_v16_apply, Read.val_main_v18_apply, Read.val_main_v17_apply]
  unfold Mlp.out
  refine congrArg (Read.val_main_v6 (F := Ideal) x0 x1 (ix2 r q) + ·) (congrArg₂ (· + ·) (Finset.sum_congr rfl fun k _ => ?_) (congrArg x8 hb))
  refine congrArg₂ (· * ·) ?_ (congrArg (Read.val_main_v15 (F := Ideal) x7) (hr k))
  rw [hl k, act0_apply, hidden0_apply]

end Cert.ReferenceIdeal.RefMlp

end
-- ==== Proof.RefMlp1.lean ====
/-
  One relation of the reference at one element, as mathematics: element (r, q) of x + ((h · tanh (softplus h)) · B + b₂)
  with h = x · A + b₁ on the whole [100000, 128] array is output coordinate q of the residual perceptron on row r.
  Each `dot_general` element is the sum over the shared axis; each bias vector, made a one-row matrix and spread over the
  rows, is read at its column; the guard of the stable softplus (an element unequal to itself) never fires on the
  extended reals, h - 0 = h and |a| = max a (-a). The input array and the two transposed weight arrays stay whole.
-/
import proofs.«159146_j10170482557014_2_alg».proof.Proof.Gen.ReferenceIdeal.Read
import proofs.«159146_j10170482557014_2_alg».proof.Proof.LibMlp
import Idealize.ShloMosaic.Lib.ValueIdx
import Idealize.ShloMosaic.PureOps.Ideal.Laws

noncomputable section

open scoped BigOperators

namespace Cert.ReferenceIdeal.RefMlp

open Idealize.ShloMosaic Idealize.ShloMosaic.ValueIdx Cert.ReferenceIdeal Cert.Layer

/-- The guard `a ≠ a` is false on the extended reals: a linear order has no unordered element. -/
theorem cmp_une_self1 (a : EReal) : Ideal.cmp .une a a = 0#1 := by
  simp [Ideal.cmp]

/-- One element of `h · tanh (softplus h)` with the softplus in its guarded stable form over the zero constant: the
    guard is dead, `h - 0 = h` and `|a| = max a (-a)`. -/
theorem mish_guarded1 (h : EReal) :
    h * Ideal.tanh (Scalar.select (Ideal.cmp .une (h - Ideal.ofBits .f32 0x00000000#32) (h - Ideal.ofBits .f32 0x00000000#32))
        (h + Ideal.ofBits .f32 0x00000000#32)
        (max h (Ideal.ofBits .f32 0x00000000#32) + Ideal.log1p (Ideal.exp
          (-(max (h - Ideal.ofBits .f32 0x00000000#32) (-(h - Ideal.ofBits .f32 0x00000000#32)))))))
      = Mlp.mish h := by
  rw [Ideal.ofBits_zero_f32, sub_zero, cmp_une_self1, select_zero]; rfl

/-- The pre-activation at `(r, k)`: row `r` of the input array times column `k` of the first (transposed) weight array,
    plus the first bias at `k`. -/
theorem hidden1_apply (x0 : (⟨S100000x64, .f32⟩ : BufTy).Contents (Elt Ideal)) (x2 : (⟨S200000, .i32⟩ : BufTy).Contents (Elt Ideal)) (x9 : (⟨S128x128, .f32⟩ : BufTy).Contents (Elt Ideal)) (x10 : (⟨S128, .f32⟩ : BufTy).Contents (Elt Ideal)) (r : Fin 100000) (k : Fin 128) :
    Read.val_main_v33 (F := Ideal) x0 x2 x9 x10 (ix2 r k)
      = Mlp.hidden (fun l => Read.val_main_v28 (F := Ideal) x0 x2 (ix2 r l)) (fun l k => Read.val_main_v29 (F := Ideal) x9 (ix2 l k)) (fun k => x10 (ix1 k)) k := by
  have hl : ∀ l : Fin 128, Read.lidx_main_v30 (ix2 r k) l = ix2 r l := fun l => funext fun a => Fin.ext (by match a with | ⟨0, _⟩ => rfl | ⟨1, _⟩ => rfl)
  have hr : ∀ l : Fin 128, Read.ridx_main_v30 (ix2 r k) l = ix2 l k := fun l => funext fun a => Fin.ext (by match a with | ⟨0, _⟩ => rfl | ⟨1, _⟩ => rfl)
  have hb : Read.idx_main_v31 (Read.idx_main_v32 (ix2 r k)) = ix1 k := funext fun a => Fin.ext (by match a with | ⟨0, _⟩ => rfl)
  rw [Read.val_main_v33_apply, Read.val_main_v30_apply, Read.val_main_v32_apply, Read.val_main_v31_apply]
  unfold Mlp.hidden
  exact congrArg₂ (· + ·)
    (Finset.sum_congr rfl fun l _ => congrArg₂ (· * ·) (congrArg (Read.val_main_v28 (F := Ideal) x0 x2) (hl l)) (congrArg (Read.val_main_v29 (F := Ideal) x9) (hr l)))
    (congrArg x10 hb)

/-- The activated hidden array at an index is `mish` of the pre-activation there. -/
theorem act1_apply (x0 : (⟨S100000x64, .f32⟩ : BufTy).Contents (Elt Ideal)) (x2 : (⟨S200000, .i32⟩ : BufTy).Contents (Elt Ideal)) (x9 : (⟨S128x128, .f32⟩ : BufTy).Contents (Elt Ideal)) (x10 : (⟨S128, .f32⟩ : BufTy).Contents (Elt Ideal)) (j : S100000x128.Idx) :
    Read.val_main_v36 (F := Ideal) x0 x2 x9 x10 j = Mlp.mish (Read.val_main_v33 (F := Ideal) x0 x2 x9 x10 j) := by
  simp only [Read.val_main_v36_apply, Read.val_main_v35_apply, Read.val_main_v34_apply, Read.val_main_call1_v4_apply, Read.val_main_call1_v6_apply,
    Read.val_main_call1_v11_apply, Read.val_main_call1_v1_apply, Read.val_main_call1_v10_apply, Read.val_main_call1_v9_apply, Read.val_main_call1_v8_apply, Read.val_main_call1_v7_apply, Read.val_main_call1_v3_apply,
    Read.val_main_call1_v0_apply, Read.val_main_call1_v2_apply, Read.val_main_call1_v5_apply, Read.val_main_call1_cst_apply]
  exact mish_guarded1 (Read.val_main_v33 (F := Ideal) x0 x2 x9 x10 j)

/-- The relation's output at `(r, q)` is output coordinate `q` of the residual perceptron on row `r` of the input
    array, with the transposed weight arrays as the two matrices. -/
theorem ref1_apply (x0 : (⟨S100000x64, .f32⟩ : BufTy).Contents (Elt Ideal)) (x2 : (⟨S200000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (r : Fin 100000) (q : Fin 128) :
    Read.val_main_v42 (F := Ideal) x0 x2 x9 x10 x11 x12 (ix2 r q)
      = Mlp.out (fun l => Read.val_main_v28 (F := Ideal) x0 x2 (ix2 r l)) (fun l k => Read.val_main_v29 (F := Ideal) x9 (ix2 l k)) (fun k => x10 (ix1 k))
          (fun l k => Read.val_main_v37 (F := Ideal) x11 (ix2 l k)) (fun k => x12 (ix1 k)) q := by
  have hl : ∀ k : Fin 128, Read.lidx_main_v38 (ix2 r q) k = ix2 r k := fun k => funext fun a => Fin.ext (by match a with | ⟨0, _⟩ => rfl | ⟨1, _⟩ => rfl)
  have hr : ∀ k : Fin 128, Read.ridx_main_v38 (ix2 r q) k = ix2 k q := fun k => funext fun a => Fin.ext (by match a with | ⟨0, _⟩ => rfl | ⟨1, _⟩ => rfl)
  have hb : Read.idx_main_v39 (Read.idx_main_v40 (ix2 r q)) = ix1 q := funext fun a => Fin.ext (by match a with | ⟨0, _⟩ => rfl)
  rw [Read.val_main_v42_apply, Read.val_main_v41_apply, Read.val_main_v38_apply, Read.val_main_v40_apply, Read.val_main_v39_apply]
  unfold Mlp.out
  refine congrArg (Read.val_main_v28 (F := Ideal) x0 x2 (ix2 r q) + ·) (congrArg₂ (· + ·) (Finset.sum_congr rfl fun k _ => ?_) (congrArg x12 hb))
  refine congrArg₂ (· * ·) ?_ (congrArg (Read.val_main_v37 (F := Ideal) x11) (hr k))
  rw [hl k, act1_apply, hidden1_apply]

end Cert.ReferenceIdeal.RefMlp

end
-- ==== Proof.RefMlp2.lean ====
/-
  One relation of the reference at one element, as mathematics: element (r, q) of x + ((h · tanh (softplus h)) · B + b₂)
  with h = x · A + b₁ on the whole [100000, 128] array is output coordinate q of the residual perceptron on row r.
  Each `dot_general` element is the sum over the shared axis; each bias vector, made a one-row matrix and spread over the
  rows, is read at its column; the guard of the stable softplus (an element unequal to itself) never fires on the
  extended reals, h - 0 = h and |a| = max a (-a). The input array and the two transposed weight arrays stay whole.
-/
import proofs.«159146_j10170482557014_2_alg».proof.Proof.Gen.ReferenceIdeal.Read
import proofs.«159146_j10170482557014_2_alg».proof.Proof.LibMlp
import Idealize.ShloMosaic.Lib.ValueIdx
import Idealize.ShloMosaic.PureOps.Ideal.Laws

noncomputable section

open scoped BigOperators

namespace Cert.ReferenceIdeal.RefMlp

open Idealize.ShloMosaic Idealize.ShloMosaic.ValueIdx Cert.ReferenceIdeal Cert.Layer

/-- The guard `a ≠ a` is false on the extended reals: a linear order has no unordered element. -/
theorem cmp_une_self2 (a : EReal) : Ideal.cmp .une a a = 0#1 := by
  simp [Ideal.cmp]

/-- One element of `h · tanh (softplus h)` with the softplus in its guarded stable form over the zero constant: the
    guard is dead, `h - 0 = h` and `|a| = max a (-a)`. -/
theorem mish_guarded2 (h : EReal) :
    h * Ideal.tanh (Scalar.select (Ideal.cmp .une (h - Ideal.ofBits .f32 0x00000000#32) (h - Ideal.ofBits .f32 0x00000000#32))
        (h + Ideal.ofBits .f32 0x00000000#32)
        (max h (Ideal.ofBits .f32 0x00000000#32) + Ideal.log1p (Ideal.exp
          (-(max (h - Ideal.ofBits .f32 0x00000000#32) (-(h - Ideal.ofBits .f32 0x00000000#32)))))))
      = Mlp.mish h := by
  rw [Ideal.ofBits_zero_f32, sub_zero, cmp_une_self2, select_zero]; rfl

/-- The pre-activation at `(r, k)`: row `r` of the input array times column `k` of the first (transposed) weight array,
    plus the first bias at `k`. -/
theorem hidden2_apply (x0 : (⟨S100000x64, .f32⟩ : BufTy).Contents (Elt Ideal)) (x3 : (⟨S200000, .i32⟩ : BufTy).Contents (Elt Ideal)) (x13 : (⟨S128x128, .f32⟩ : BufTy).Contents (Elt Ideal)) (x14 : (⟨S128, .f32⟩ : BufTy).Contents (Elt Ideal)) (r : Fin 100000) (k : Fin 128) :
    Read.val_main_v56 (F := Ideal) x0 x3 x13 x14 (ix2 r k)
      = Mlp.hidden (fun l => Read.val_main_v51 (F := Ideal) x0 x3 (ix2 r l)) (fun l k => Read.val_main_v52 (F := Ideal) x13 (ix2 l k)) (fun k => x14 (ix1 k)) k := by
  have hl : ∀ l : Fin 128, Read.lidx_main_v53 (ix2 r k) l = ix2 r l := fun l => funext fun a => Fin.ext (by match a with | ⟨0, _⟩ => rfl | ⟨1, _⟩ => rfl)
  have hr : ∀ l : Fin 128, Read.ridx_main_v53 (ix2 r k) l = ix2 l k := fun l => funext fun a => Fin.ext (by match a with | ⟨0, _⟩ => rfl | ⟨1, _⟩ => rfl)
  have hb : Read.idx_main_v54 (Read.idx_main_v55 (ix2 r k)) = ix1 k := funext fun a => Fin.ext (by match a with | ⟨0, _⟩ => rfl)
  rw [Read.val_main_v56_apply, Read.val_main_v53_apply, Read.val_main_v55_apply, Read.val_main_v54_apply]
  unfold Mlp.hidden
  exact congrArg₂ (· + ·)
    (Finset.sum_congr rfl fun l _ => congrArg₂ (· * ·) (congrArg (Read.val_main_v51 (F := Ideal) x0 x3) (hl l)) (congrArg (Read.val_main_v52 (F := Ideal) x13) (hr l)))
    (congrArg x14 hb)

/-- The activated hidden array at an index is `mish` of the pre-activation there. -/
theorem act2_apply (x0 : (⟨S100000x64, .f32⟩ : BufTy).Contents (Elt Ideal)) (x3 : (⟨S200000, .i32⟩ : BufTy).Contents (Elt Ideal)) (x13 : (⟨S128x128, .f32⟩ : BufTy).Contents (Elt Ideal)) (x14 : (⟨S128, .f32⟩ : BufTy).Contents (Elt Ideal)) (j : S100000x128.Idx) :
    Read.val_main_v59 (F := Ideal) x0 x3 x13 x14 j = Mlp.mish (Read.val_main_v56 (F := Ideal) x0 x3 x13 x14 j) := by
  simp only [Read.val_main_v59_apply, Read.val_main_v58_apply, Read.val_main_v57_apply, Read.val_main_call2_v4_apply, Read.val_main_call2_v6_apply,
    Read.val_main_call2_v11_apply, Read.val_main_call2_v1_apply, Read.val_main_call2_v10_apply, Read.val_main_call2_v9_apply, Read.val_main_call2_v8_apply, Read.val_main_call2_v7_apply, Read.val_main_call2_v3_apply,
    Read.val_main_call2_v0_apply, Read.val_main_call2_v2_apply, Read.val_main_call2_v5_apply, Read.val_main_call2_cst_apply]
  exact mish_guarded2 (Read.val_main_v56 (F := Ideal) x0 x3 x13 x14 j)

/-- The relation's output at `(r, q)` is output coordinate `q` of the residual perceptron on row `r` of the input
    array, with the transposed weight arrays as the two matrices. -/
theorem ref2_apply (x0 : (⟨S100000x64, .f32⟩ : BufTy).Contents (Elt Ideal)) (x3 : (⟨S200000, .i32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (r : Fin 100000) (q : Fin 128) :
    Read.val_main_v65 (F := Ideal) x0 x3 x13 x14 x15 x16 (ix2 r q)
      = Mlp.out (fun l => Read.val_main_v51 (F := Ideal) x0 x3 (ix2 r l)) (fun l k => Read.val_main_v52 (F := Ideal) x13 (ix2 l k)) (fun k => x14 (ix1 k))
          (fun l k => Read.val_main_v60 (F := Ideal) x15 (ix2 l k)) (fun k => x16 (ix1 k)) q := by
  have hl : ∀ k : Fin 128, Read.lidx_main_v61 (ix2 r q) k = ix2 r k := fun k => funext fun a => Fin.ext (by match a with | ⟨0, _⟩ => rfl | ⟨1, _⟩ => rfl)
  have hr : ∀ k : Fin 128, Read.ridx_main_v61 (ix2 r q) k = ix2 k q := fun k => funext fun a => Fin.ext (by match a with | ⟨0, _⟩ => rfl | ⟨1, _⟩ => rfl)
  have hb : Read.idx_main_v62 (Read.idx_main_v63 (ix2 r q)) = ix1 q := funext fun a => Fin.ext (by match a with | ⟨0, _⟩ => rfl)
  rw [Read.val_main_v65_apply, Read.val_main_v64_apply, Read.val_main_v61_apply, Read.val_main_v63_apply, Read.val_main_v62_apply]
  unfold Mlp.out
  refine congrArg (Read.val_main_v51 (F := Ideal) x0 x3 (ix2 r q) + ·) (congrArg₂ (· + ·) (Finset.sum_congr rfl fun k _ => ?_) (congrArg x16 hb))
  refine congrArg₂ (· * ·) ?_ (congrArg (Read.val_main_v60 (F := Ideal) x15) (hr k))
  rw [hl k, act2_apply, hidden2_apply]

end Cert.ReferenceIdeal.RefMlp

end
-- ==== Proof.RefMlp3.lean ====
/-
  One relation of the reference at one element, as mathematics: element (r, q) of x + ((h · tanh (softplus h)) · B + b₂)
  with h = x · A + b₁ on the whole [100000, 192] array is output coordinate q of the residual perceptron on row r.
  Each `dot_general` element is the sum over the shared axis; each bias vector, made a one-row matrix and spread over the
  rows, is read at its column; the guard of the stable softplus (an element unequal to itself) never fires on the
  extended reals, h - 0 = h and |a| = max a (-a). The input array and the two transposed weight arrays stay whole.
-/
import proofs.«159146_j10170482557014_2_alg».proof.Proof.Gen.ReferenceIdeal.Read
import proofs.«159146_j10170482557014_2_alg».proof.Proof.LibMlp
import Idealize.ShloMosaic.Lib.ValueIdx
import Idealize.ShloMosaic.PureOps.Ideal.Laws

noncomputable section

open scoped BigOperators

namespace Cert.ReferenceIdeal.RefMlp

open Idealize.ShloMosaic Idealize.ShloMosaic.ValueIdx Cert.ReferenceIdeal Cert.Layer

/-- The guard `a ≠ a` is false on the extended reals: a linear order has no unordered element. -/
theorem cmp_une_self3 (a : EReal) : Ideal.cmp .une a a = 0#1 := by
  simp [Ideal.cmp]

/-- One element of `h · tanh (softplus h)` with the softplus in its guarded stable form over the zero constant: the
    guard is dead, `h - 0 = h` and `|a| = max a (-a)`. -/
theorem mish_guarded3 (h : EReal) :
    h * Ideal.tanh (Scalar.select (Ideal.cmp .une (h - Ideal.ofBits .f32 0x00000000#32) (h - Ideal.ofBits .f32 0x00000000#32))
        (h + Ideal.ofBits .f32 0x00000000#32)
        (max h (Ideal.ofBits .f32 0x00000000#32) + Ideal.log1p (Ideal.exp
          (-(max (h - Ideal.ofBits .f32 0x00000000#32) (-(h - Ideal.ofBits .f32 0x00000000#32)))))))
      = Mlp.mish h := by
  rw [Ideal.ofBits_zero_f32, sub_zero, cmp_une_self3, select_zero]; rfl

/-- The pre-activation at `(r, k)`: row `r` of the input array times column `k` of the first (transposed) weight array,
    plus the first bias at `k`. -/
theorem hidden3_apply (x0 : (⟨S100000x64, .f32⟩ : BufTy).Contents (Elt Ideal)) (x4 : (⟨S300000, .i32⟩ : BufTy).Contents (Elt Ideal)) (x17 : (⟨S192x192, .f32⟩ : BufTy).Contents (Elt Ideal)) (x18 : (⟨S192, .f32⟩ : BufTy).Contents (Elt Ideal)) (r : Fin 100000) (k : Fin 192) :
    Read.val_main_v79 (F := Ideal) x0 x4 x17 x18 (ix2 r k)
      = Mlp.hidden (fun l => Read.val_main_v74 (F := Ideal) x0 x4 (ix2 r l)) (fun l k => Read.val_main_v75 (F := Ideal) x17 (ix2 l k)) (fun k => x18 (ix1 k)) k := by
  have hl : ∀ l : Fin 192, Read.lidx_main_v76 (ix2 r k) l = ix2 r l := fun l => funext fun a => Fin.ext (by match a with | ⟨0, _⟩ => rfl | ⟨1, _⟩ => rfl)
  have hr : ∀ l : Fin 192, Read.ridx_main_v76 (ix2 r k) l = ix2 l k := fun l => funext fun a => Fin.ext (by match a with | ⟨0, _⟩ => rfl | ⟨1, _⟩ => rfl)
  have hb : Read.idx_main_v77 (Read.idx_main_v78 (ix2 r k)) = ix1 k := funext fun a => Fin.ext (by match a with | ⟨0, _⟩ => rfl)
  rw [Read.val_main_v79_apply, Read.val_main_v76_apply, Read.val_main_v78_apply, Read.val_main_v77_apply]
  unfold Mlp.hidden
  exact congrArg₂ (· + ·)
    (Finset.sum_congr rfl fun l _ => congrArg₂ (· * ·) (congrArg (Read.val_main_v74 (F := Ideal) x0 x4) (hl l)) (congrArg (Read.val_main_v75 (F := Ideal) x17) (hr l)))
    (congrArg x18 hb)

/-- The activated hidden array at an index is `mish` of the pre-activation there. -/
theorem act3_apply (x0 : (⟨S100000x64, .f32⟩ : BufTy).Contents (Elt Ideal)) (x4 : (⟨S300000, .i32⟩ : BufTy).Contents (Elt Ideal)) (x17 : (⟨S192x192, .f32⟩ : BufTy).Contents (Elt Ideal)) (x18 : (⟨S192, .f32⟩ : BufTy).Contents (Elt Ideal)) (j : S100000x192.Idx) :
    Read.val_main_v82 (F := Ideal) x0 x4 x17 x18 j = Mlp.mish (Read.val_main_v79 (F := Ideal) x0 x4 x17 x18 j) := by
  simp only [Read.val_main_v82_apply, Read.val_main_v81_apply, Read.val_main_v80_apply, Read.val_main_call3_v4_apply, Read.val_main_call3_v6_apply,
    Read.val_main_call3_v11_apply, Read.val_main_call3_v1_apply, Read.val_main_call3_v10_apply, Read.val_main_call3_v9_apply, Read.val_main_call3_v8_apply, Read.val_main_call3_v7_apply, Read.val_main_call3_v3_apply,
    Read.val_main_call3_v0_apply, Read.val_main_call3_v2_apply, Read.val_main_call3_v5_apply, Read.val_main_call3_cst_apply]
  exact mish_guarded3 (Read.val_main_v79 (F := Ideal) x0 x4 x17 x18 j)

/-- The relation's output at `(r, q)` is output coordinate `q` of the residual perceptron on row `r` of the input
    array, with the transposed weight arrays as the two matrices. -/
theorem ref3_apply (x0 : (⟨S100000x64, .f32⟩ : BufTy).Contents (Elt Ideal)) (x4 : (⟨S300000, .i32⟩ : BufTy).Contents (Elt Ideal)) (x17 : (⟨S192x192, .f32⟩ : BufTy).Contents (Elt Ideal)) (x18 : (⟨S192, .f32⟩ : BufTy).Contents (Elt Ideal)) (x19 : (⟨S192x192, .f32⟩ : BufTy).Contents (Elt Ideal)) (x20 : (⟨S192, .f32⟩ : BufTy).Contents (Elt Ideal)) (r : Fin 100000) (q : Fin 192) :
    Read.val_main_v88 (F := Ideal) x0 x4 x17 x18 x19 x20 (ix2 r q)
      = Mlp.out (fun l => Read.val_main_v74 (F := Ideal) x0 x4 (ix2 r l)) (fun l k => Read.val_main_v75 (F := Ideal) x17 (ix2 l k)) (fun k => x18 (ix1 k))
          (fun l k => Read.val_main_v83 (F := Ideal) x19 (ix2 l k)) (fun k => x20 (ix1 k)) q := by
  have hl : ∀ k : Fin 192, Read.lidx_main_v84 (ix2 r q) k = ix2 r k := fun k => funext fun a => Fin.ext (by match a with | ⟨0, _⟩ => rfl | ⟨1, _⟩ => rfl)
  have hr : ∀ k : Fin 192, Read.ridx_main_v84 (ix2 r q) k = ix2 k q := fun k => funext fun a => Fin.ext (by match a with | ⟨0, _⟩ => rfl | ⟨1, _⟩ => rfl)
  have hb : Read.idx_main_v85 (Read.idx_main_v86 (ix2 r q)) = ix1 q := funext fun a => Fin.ext (by match a with | ⟨0, _⟩ => rfl)
  rw [Read.val_main_v88_apply, Read.val_main_v87_apply, Read.val_main_v84_apply, Read.val_main_v86_apply, Read.val_main_v85_apply]
  unfold Mlp.out
  refine congrArg (Read.val_main_v74 (F := Ideal) x0 x4 (ix2 r q) + ·) (congrArg₂ (· + ·) (Finset.sum_congr rfl fun k _ => ?_) (congrArg x20 hb))
  refine congrArg₂ (· * ·) ?_ (congrArg (Read.val_main_v83 (F := Ideal) x19) (hr k))
  rw [hl k, act3_apply, hidden3_apply]

end Cert.ReferenceIdeal.RefMlp

end
-- ==== Proof.KIFinal.lean ====
/-
  The idealized kernel's results as functions of the arguments, and that they are the reference's.

  The host operations before each call (index normalisation, the row gather and its reshape, the two transposes) are the
  reference's own, so each call is entered with the reference's gathered rows and transposed matrices, and with the bias
  vectors under a unit axis.  Each call leaves in its result array, element by element, the residual perceptron of that
  row — and so does the reference, which groups the last two additions the other way.  The reshapes and the
  concatenation after the calls are again the reference's own operations.
-/
import proofs.«159146_j10170482557014_2_alg».proof.Proof.KIRun
import proofs.«159146_j10170482557014_2_alg».proof.Proof.KIMath0
import proofs.«159146_j10170482557014_2_alg».proof.Proof.KIMath1
import proofs.«159146_j10170482557014_2_alg».proof.Proof.KIMath2
import proofs.«159146_j10170482557014_2_alg».proof.Proof.KIMath3
import proofs.«159146_j10170482557014_2_alg».proof.Proof.RefMlp0
import proofs.«159146_j10170482557014_2_alg».proof.Proof.RefMlp1
import proofs.«159146_j10170482557014_2_alg».proof.Proof.RefMlp2
import proofs.«159146_j10170482557014_2_alg».proof.Proof.RefMlp3
import Idealize.ShloMosaic.Lib.ValueLayout
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.ValueIdx Idealize.ShloMosaic.StableHlo
open Idealize.SL Idealize.SL.Sem
open Cert.Layer

variable (m : (ℓ : Loc nD τ sig) → Buf (Elt Ideal) ℓ) (ρ : Dev nD → PrngReg)

/-! ## An argument is as launched at every boundary -/

theorem kept2 (c : Dev nD) (r : Ref sig .tc) (h0 : r ∉ hostOps0_W) (a0 : ∀ w, Pipeline.arrRef spec0 w ≠ r) :
    mem2 m ρ c (Proc.devRef .tc r) = m ((c : Thread nD τ).loc r) :=
  (mem2_of_ne m ρ c r a0).trans ((StableHlo.after_of_writes_sub hostOps0 _ hostOps0_writes h0).trans rfl)
theorem kept4 (c : Dev nD) (r : Ref sig .tc) (h0 : r ∉ hostOps0_W) (a0 : ∀ w, Pipeline.arrRef spec0 w ≠ r)
    (h1 : r ∉ hostOps1_W) (a1 : ∀ w, Pipeline.arrRef spec1 w ≠ r) :
    mem4 m ρ c (Proc.devRef .tc r) = m ((c : Thread nD τ).loc r) :=
  (mem4_of_ne m ρ c r a1).trans ((StableHlo.after_of_writes_sub hostOps1 _ hostOps1_writes h1).trans (kept2 m ρ c r h0 a0))
theorem kept6 (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r) :
    mem6 m ρ c (Proc.devRef .tc r) = m ((c : Thread nD τ).loc r) :=
  (mem6_of_ne m ρ c r a2).trans ((StableHlo.after_of_writes_sub hostOps2 _ hostOps2_writes h2).trans (kept4 m ρ c r h0 a0 h1 a1))
theorem kept8 (c : Dev nD) (r : Ref sig .tc) (h0 : r ∉ hostOps0_W) (a0 : ∀ w, Pipeline.arrRef spec0 w ≠ r)
    (h1 : r ∉ hostOps1_W) (a1 : ∀ w, Pipeline.arrRef spec1 w ≠ r) (h2 : r ∉ hostOps2_W) (a2 : ∀ w, Pipeline.arrRef spec2 w ≠ r)
    (h3 : r ∉ hostOps3_W) (a3 : ∀ w, Pipeline.arrRef spec3 w ≠ r) :
    mem8 m ρ c (Proc.devRef .tc r) = m ((c : Thread nD τ).loc r) :=
  (mem8_of_ne m ρ c r a3).trans ((StableHlo.after_of_writes_sub hostOps3 _ hostOps3_writes h3).trans (kept6 m ρ c r h0 a0 h1 a1 h2 a2))

/-! ## Relation 0 -/

/-- The gathered rows call 0 is entered with are the reference's (the same host operations on the same arguments). -/
theorem gathered0 (c : Dev nD) : (ent1 m ρ c main_v6 : S100000x64.Idx → Elt Ideal .f32)
    = Cert.ReferenceIdeal.Read.val_main_v6 (F := Ideal) (m ((c.tc : Thread nD τ).loc main_arg0)) (m ((c.tc : Thread nD τ).loc main_arg1)) := by
  show StableHlo.after hostOps0 (mem0 m ρ c) (Proc.devRef .tc main_v6) = _
  after_results
  rfl

/-- Its first weight matrix, transposed, is the reference's. -/
theorem matA0 (c : Dev nD) : (ent1 m ρ c main_v7 : S64x64.Idx → Elt Ideal .f32) = Cert.ReferenceIdeal.Read.val_main_v7 (F := Ideal) (m ((c.tc : Thread nD τ).loc main_arg5)) := by
  show StableHlo.after hostOps0 (mem0 m ρ c) (Proc.devRef .tc main_v7) = _
  after_results
  rfl

/-- Its second weight matrix, transposed, is the reference's. -/
theorem matB0 (c : Dev nD) : (ent1 m ρ c main_v8 : S64x64.Idx → Elt Ideal .f32) = Cert.ReferenceIdeal.Read.val_main_v15 (F := Ideal) (m ((c.tc : Thread nD τ).loc main_arg7)) := by
  show StableHlo.after hostOps0 (mem0 m ρ c) (Proc.devRef .tc main_v8) = _
  after_results
  rfl

/-- Its two bias rows are the bias vectors with a unit axis in front. -/
theorem biasA0 (c : Dev nD) : (ent1 m ρ c main_v9 : S1x64.Idx → Elt Ideal .f32) = shapeCast S1x64 (m ((c.tc : Thread nD τ).loc main_arg6)) shapeCasts_S64_S1x64 := by
  show StableHlo.after hostOps0 (mem0 m ρ c) (Proc.devRef .tc main_v9) = _
  after_results
  rfl
theorem biasB0 (c : Dev nD) : (ent1 m ρ c main_v10 : S1x64.Idx → Elt Ideal .f32) = shapeCast S1x64 (m ((c.tc : Thread nD τ).loc main_arg8)) shapeCasts_S64_S1x64 := by
  show StableHlo.after hostOps0 (mem0 m ρ c) (Proc.devRef .tc main_v10) = _
  after_results
  rfl

/-- What call 0 leaves in its result array is the reference's perceptron output for this relation: element by element
    both are the residual perceptron on the same row, matrices and biases. -/
theorem out0 (c : Dev nD) : (mem2 m ρ c (Proc.devRef .tc main_v11) : S100000x64.Idx → Elt Ideal .f32)
    = Cert.ReferenceIdeal.Read.val_main_v20 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) := by
  refine (mem2_arr m ρ c 5).trans ((finalResult0 (ent1 m ρ) c).trans ?_)
  funext i
  obtain ⟨r, q, rfl⟩ : ∃ (r : Fin 100000) (q : Fin 64), i = ix2 r q := ⟨i 0, i 1, eq_ix2 i⟩
  rw [wholeResult0_apply, Cert.ReferenceIdeal.RefMlp.ref0_apply, gathered0, matA0, matB0, biasA0, biasB0]
  simp only [shapeCast_a_1a_apply]

/-! ## Relation 1 -/

/-- The gathered rows call 1 is entered with are the reference's (the same host operations on the same arguments). -/
theorem gathered1 (c : Dev nD) : (ent3 m ρ c main_v19 : S100000x128.Idx → Elt Ideal .f32)
    = Cert.ReferenceIdeal.Read.val_main_v28 (F := Ideal) (m ((c.tc : Thread nD τ).loc main_arg0)) (m ((c.tc : Thread nD τ).loc main_arg2)) := by
  show StableHlo.after hostOps1 (mem2 m ρ c) (Proc.devRef .tc main_v19) = _
  after_results
  rw [kept2 m ρ c main_arg0 (by decide) (by decide), kept2 m ρ c main_arg2 (by decide) (by decide)]
  rfl

/-- Its first weight matrix, transposed, is the reference's. -/
theorem matA1 (c : Dev nD) : (ent3 m ρ c main_v20 : S128x128.Idx → Elt Ideal .f32) = Cert.ReferenceIdeal.Read.val_main_v29 (F := Ideal) (m ((c.tc : Thread nD τ).loc main_arg9)) := by
  show StableHlo.after hostOps1 (mem2 m ρ c) (Proc.devRef .tc main_v20) = _
  after_results
  rw [kept2 m ρ c main_arg9 (by decide) (by decide)]
  rfl

/-- Its second weight matrix, transposed, is the reference's. -/
theorem matB1 (c : Dev nD) : (ent3 m ρ c main_v21 : S128x128.Idx → Elt Ideal .f32) = Cert.ReferenceIdeal.Read.val_main_v37 (F := Ideal) (m ((c.tc : Thread nD τ).loc main_arg11)) := by
  show StableHlo.after hostOps1 (mem2 m ρ c) (Proc.devRef .tc main_v21) = _
  after_results
  rw [kept2 m ρ c main_arg11 (by decide) (by decide)]
  rfl

/-- Its two bias rows are the bias vectors with a unit axis in front. -/
theorem biasA1 (c : Dev nD) : (ent3 m ρ c main_v22 : S1x128.Idx → Elt Ideal .f32) = shapeCast S1x128 (m ((c.tc : Thread nD τ).loc main_arg10)) shapeCasts_S128_S1x128 := by
  show StableHlo.after hostOps1 (mem2 m ρ c) (Proc.devRef .tc main_v22) = _
  after_results
  rw [kept2 m ρ c main_arg10 (by decide) (by decide)]
  rfl
theorem biasB1 (c : Dev nD) : (ent3 m ρ c main_v23 : S1x128.Idx → Elt Ideal .f32) = shapeCast S1x128 (m ((c.tc : Thread nD τ).loc main_arg12)) shapeCasts_S128_S1x128 := by
  show StableHlo.after hostOps1 (mem2 m ρ c) (Proc.devRef .tc main_v23) = _
  after_results
  rw [kept2 m ρ c main_arg12 (by decide) (by decide)]
  rfl

/-- What call 1 leaves in its result array is the reference's perceptron output for this relation: element by element
    both are the residual perceptron on the same row, matrices and biases. -/
theorem out1 (c : Dev nD) : (mem4 m ρ c (Proc.devRef .tc main_v24) : S100000x128.Idx → Elt Ideal .f32)
    = Cert.ReferenceIdeal.Read.val_main_v42 (F := Ideal) (m ((c.tc : Thread nD τ).loc main_arg0)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) := by
  refine (mem4_arr m ρ c 5).trans ((finalResult1 (ent3 m ρ) c).trans ?_)
  funext i
  obtain ⟨r, q, rfl⟩ : ∃ (r : Fin 100000) (q : Fin 128), i = ix2 r q := ⟨i 0, i 1, eq_ix2 i⟩
  rw [wholeResult1_apply, Cert.ReferenceIdeal.RefMlp.ref1_apply, gathered1, matA1, matB1, biasA1, biasB1]
  simp only [shapeCast_a_1a_apply]

/-! ## Relation 2 -/

/-- The gathered rows call 2 is entered with are the reference's (the same host operations on the same arguments). -/
theorem gathered2 (c : Dev nD) : (ent5 m ρ c main_v33 : S100000x128.Idx → Elt Ideal .f32)
    = Cert.ReferenceIdeal.Read.val_main_v51 (F := Ideal) (m ((c.tc : Thread nD τ).loc main_arg0)) (m ((c.tc : Thread nD τ).loc main_arg3)) := by
  show StableHlo.after hostOps2 (mem4 m ρ c) (Proc.devRef .tc main_v33) = _
  after_results
  rw [kept4 m ρ c main_arg0 (by decide) (by decide) (by decide) (by decide), kept4 m ρ c main_arg3 (by decide) (by decide) (by decide) (by decide)]
  rfl

/-- Its first weight matrix, transposed, is the reference's. -/
theorem matA2 (c : Dev nD) : (ent5 m ρ c main_v34 : S128x128.Idx → Elt Ideal .f32) = Cert.ReferenceIdeal.Read.val_main_v52 (F := Ideal) (m ((c.tc : Thread nD τ).loc main_arg13)) := by
  show StableHlo.after hostOps2 (mem4 m ρ c) (Proc.devRef .tc main_v34) = _
  after_results
  rw [kept4 m ρ c main_arg13 (by decide) (by decide) (by decide) (by decide)]
  rfl

/-- Its second weight matrix, transposed, is the reference's. -/
theorem matB2 (c : Dev nD) : (ent5 m ρ c main_v35 : S128x128.Idx → Elt Ideal .f32) = Cert.ReferenceIdeal.Read.val_main_v60 (F := Ideal) (m ((c.tc : Thread nD τ).loc main_arg15)) := by
  show StableHlo.after hostOps2 (mem4 m ρ c) (Proc.devRef .tc main_v35) = _
  after_results
  rw [kept4 m ρ c main_arg15 (by decide) (by decide) (by decide) (by decide)]
  rfl

/-- Its two bias rows are the bias vectors with a unit axis in front. -/
theorem biasA2 (c : Dev nD) : (ent5 m ρ c main_v36 : S1x128.Idx → Elt Ideal .f32) = shapeCast S1x128 (m ((c.tc : Thread nD τ).loc main_arg14)) shapeCasts_S128_S1x128 := by
  show StableHlo.after hostOps2 (mem4 m ρ c) (Proc.devRef .tc main_v36) = _
  after_results
  rw [kept4 m ρ c main_arg14 (by decide) (by decide) (by decide) (by decide)]
  rfl
theorem biasB2 (c : Dev nD) : (ent5 m ρ c main_v37 : S1x128.Idx → Elt Ideal .f32) = shapeCast S1x128 (m ((c.tc : Thread nD τ).loc main_arg16)) shapeCasts_S128_S1x128 := by
  show StableHlo.after hostOps2 (mem4 m ρ c) (Proc.devRef .tc main_v37) = _
  after_results
  rw [kept4 m ρ c main_arg16 (by decide) (by decide) (by decide) (by decide)]
  rfl

/-- What call 2 leaves in its result array is the reference's perceptron output for this relation: element by element
    both are the residual perceptron on the same row, matrices and biases. -/
theorem out2 (c : Dev nD) : (mem6 m ρ c (Proc.devRef .tc main_v38) : S100000x128.Idx → Elt Ideal .f32)
    = Cert.ReferenceIdeal.Read.val_main_v65 (F := Ideal) (m ((c.tc : Thread nD τ).loc main_arg0)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16)) := by
  refine (mem6_arr m ρ c 5).trans ((finalResult2 (ent5 m ρ) c).trans ?_)
  funext i
  obtain ⟨r, q, rfl⟩ : ∃ (r : Fin 100000) (q : Fin 128), i = ix2 r q := ⟨i 0, i 1, eq_ix2 i⟩
  rw [wholeResult2_apply, Cert.ReferenceIdeal.RefMlp.ref2_apply, gathered2, matA2, matB2, biasA2, biasB2]
  simp only [shapeCast_a_1a_apply]

/-! ## Relation 3 -/

/-- The gathered rows call 3 is entered with are the reference's (the same host operations on the same arguments). -/
theorem gathered3 (c : Dev nD) : (ent7 m ρ c main_v47 : S100000x192.Idx → Elt Ideal .f32)
    = Cert.ReferenceIdeal.Read.val_main_v74 (F := Ideal) (m ((c.tc : Thread nD τ).loc main_arg0)) (m ((c.tc : Thread nD τ).loc main_arg4)) := by
  show StableHlo.after hostOps3 (mem6 m ρ c) (Proc.devRef .tc main_v47) = _
  after_results
  rw [kept6 m ρ c main_arg0 (by decide) (by decide) (by decide) (by decide) (by decide) (by decide), kept6 m ρ c main_arg4 (by decide) (by decide) (by decide) (by decide) (by decide) (by decide)]
  rfl

/-- Its first weight matrix, transposed, is the reference's. -/
theorem matA3 (c : Dev nD) : (ent7 m ρ c main_v48 : S192x192.Idx → Elt Ideal .f32) = Cert.ReferenceIdeal.Read.val_main_v75 (F := Ideal) (m ((c.tc : Thread nD τ).loc main_arg17)) := by
  show StableHlo.after hostOps3 (mem6 m ρ c) (Proc.devRef .tc main_v48) = _
  after_results
  rw [kept6 m ρ c main_arg17 (by decide) (by decide) (by decide) (by decide) (by decide) (by decide)]
  rfl

/-- Its second weight matrix, transposed, is the reference's. -/
theorem matB3 (c : Dev nD) : (ent7 m ρ c main_v49 : S192x192.Idx → Elt Ideal .f32) = Cert.ReferenceIdeal.Read.val_main_v83 (F := Ideal) (m ((c.tc : Thread nD τ).loc main_arg19)) := by
  show StableHlo.after hostOps3 (mem6 m ρ c) (Proc.devRef .tc main_v49) = _
  after_results
  rw [kept6 m ρ c main_arg19 (by decide) (by decide) (by decide) (by decide) (by decide) (by decide)]
  rfl

/-- Its two bias rows are the bias vectors with a unit axis in front. -/
theorem biasA3 (c : Dev nD) : (ent7 m ρ c main_v50 : S1x192.Idx → Elt Ideal .f32) = shapeCast S1x192 (m ((c.tc : Thread nD τ).loc main_arg18)) shapeCasts_S192_S1x192 := by
  show StableHlo.after hostOps3 (mem6 m ρ c) (Proc.devRef .tc main_v50) = _
  after_results
  rw [kept6 m ρ c main_arg18 (by decide) (by decide) (by decide) (by decide) (by decide) (by decide)]
  rfl
theorem biasB3 (c : Dev nD) : (ent7 m ρ c main_v51 : S1x192.Idx → Elt Ideal .f32) = shapeCast S1x192 (m ((c.tc : Thread nD τ).loc main_arg20)) shapeCasts_S192_S1x192 := by
  show StableHlo.after hostOps3 (mem6 m ρ c) (Proc.devRef .tc main_v51) = _
  after_results
  rw [kept6 m ρ c main_arg20 (by decide) (by decide) (by decide) (by decide) (by decide) (by decide)]
  rfl

/-- What call 3 leaves in its result array is the reference's perceptron output for this relation: element by element
    both are the residual perceptron on the same row, matrices and biases. -/
theorem out3 (c : Dev nD) : (mem8 m ρ c (Proc.devRef .tc main_v52) : S100000x192.Idx → Elt Ideal .f32)
    = Cert.ReferenceIdeal.Read.val_main_v88 (F := Ideal) (m ((c.tc : Thread nD τ).loc main_arg0)) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg20)) := by
  refine (mem8_arr m ρ c 5).trans ((finalResult3 (ent7 m ρ) c).trans ?_)
  funext i
  obtain ⟨r, q, rfl⟩ : ∃ (r : Fin 100000) (q : Fin 192), i = ix2 r q := ⟨i 0, i 1, eq_ix2 i⟩
  rw [wholeResult3_apply, Cert.ReferenceIdeal.RefMlp.ref3_apply, gathered3, matA3, matB3, biasA3, biasB3]
  simp only [shapeCast_a_1a_apply]

/-! ## The results of the calls at the last boundary before the concatenation -/

/-- Relation 0's result array is not touched again. -/
theorem late0 (c : Dev nD) : (mem8 m ρ c (Proc.devRef .tc main_v11) : S100000x64.Idx → Elt Ideal .f32)
    = Cert.ReferenceIdeal.Read.val_main_v20 (F := Ideal) (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) :=
  (mem8_of_ne m ρ c main_v11 (by decide)).trans ((StableHlo.after_of_writes_sub hostOps3 _ hostOps3_writes (by decide)).trans
    ((mem6_of_ne m ρ c main_v11 (by decide)).trans ((StableHlo.after_of_writes_sub hostOps2 _ hostOps2_writes (by decide)).trans
      ((mem4_of_ne m ρ c main_v11 (by decide)).trans ((StableHlo.after_of_writes_sub hostOps1 _ hostOps1_writes (by decide)).trans (out0 m ρ c))))))

/-- Relation 1's result, reshaped to rows of 64 by the next host stretch, is the reference's reshaped output. -/
theorem reshaped1 (c : Dev nD) : (mem5 m ρ c (Proc.devRef .tc main_v25) : S200000x64.Idx → Elt Ideal .f32)
    = Cert.ReferenceIdeal.Read.val_main_v43 (F := Ideal) (m ((c.tc : Thread nD τ).loc main_arg0)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) := by
  show StableHlo.after hostOps2 (mem4 m ρ c) (Proc.devRef .tc main_v25) = _
  after_results
  rw [out1 m ρ c]
  rfl
theorem late1 (c : Dev nD) : (mem8 m ρ c (Proc.devRef .tc main_v25) : S200000x64.Idx → Elt Ideal .f32)
    = Cert.ReferenceIdeal.Read.val_main_v43 (F := Ideal) (m ((c.tc : Thread nD τ).loc main_arg0)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) :=
  (mem8_of_ne m ρ c main_v25 (by decide)).trans ((StableHlo.after_of_writes_sub hostOps3 _ hostOps3_writes (by decide)).trans
    ((mem6_of_ne m ρ c main_v25 (by decide)).trans (reshaped1 m ρ c)))

/-- Relation 2's likewise. -/
theorem reshaped2 (c : Dev nD) : (mem7 m ρ c (Proc.devRef .tc main_v39) : S200000x64.Idx → Elt Ideal .f32)
    = Cert.ReferenceIdeal.Read.val_main_v66 (F := Ideal) (m ((c.tc : Thread nD τ).loc main_arg0)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16)) := by
  show StableHlo.after hostOps3 (mem6 m ρ c) (Proc.devRef .tc main_v39) = _
  after_results
  rw [out2 m ρ c]
  rfl
theorem late2 (c : Dev nD) : (mem8 m ρ c (Proc.devRef .tc main_v39) : S200000x64.Idx → Elt Ideal .f32)
    = Cert.ReferenceIdeal.Read.val_main_v66 (F := Ideal) (m ((c.tc : Thread nD τ).loc main_arg0)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16)) :=
  (mem8_of_ne m ρ c main_v39 (by decide)).trans (reshaped2 m ρ c)

/-! ## The two results -/

/-- The float result: the concatenation of the four relations' outputs is the reference's. -/
theorem floats (c : Dev nD) : (mem9 m ρ c (Proc.devRef .tc main_v54) : S800000x64.Idx → Elt Ideal .f32)
    = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  show StableHlo.after hostOps4 (mem8 m ρ c) (Proc.devRef .tc main_v54) = _
  after_results_simp
  show concatenate S800000x64 0 [⟨S100000x64, mem8 m ρ c (Proc.devRef .tc main_v11)⟩, ⟨S200000x64, mem8 m ρ c (Proc.devRef .tc main_v25)⟩,
      ⟨S200000x64, mem8 m ρ c (Proc.devRef .tc main_v39)⟩,
      ⟨S300000x64, shapeCast S300000x64 (mem8 m ρ c (Proc.devRef .tc main_v52)) shapeCasts_S100000x192_S300000x64⟩]
    concatenates_S100000x64_S200000x64_S200000x64_S300000x64_S800000x64_d0 = _
  rw [late0 m ρ c, late1 m ρ c, late2 m ρ c, out3 m ρ c]
  rfl

/-- The integer result: the concatenation of the four index arrays as launched. -/
theorem ints (c : Dev nD) : (mem9 m ρ c (Proc.devRef .tc main_v55) : S800000.Idx → Elt Ideal .i32)
    = Cert.ReferenceIdeal.Read.val_main_v91 (F := Ideal) (m ((c.tc : Thread nD τ).loc main_arg1)) (m ((c.tc : Thread nD τ).loc main_arg2)) (m ((c.tc : Thread nD τ).loc main_arg3)) (m ((c.tc : Thread nD τ).loc main_arg4)) := by
  show StableHlo.after hostOps4 (mem8 m ρ c) (Proc.devRef .tc main_v55) = _
  simp only [after_cons, after_nil]
  rw [nary4_result]
  repeat (first
    | (rw [nary_result_ne]; rotate_left; decide)
    | (rw [reshape_result_ne]; rotate_left; decide))
  rw [kept8 m ρ c main_arg1 (by decide) (by decide) (by decide) (by decide) (by decide) (by decide) (by decide) (by decide), kept8 m ρ c main_arg2 (by decide) (by decide) (by decide) (by decide) (by decide) (by decide) (by decide) (by decide), kept8 m ρ c main_arg3 (by decide) (by decide) (by decide) (by decide) (by decide) (by decide) (by decide) (by decide), kept8 m ρ c main_arg4 (by decide) (by decide) (by decide) (by decide) (by decide) (by decide) (by decide) (by decide)]
  rfl

/-- The run, read at the two results and at the arguments. -/
theorem value_run : θ_run defs (onTc (τ := τ) (main (F := Ideal))) ⟨m, fun _ => 0, ρ⟩ (fun r => ∀ c : Dev nD,
      r.2.mem ((c.tc : Thread nD τ).loc main_v54) = Cert.ReferenceIdeal.Read.val_main_v90 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_v55) = Cert.ReferenceIdeal.Read.val_main_v91 (F := Ideal) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_unscoped main_v54 (by decide))).trans (floats m ρ c), (h c _ (mem_unscoped main_v55 (by decide))).trans (ints m ρ c),
      (h c _ (mem_unscoped main_arg0 (by decide))).trans (mem9_kept m ρ c main_arg0 (by decide) (by decide) (by decide) (by decide) (by decide) (by decide) (by decide) (by decide) (by decide)),
      (h c _ (mem_unscoped main_arg1 (by decide))).trans (mem9_kept m ρ c main_arg1 (by decide) (by decide) (by decide) (by decide) (by decide) (by decide) (by decide) (by decide) (by decide)),
      (h c _ (mem_unscoped main_arg2 (by decide))).trans (mem9_kept m ρ c main_arg2 (by decide) (by decide) (by decide) (by decide) (by decide) (by decide) (by decide) (by decide) (by decide)),
      (h c _ (mem_unscoped main_arg3 (by decide))).trans (mem9_kept m ρ c main_arg3 (by decide) (by decide) (by decide) (by decide) (by decide) (by decide) (by decide) (by decide) (by decide)),
      (h c _ (mem_unscoped main_arg4 (by decide))).trans (mem9_kept m ρ c main_arg4 (by decide) (by decide) (by decide) (by decide) (by decide) (by decide) (by decide) (by decide) (by decide)),
      (h c _ (mem_unscoped main_arg5 (by decide))).trans (mem9_kept m ρ c main_arg5 (by decide) (by decide) (by decide) (by decide) (by decide) (by decide) (by decide) (by decide) (by decide)),
      (h c _ (mem_unscoped main_arg6 (by decide))).trans (mem9_kept m ρ c main_arg6 (by decide) (by decide) (by decide) (by decide) (by decide) (by decide) (by decide) (by decide) (by decide)),
      (h c _ (mem_unscoped main_arg7 (by decide))).trans (mem9_kept m ρ c main_arg7 (by decide) (by decide) (by decide) (by decide) (by decide) (by decide) (by decide) (by decide) (by decide)),
      (h c _ (mem_unscoped main_arg8 (by decide))).trans (mem9_kept m ρ c main_arg8 (by decide) (by decide) (by decide) (by decide) (by decide) (by decide) (by decide) (by decide) (by decide)),
      (h c _ (mem_unscoped main_arg9 (by decide))).trans (mem9_kept m ρ c main_arg9 (by decide) (by decide) (by decide) (by decide) (by decide) (by decide) (by decide) (by decide) (by decide)),
      (h c _ (mem_unscoped main_arg10 (by decide))).trans (mem9_kept m ρ c main_arg10 (by decide) (by decide) (by decide) (by decide) (by decide) (by decide) (by decide) (by decide) (by decide)),
      (h c _ (mem_unscoped main_arg11 (by decide))).trans (mem9_kept m ρ c main_arg11 (by decide) (by decide) (by decide) (by decide) (by decide) (by decide) (by decide) (by decide) (by decide)),
      (h c _ (mem_unscoped main_arg12 (by decide))).trans (mem9_kept m ρ c main_arg12 (by decide) (by decide) (by decide) (by decide) (by decide) (by decide) (by decide) (by decide) (by decide)),
      (h c _ (mem_unscoped main_arg13 (by decide))).trans (mem9_kept m ρ c main_arg13 (by decide) (by decide) (by decide) (by decide) (by decide) (by decide) (by decide) (by decide) (by decide)),
      (h c _ (mem_unscoped main_arg14 (by decide))).trans (mem9_kept m ρ c main_arg14 (by decide) (by decide) (by decide) (by decide) (by decide) (by decide) (by decide) (by decide) (by decide)),
      (h c _ (mem_unscoped main_arg15 (by decide))).trans (mem9_kept m ρ c main_arg15 (by decide) (by decide) (by decide) (by decide) (by decide) (by decide) (by decide) (by decide) (by decide)),
      (h c _ (mem_unscoped main_arg16 (by decide))).trans (mem9_kept m ρ c main_arg16 (by decide) (by decide) (by decide) (by decide) (by decide) (by decide) (by decide) (by decide) (by decide)),
      (h c _ (mem_unscoped main_arg17 (by decide))).trans (mem9_kept m ρ c main_arg17 (by decide) (by decide) (by decide) (by decide) (by decide) (by decide) (by decide) (by decide) (by decide)),
      (h c _ (mem_unscoped main_arg18 (by decide))).trans (mem9_kept m ρ c main_arg18 (by decide) (by decide) (by decide) (by decide) (by decide) (by decide) (by decide) (by decide) (by decide)),
      (h c _ (mem_unscoped main_arg19 (by decide))).trans (mem9_kept m ρ c main_arg19 (by decide) (by decide) (by decide) (by decide) (by decide) (by decide) (by decide) (by decide) (by decide)),
      (h c _ (mem_unscoped main_arg20 (by decide))).trans (mem9_kept m ρ c main_arg20 (by decide) (by decide) (by decide) (by decide) (by decide) (by decide) (by decide) (by decide) (by decide))⟩)
    (run_all m ρ)

end Cert.KernelIdeal.Frame

end
-- ==== Proof.lean ====
/-
  The certificate of one graph network's relation messages: four relations (one, two, two and three node indices per
  atom), each a residual two-layer perceptron with a mish activation applied to the concatenated embeddings of an atom's
  nodes, the four results stacked.

  The kernel gathers the rows on the host, runs each relation's perceptron as a pipelined call over ten row blocks of
  10000 atoms, and reshapes and concatenates on the host; the reference does the same arithmetic on whole arrays.
  * Frames: every weakly fair execution of each kernel program (read at words, and read at extended reals) terminates,
    faults nowhere and leaves the arguments as launched — from one run of the whole program through its four calls
    (modules KRun / KIRun, over KRegion0-3 / KIRegion0-3); the reference's frame is its generated run.
  * The idealization rewrote nothing, so it preserves the kernel's meaning trivially.
  * Equality of results at the extended reals: each call's result array is, element by element, the perceptron of that row
    (KIValue0-3: the ten blocks cover the array; PayK0-3 and KIMath0-3: one element of the body's arithmetic), and so is the
    reference's (RefMlp0-3); the host operations around the calls are the same on both sides (KIFinal).  The only law of
    arithmetic used is associativity of addition; finiteness of the inputs is never needed.
-/
import proofs.«159146_j10170482557014_2_alg».proof.Defs
import proofs.«159146_j10170482557014_2_alg».proof.Proof.Gen.Kernel
import proofs.«159146_j10170482557014_2_alg».proof.Proof.Gen.Kernel.Skeleton
import proofs.«159146_j10170482557014_2_alg».proof.Proof.Gen.Kernel.Launch
import proofs.«159146_j10170482557014_2_alg».proof.Proof.Gen.Kernel.Regions
import proofs.«159146_j10170482557014_2_alg».proof.Proof.Gen.Kernel.Points
import proofs.«159146_j10170482557014_2_alg».proof.Proof.Gen.KernelIdeal
import proofs.«159146_j10170482557014_2_alg».proof.Proof.Gen.KernelIdeal.Skeleton
import proofs.«159146_j10170482557014_2_alg».proof.Proof.Gen.KernelIdeal.Launch
import proofs.«159146_j10170482557014_2_alg».proof.Proof.Gen.KernelIdeal.Regions
import proofs.«159146_j10170482557014_2_alg».proof.Proof.Gen.KernelIdeal.Points
import proofs.«159146_j10170482557014_2_alg».proof.Proof.Gen.ReferenceIdeal
import proofs.«159146_j10170482557014_2_alg».proof.Proof.Gen.ReferenceIdeal.Run
import proofs.«159146_j10170482557014_2_alg».proof.Proof.Gen.ReferenceIdeal.Read
import proofs.«159146_j10170482557014_2_alg».proof.Proof.Gen.Pre_finite_inputs
import proofs.«159146_j10170482557014_2_alg».proof.Proof.KFrame
import proofs.«159146_j10170482557014_2_alg».proof.Proof.KIFrame
import proofs.«159146_j10170482557014_2_alg».proof.Proof.KIFinal
import Idealize.ShloMosaic.Adequacy
import Idealize.ShloMosaic.Init

noncomputable section

namespace Cert.Proof

open Idealize.ShloMosaic Idealize.SL.Sem

/-- The kernel read at words runs to the end and keeps its arguments. -/
theorem frame_k : Cert.frame_Kernel := fun m ρ _ => Cert.Kernel.Frame.args_kept m ρ

/-- The kernel read at extended reals does too. -/
theorem frame_ki : Cert.frame_KernelIdeal := fun m ρ _ => Cert.KernelIdeal.Frame.args_kept m ρ

/-- The reference's run, with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten. -/
theorem preserves : Cert.preserves_Kernel_KernelIdeal := trivial

/-- Both programs end with the stacked perceptron outputs and the stacked index arrays of the same arguments. -/
theorem algebraic : Cert.algebraic_KernelIdeal_ReferenceIdeal := by
  intro m ρ m' ρ' _ hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)),
    fun c => Cert.ReferenceIdeal.Read.val_main_v91 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Frame.value_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19, e20⟩ := hagree c
    rw [Cert.ReferenceIdeal.Read.val_main_v90_eq, e0, e1, e2, e3, e4, e5, e6, e7, e8, e9, e10, e11, e12, e13, e14, e15, e16, e17, e18, e19, e20]
  · obtain ⟨e0, e1, e2, e3, e4, e5, e6, e7, e8, e9, e10, e11, e12, e13, e14, e15, e16, e17, e18, e19, e20⟩ := hagree c
    rw [e1, e2, e3, e4]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
